-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S400000x64 : Shape := ⟨2, ![400000, 64]⟩
abbrev S128x256 : Shape := ⟨2, ![128, 256]⟩
abbrev S256 : Shape := ⟨1, ![256]⟩
abbrev S256x64 : Shape := ⟨2, ![256, 64]⟩
abbrev S64 : Shape := ⟨1, ![64]⟩
abbrev S16384x17 : Shape := ⟨2, ![16384, 17]⟩
abbrev S139264 : Shape := ⟨1, ![139264]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256x64 .f32) (main_arg5 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S200000x128 .f32) (main_arg1 : FVec F S400000x64 .f32) (main_arg2 : FVec F S128x256 .f32) (main_arg3 : FVec F S256 .f32) (main_arg4 : FVec F S256x64 .f32) (main_arg5 : FVec F S64 .f32) (main_arg6 : IVec S16384x17 32) (main_arg7 : IVec S16384x17 32) (main_arg8 : IVec S139264 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S400000x64 .f32 := Host.absf main_arg1
  let main_cst_0 : FVec F S_ .f32 := constant S_ .f32 0x7F800000#32
  let main_v5 : FVec F S400000x64 .f32 := broadcastInDim S400000x64 ![] bcast_S_S400000x64 main_cst_0
  let main_v6 : IVec S400000x64 1 := cmpf .olt main_v4 main_v5
  let main_c_1 : IVec S_ 1 := constantI S_ 1 1#1
  let main_v7 : IVec S_ 1 := (fun x v => Host.reduce IntOp.andi x v reducesTo_S400000x64_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S200000x128 : Shape := ⟨2, ![200000, 128]⟩
abbrev S400000x64 : Shape := ⟨2, ![400000, 64]⟩
abbrev S128x256 : Shape := ⟨2, ![128, 256]⟩
abbrev S256 : Shape := ⟨1, ![256]⟩
abbrev S256x64 : Shape := ⟨2, ![256, 64]⟩
abbrev S64 : Shape := ⟨1, ![64]⟩
abbrev S16384x17 : Shape := ⟨2, ![16384, 17]⟩
abbrev S139264 : Shape := ⟨1, ![139264]⟩
abbrev S1x256 : Shape := ⟨2, ![1, 256]⟩
abbrev S1x64 : Shape := ⟨2, ![1, 64]⟩
abbrev S200000x64 : Shape := ⟨2, ![200000, 64]⟩
abbrev S5000x128 : Shape := ⟨2, ![5000, 128]⟩
abbrev S5000x64 : Shape := ⟨2, ![5000, 64]⟩
abbrev S5000 : Shape := ⟨1, ![5000]⟩
abbrev S5000x1 : Shape := ⟨2, ![5000, 1]⟩
abbrev S5000x256 : Shape := ⟨2, ![5000, 256]⟩
abbrev S278528 : Shape := ⟨1, ![278528]⟩
abbrev S16384x1 : Shape := ⟨2, ![16384, 1]⟩
abbrev S16384x1x17 : Shape := ⟨3, ![16384, 1, 17]⟩
abbrev S_ : Shape := ⟨0, ![]⟩
abbrev S278528x1 : Shape := ⟨2, ![278528, 1]⟩
abbrev S278528x64 : Shape := ⟨2, ![278528, 64]⟩
abbrev S139264x1 : Shape := ⟨2, ![139264, 1]⟩
abbrev S139264x64 : Shape := ⟨2, ![139264, 64]⟩
abbrev S16384x17x64 : Shape := ⟨3, ![16384, 17, 64]⟩
abbrev S1x1 : Shape := ⟨2, ![1, 1]⟩
abbrev S128x17x64 : Shape := ⟨3, ![128, 17, 64]⟩
abbrev S128x17 : Shape := ⟨2, ![128, 17]⟩
abbrev S128x17x1 : Shape := ⟨3, ![128, 17, 1]⟩
abbrev S128x1 : Shape := ⟨2, ![128, 1]⟩
abbrev S128 : Shape := ⟨1, ![128]⟩
abbrev S1 : Shape := ⟨1, ![1]⟩

abbrev nBuf : Space → Nat
  | .hbm => 100
  | .vmem => 18
  | .smem => 0
  | _ => 0

abbrev bufTy : (tb : Table) → Fin (tcTables nBuf tb) → BufTy
  | .hbm, ⟨0, _⟩ => ⟨S200000x128, .f32⟩
  | .hbm, ⟨1, _⟩ => ⟨S400000x64, .f32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S16384x17, .i32⟩
  | .hbm, ⟨7, _⟩ => ⟨S16384x17, .i32⟩
  | .hbm, ⟨8, _⟩ => ⟨S139264, .i32⟩
  | .hbm, ⟨9, _⟩ => ⟨S1x256, .f32⟩
  | .hbm, ⟨10, _⟩ => ⟨S1x64, .f32⟩
  | .hbm, ⟨11, _⟩ => ⟨S200000x64, .f32⟩
  | .hbm, ⟨12, _⟩ => ⟨S278528, .i32⟩
  | .hbm, ⟨13, _⟩ => ⟨S278528, .i32⟩
  | .hbm, ⟨14, _⟩ => ⟨S16384x1, .i32⟩
  | .hbm, ⟨15, _⟩ => ⟨S16384x1x17, .i32⟩
  | .hbm, ⟨16, _⟩ => ⟨S16384x17, .i32⟩
  | .hbm, ⟨17, _⟩ => ⟨S278528, .i32⟩
  | .hbm, ⟨18, _⟩ => ⟨S_, .i32⟩
  | .hbm, ⟨19, _⟩ => ⟨S278528, .i32⟩
  | .hbm, ⟨20, _⟩ => ⟨S278528, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S278528, .i32⟩
  | .hbm, ⟨25, _⟩ => ⟨S278528, .i32⟩
  | .hbm, ⟨26, _⟩ => ⟨S_, .i32⟩
  | .hbm, ⟨27, _⟩ => ⟨S278528, .i32⟩
  | .hbm, ⟨28, _⟩ => ⟨S278528, .i32⟩
  | .hbm, ⟨29, _⟩ => ⟨S_, .i32⟩
  | .hbm, ⟨30, _⟩ => ⟨S278528, .i32⟩
  | .hbm, ⟨31, _⟩ => ⟨S278528, .i1⟩
  | .hbm, ⟨32, _⟩ => ⟨S_, .i32⟩
  | .hbm, ⟨33, _⟩ => ⟨S278528, .i32⟩
  | .hbm, ⟨34, _⟩ => ⟨S278528, .i32⟩
  | .hbm, ⟨35, _⟩ => ⟨S278528, .i32⟩
  | .hbm, ⟨36, _⟩ => ⟨S278528x1, .i32⟩
  | .hbm, ⟨37, _⟩ => ⟨S278528x64, .f32⟩
  | .hbm, ⟨38, _⟩ => ⟨S_, .i32⟩
  | .hbm, ⟨39, _⟩ => ⟨S278528, .i32⟩
  | .hbm, ⟨40, _⟩ => ⟨S278528, .i1⟩
  | .hbm, ⟨41, _⟩ => ⟨S_, .i32⟩
  | .hbm, ⟨42, _⟩ => ⟨S278528, .i32⟩
  | .hbm, ⟨43, _⟩ => ⟨S278528, .i32⟩
  | .hbm, ⟨44, _⟩ => ⟨S278528, .i32⟩
  | .hbm, ⟨45, _⟩ => ⟨S278528x1, .i32⟩
  | .hbm, ⟨46, _⟩ => ⟨S278528x64, .f32⟩
  | .hbm, ⟨47, _⟩ => ⟨S_, .i32⟩
  | .hbm, ⟨48, _⟩ => ⟨S278528, .i32⟩
  | .hbm, ⟨49, _⟩ => ⟨S278528, .i1⟩
  | .hbm, ⟨50, _⟩ => ⟨S_, .i32⟩
  | .hbm, ⟨51, _⟩ => ⟨S278528, .i32⟩
  | .hbm, ⟨52, _⟩ => ⟨S278528, .i32⟩
  | .hbm, ⟨53, _⟩ => ⟨S278528, .i32⟩
  | .hbm, ⟨54, _⟩ => ⟨S278528x1, .i32⟩
  | .hbm, ⟨55, _⟩ => ⟨S278528x64, .f32⟩
  | .hbm, ⟨56, _⟩ => ⟨S_, .i32⟩
  | .hbm, ⟨57, _⟩ => ⟨S278528, .i32⟩
  | .hbm, ⟨58, _⟩ => ⟨S278528, .i1⟩
  | .hbm, ⟨59, _⟩ => ⟨S_, .i32⟩
  | .hbm, ⟨60, _⟩ => ⟨S278528, .i32⟩
  | .hbm, ⟨61, _⟩ => ⟨S278528, .i32⟩
  | .hbm, ⟨62, _⟩ => ⟨S278528, .i32⟩
  | .hbm, ⟨63, _⟩ => ⟨S278528x1, .i32⟩
  | .hbm, ⟨64, _⟩ => ⟨S278528x64, .f32⟩
  | .hbm, ⟨65, _⟩ => ⟨S_, .i32⟩
  | .hbm, ⟨66, _⟩ => ⟨S139264, .i32⟩
  | .hbm, ⟨67, _⟩ => ⟨S139264, .i1⟩
  | .hbm, ⟨68, _⟩ => ⟨S_, .i32⟩
  | .hbm, ⟨69, _⟩ => ⟨S139264, .i32⟩
  | .hbm, ⟨70, _⟩ => ⟨S139264, .i32⟩
  | .hbm, ⟨71, _⟩ => ⟨S139264, .i32⟩
  | .hbm, ⟨72, _⟩ => ⟨S139264x1, .i32⟩
  | .hbm, ⟨73, _⟩ => ⟨S139264x64, .f32⟩
  | .hbm, ⟨74, _⟩ => ⟨S_, .i32⟩
  | .hbm, ⟨75, _⟩ => ⟨S139264, .i32⟩
  | .hbm, ⟨76, _⟩ => ⟨S139264, .i1⟩
  | .hbm, ⟨77, _⟩ => ⟨S_, .i32⟩
  | .hbm, ⟨78, _⟩ => ⟨S139264, .i32⟩
  | .hbm, ⟨79, _⟩ => ⟨S139264, .i32⟩
  | .hbm, ⟨80, _⟩ => ⟨S139264, .i32⟩
  | .hbm, ⟨81, _⟩ => ⟨S139264x1, .i32⟩
  | .hbm, ⟨82, _⟩ => ⟨S278528x64, .f32⟩
  | .hbm, ⟨83, _⟩ => ⟨S16384x17x64, .f32⟩
  | .hbm, ⟨84, _⟩ => ⟨S16384x17x64, .f32⟩
  | .hbm, ⟨85, _⟩ => ⟨S16384x17x64, .f32⟩
  | .hbm, ⟨86, _⟩ => ⟨S16384x17x64, .f32⟩
  | .hbm, ⟨87, _⟩ => ⟨S1x1, .f32⟩
  | .hbm, ⟨88, _⟩ => ⟨S1x1, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S256x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S128x17x64, .f32⟩
  | .local _ .vmem, ⟨9, _⟩ => ⟨S128x17x64, .f32⟩
  | .local _ .vmem, ⟨10, _⟩ => ⟨S128x17x64, .f32⟩
  | .local _ .vmem, ⟨11, _⟩ => ⟨S128x17x64, .f32⟩
  | .local _ .vmem, ⟨12, _⟩ => ⟨S128x17x64, .f32⟩
  | .local _ .vmem, ⟨13, _⟩ => ⟨S128x17x64, .f32⟩
  | .local _ .vmem, ⟨14, _⟩ => ⟨S128x17x64, .f32⟩
  | .local _ .vmem, ⟨15, _⟩ => ⟨S128x17x64, .f32⟩
  | .local _ .vmem, ⟨16, _⟩ => ⟨S1x1, .f32⟩
  | .local _ .vmem, ⟨17, _⟩ => ⟨S1x1, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_c_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_10 : Ref sig .tc := ⟨.hbm, 65, rfl⟩
abbrev main_v40 : Ref sig .tc := ⟨.hbm, 66, rfl⟩
abbrev main_v41 : Ref sig .tc := ⟨.hbm, 67, rfl⟩
abbrev main_c_11 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_c_13 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58_0 : Ref sig .tc := ⟨.hbm, 87, rfl⟩
abbrev main_v58_1 : Ref sig .tc := ⟨.hbm, 88, rfl⟩
abbrev main_v59 : Ref sig .tc := ⟨.hbm, 89, rfl⟩
abbrev main_v60 : Ref sig .tc := ⟨.hbm, 90, rfl⟩
abbrev main_cst : Ref sig .tc := ⟨.hbm, 91, rfl⟩
abbrev main_v61 : Ref sig .tc := ⟨.hbm, 92, rfl⟩
abbrev main_cst_14 : Ref sig .tc := ⟨.hbm, 93, rfl⟩
abbrev main_v62 : Ref sig .tc := ⟨.hbm, 94, rfl⟩
abbrev main_cst_15 : Ref sig .tc := ⟨.hbm, 95, rfl⟩
abbrev main_v63 : Ref sig .tc := ⟨.hbm, 96, rfl⟩
abbrev main_cst_16 : Ref sig .tc := ⟨.hbm, 97, rfl⟩
abbrev main_v64 : Ref sig .tc := ⟨.hbm, 98, rfl⟩
abbrev main_v65 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x17x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x17x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x17x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x17x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  shapeCasts_S256_S1x256 : S256.ShapeCasts S1x256
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  reduces_S5000x128_S5000 : S5000x128.Reduces [1] S5000
  shapeCasts_S5000_S5000x1 : S5000.ShapeCasts S5000x1
  broadcasts_S5000x1_S5000x128 : S5000x1.Broadcasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S16384x17_S278528 : S16384x17.ShapeCasts S278528
  slices_S16384x17_S16384x1_0_0 : S16384x17.Slices ![0, 0] S16384x1
  bcast_S16384x1_S16384x1x17_0_1 : S16384x1.BroadcastsInDim S16384x1x17 (![0, 1] : Fin 2 → Fin S16384x1x17.rank)
  shapeCasts_S16384x1x17_S16384x17 : S16384x1x17.ShapeCasts S16384x17
  bcast_S_S278528 : S_.BroadcastsInDim S278528 (![] : Fin 0 → Fin S278528.rank)
  bcast_S278528_S278528x1_0 : S278528.BroadcastsInDim S278528x1 (![0] : Fin 1 → Fin S278528x1.rank)
  bcast_S_S139264 : S_.BroadcastsInDim S139264 (![] : Fin 0 → Fin S139264.rank)
  bcast_S139264_S139264x1_0 : S139264.BroadcastsInDim S139264x1 (![0] : Fin 1 → Fin S139264x1.rank)
  shapeCasts_S278528x64_S16384x17x64 : S278528x64.ShapeCasts S16384x17x64
  inb_S1x1_S1x1_0_0 : ∀ a, (![0, 0] : Fin 2 → Nat) a + S1x1.size a ≤ S1x1.size a
  h_S1x1 : 0 < S1x1.numel
  inb_S128x17x64_S128x17x64_0_0_0 : ∀ a, (![0, 0, 0] : Fin 3 → Nat) a + S128x17x64.size a ≤ S128x17x64.size a
  h_S128x17x64 : 0 < S128x17x64.numel
  shapeCasts_S128x17x64_S128x17x64 : S128x17x64.ShapeCasts S128x17x64
  reduces_S128x17x64_S128x17 : S128x17x64.Reduces [2] S128x17
  shapeCasts_S128x17_S128x17x1 : S128x17.ShapeCasts S128x17x1
  broadcasts_S128x17x1_S128x17x64 : S128x17x1.Broadcasts S128x17x64
  shapeCasts_S1x1_S1x1 : S1x1.ShapeCasts S1x1
  slices_S128x17_o0_0_S128x1 : S128x17.Slices ![0, 0] S128x1
  reduces_S128x17_S128 : S128x17.Reduces [1] S128
  shapeCasts_S128_S128x1 : S128.ShapeCasts S128x1
  reduces_S128x1_S1 : S128x1.Reduces [0] S1
  shapeCasts_S1_S1x1 : S1.ShapeCasts S1x1
  shapeCasts_S1x1_S_ : S1x1.ShapeCasts S_
  dot_S5000x128_S128x256_S5000x256_1_0_0_1_n_n_wf : DotDims.WF S5000x128 S128x256 S5000x256 [1] [0] [0] [1] [] []
  dot_S5000x256_S256x64_S5000x64_1_0_0_1_n_n_wf : DotDims.WF S5000x256 S256x64 S5000x64 [1] [0] [0] [1] [] []
  gather_S200000x64_S278528x1_S278528x64_1_0_n_n_0_1_164_wf : GatherDims.WF S200000x64 S278528x1 S278528x64 [1] [0] [] [0] [] 1 ![1, 64]
  gather_S400000x64_S278528x1_S278528x64_1_0_n_n_0_1_164_wf : GatherDims.WF S400000x64 S278528x1 S278528x64 [1] [0] [] [0] [] 1 ![1, 64]
  gather_S278528x64_S139264x1_S139264x64_1_0_n_n_0_1_164_wf : GatherDims.WF S278528x64 S139264x1 S139264x64 [1] [0] [] [0] [] 1 ![1, 64]
  scatter_S278528x64_S139264x1_S139264x64_1_0_0_1_wf : ScatterDims.WF S278528x64 S139264x1 S139264x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .f32 = 32 ∨ (Rect.block (s := S200000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S200000x64.size a
  hwx0_5 : ∀ i : grid0.Coords, EltTy.bits .f32 = 32 ∨ (Rect.block (s := S200000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x17x64.size a ≤ S16384x17x64.size a
  hwx1_0 : ∀ i : grid1.Coords, EltTy.bits .f32 = 32 ∨ (Rect.block (s := S16384x17x64) S128x17x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x17x64.size a ≤ S16384x17x64.size a
  hwx1_1 : ∀ i : grid1.Coords, EltTy.bits .f32 = 32 ∨ (Rect.block (s := S16384x17x64) S128x17x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x17x64.size a ≤ S16384x17x64.size a
  hwx1_2 : ∀ i : grid1.Coords, EltTy.bits .f32 = 32 ∨ (Rect.block (s := S16384x17x64) S128x17x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x17x64.size a ≤ S16384x17x64.size a
  hwx1_3 : ∀ i : grid1.Coords, EltTy.bits .f32 = 32 ∨ (Rect.block (s := S16384x17x64) S128x17x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S200000x64_S278528x1_S278528x64_1_0_n_n_0_1_164 : GatherDims S200000x64 S278528x1 S278528x64 where
  offsetDims := [1]
  collapsedSliceDims := [0]
  operandBatchingDims := []
  startIndicesBatchingDims := []
  startIndexMap := [0]
  indexVectorDim := 1
  sliceSizes := ![1, 64]
  wf := gather_S200000x64_S278528x1_S278528x64_1_0_n_n_0_1_164_wf
def gather_S400000x64_S278528x1_S278528x64_1_0_n_n_0_1_164 : GatherDims S400000x64 S278528x1 S278528x64 where
  offsetDims := [1]
  collapsedSliceDims := [0]
  operandBatchingDims := []
  startIndicesBatchingDims := []
  startIndexMap := [0]
  indexVectorDim := 1
  sliceSizes := ![1, 64]
  wf := gather_S400000x64_S278528x1_S278528x64_1_0_n_n_0_1_164_wf
def gather_S278528x64_S139264x1_S139264x64_1_0_n_n_0_1_164 : GatherDims S278528x64 S139264x1 S139264x64 where
  offsetDims := [1]
  collapsedSliceDims := [0]
  operandBatchingDims := []
  startIndicesBatchingDims := []
  startIndexMap := [0]
  indexVectorDim := 1
  sliceSizes := ![1, 64]
  wf := gather_S278528x64_S139264x1_S139264x64_1_0_n_n_0_1_164_wf
def scatter_S278528x64_S139264x1_S139264x64_1_0_0_1 : ScatterDims S278528x64 S139264x1 S139264x64 where
  updateWindowDims := [1]
  insertedWindowDims := [0]
  scatterDimsToOperandDims := [0]
  indexVectorDim := 1
  wf := scatter_S278528x64_S139264x1_S139264x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v54) S128x17x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S128x17x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S128x17x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v57) S128x17x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v58_0) S1x1.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58_1) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S200000x128 : Shape := ⟨2, ![200000, 128]⟩
abbrev S400000x64 : Shape := ⟨2, ![400000, 64]⟩
abbrev S128x256 : Shape := ⟨2, ![128, 256]⟩
abbrev S256 : Shape := ⟨1, ![256]⟩
abbrev S256x64 : Shape := ⟨2, ![256, 64]⟩
abbrev S64 : Shape := ⟨1, ![64]⟩
abbrev S16384x17 : Shape := ⟨2, ![16384, 17]⟩
abbrev S139264 : Shape := ⟨1, ![139264]⟩
abbrev S_ : Shape := ⟨0, ![]⟩
abbrev S200000 : Shape := ⟨1, ![200000]⟩
abbrev S200000x1 : Shape := ⟨2, ![200000, 1]⟩
abbrev S200000x256 : Shape := ⟨2, ![200000, 256]⟩
abbrev S1x256 : Shape := ⟨2, ![1, 256]⟩
abbrev S200000x64 : Shape := ⟨2, ![200000, 64]⟩
abbrev S1x64 : Shape := ⟨2, ![1, 64]⟩
abbrev S16384x1 : Shape := ⟨2, ![16384, 1]⟩
abbrev S16384x1x17 : Shape := ⟨3, ![16384, 1, 17]⟩
abbrev S278528 : Shape := ⟨1, ![278528]⟩
abbrev S278528x1 : Shape := ⟨2, ![278528, 1]⟩
abbrev S278528x64 : Shape := ⟨2, ![278528, 64]⟩
abbrev S139264x1 : Shape := ⟨2, ![139264, 1]⟩
abbrev S139264x64 : Shape := ⟨2, ![139264, 64]⟩
abbrev S16384 : Shape := ⟨1, ![16384]⟩

abbrev nBuf : Space → Nat
  | .hbm => 180
  | .vmem => 0
  | .smem => 0
  | _ => 0

abbrev hbmTy0_0 (i : Nat) : BufTy := match i % 128 with
  | 0 => ⟨S200000x128, .f32⟩
  | 1 => ⟨S400000x64, .f32⟩
  | 2 => ⟨S128x256, .f32⟩
  | 3 => ⟨S256, .f32⟩
  | 4 => ⟨S256x64, .f32⟩
  | 5 => ⟨S64, .f32⟩
  | 6 => ⟨S16384x17, .i32⟩
  | 7 => ⟨S16384x17, .i32⟩
  | 8 => ⟨S139264, .i32⟩
  | 9 => ⟨S200000x128, .f32⟩
  | 10 => ⟨S_, .f32⟩
  | 11 => ⟨S200000, .f32⟩
  | 12 => ⟨S200000x1, .f32⟩
  | 13 => ⟨S200000x1, .f32⟩
  | 14 => ⟨S_, .f32⟩
  | 15 => ⟨S200000x1, .f32⟩
  | 16 => ⟨S200000x1, .f32⟩
  | 17 => ⟨S200000x128, .f32⟩
  | 18 => ⟨S200000x128, .f32⟩
  | 19 => ⟨S200000x256, .f32⟩
  | 20 => ⟨S1x256, .f32⟩
  | 21 => ⟨S200000x256, .f32⟩
  | 22 => ⟨S200000x256, .f32⟩
  | 23 => ⟨S_, .f32⟩
  | 24 => ⟨S200000x256, .f32⟩
  | 25 => ⟨S200000x256, .i1⟩
  | 26 => ⟨S_, .f32⟩
  | 27 => ⟨S200000x256, .f32⟩
  | 28 => ⟨S200000x256, .f32⟩
  | 29 => ⟨S200000x256, .f32⟩
  | 30 => ⟨S200000x64, .f32⟩
  | 31 => ⟨S1x64, .f32⟩
  | 32 => ⟨S200000x64, .f32⟩
  | 33 => ⟨S200000x64, .f32⟩
  | 34 => ⟨S16384x1, .i32⟩
  | 35 => ⟨S16384x1x17, .i32⟩
  | 36 => ⟨S16384x17, .i32⟩
  | 37 => ⟨S278528, .i32⟩
  | 38 => ⟨S278528, .i32⟩
  | 39 => ⟨S278528, .i32⟩
  | 40 => ⟨S_, .i32⟩
  | 41 => ⟨S278528, .i32⟩
  | 42 => ⟨S278528, .i32⟩
  | 43 => ⟨S_, .i32⟩
  | 44 => ⟨S_, .i32⟩
  | 45 => ⟨S_, .i32⟩
  | 46 => ⟨S278528, .i32⟩
  | 47 => ⟨S278528, .i32⟩
  | 48 => ⟨S_, .i32⟩
  | 49 => ⟨S278528, .i32⟩
  | 50 => ⟨S278528, .i32⟩
  | 51 => ⟨S_, .i32⟩
  | 52 => ⟨S278528, .i32⟩
  | 53 => ⟨S278528, .i1⟩
  | 54 => ⟨S_, .i32⟩
  | 55 => ⟨S278528, .i32⟩
  | 56 => ⟨S278528, .i32⟩
  | 57 => ⟨S278528, .i32⟩
  | 58 => ⟨S278528x1, .i32⟩
  | 59 => ⟨S278528x64, .f32⟩
  | 60 => ⟨S_, .i32⟩
  | 61 => ⟨S278528, .i32⟩
  | 62 => ⟨S278528, .i1⟩
  | 63 => ⟨S_, .i32⟩
  | 64 => ⟨S278528, .i32⟩
  | 65 => ⟨S278528, .i32⟩
  | 66 => ⟨S278528, .i32⟩
  | 67 => ⟨S278528x1, .i32⟩
  | 68 => ⟨S278528x64, .f32⟩
  | 69 => ⟨S_, .i32⟩
  | 70 => ⟨S278528, .i32⟩
  | 71 => ⟨S278528, .i1⟩
  | 72 => ⟨S_, .i32⟩
  | 73 => ⟨S278528, .i32⟩
  | 74 => ⟨S278528, .i32⟩
  | 75 => ⟨S278528, .i32⟩
  | 76 => ⟨S278528x1, .i32⟩
  | 77 => ⟨S278528x64, .f32⟩
  | 78 => ⟨S_, .i32⟩
  | 79 => ⟨S278528, .i32⟩
  | 80 => ⟨S278528, .i1⟩
  | 81 => ⟨S_, .i32⟩
  | 82 => ⟨S278528, .i32⟩
  | 83 => ⟨S278528, .i32⟩
  | 84 => ⟨S278528, .i32⟩
  | 85 => ⟨S278528x1, .i32⟩
  | 86 => ⟨S278528x64, .f32⟩
  | 87 => ⟨S278528x64, .f32⟩
  | 88 => ⟨S_, .f32⟩
  | 89 => ⟨S278528, .f32⟩
  | 90 => ⟨S278528x1, .f32⟩
  | 91 => ⟨S278528x1, .f32⟩
  | 92 => ⟨S_, .f32⟩
  | 93 => ⟨S278528x1, .f32⟩
  | 94 => ⟨S278528x1, .f32⟩
  | 95 => ⟨S278528x64, .f32⟩
  | 96 => ⟨S278528x64, .f32⟩
  | 97 => ⟨S278528x64, .f32⟩
  | 98 => ⟨S_, .f32⟩
  | 99 => ⟨S278528, .f32⟩
  | 100 => ⟨S278528x1, .f32⟩
  | 101 => ⟨S278528x1, .f32⟩
  | 102 => ⟨S_, .f32⟩
  | 103 => ⟨S278528x1, .f32⟩
  | 104 => ⟨S278528x1, .f32⟩
  | 105 => ⟨S278528x64, .f32⟩
  | 106 => ⟨S278528x64, .f32⟩
  | 107 => ⟨S_, .i32⟩
  | 108 => ⟨S139264, .i32⟩
  | 109 => ⟨S139264, .i1⟩
  | 110 => ⟨S_, .i32⟩
  | 111 => ⟨S139264, .i32⟩
  | 112 => ⟨S139264, .i32⟩
  | 113 => ⟨S139264, .i32⟩
  | 114 => ⟨S139264x1, .i32⟩
  | 115 => ⟨S139264x64, .f32⟩
  | 116 => ⟨S_, .i32⟩
  | 117 => ⟨S139264, .i32⟩
  | 118 => ⟨S139264, .i1⟩
  | 119 => ⟨S_, .i32⟩
  | 120 => ⟨S139264, .i32⟩
  | 121 => ⟨S139264, .i32⟩
  | 122 => ⟨S139264, .i32⟩
  | 123 => ⟨S139264x1, .i32⟩
  | 124 => ⟨S278528x64, .f32⟩
  | 125 => ⟨S278528x64, .f32⟩
  | 126 => ⟨S_, .f32⟩
  | 127 => ⟨S278528, .f32⟩
  | _ => ⟨S200000x128, .f32⟩

abbrev hbmTy0_1 (i : Nat) : BufTy := match i % 128 with
  | 0 => ⟨S_, .f32⟩
  | 1 => ⟨S278528, .f32⟩
  | 2 => ⟨S278528, .f32⟩
  | 3 => ⟨S278528, .f32⟩
  | 4 => ⟨S16384x17, .f32⟩
  | 5 => ⟨S16384x1, .f32⟩
  | 6 => ⟨S16384, .f32⟩
  | 7 => ⟨S_, .f32⟩
  | 8 => ⟨S16384, .f32⟩
  | 9 => ⟨S_, .f32⟩
  | 10 => ⟨S16384, .f32⟩
  | 11 => ⟨S16384, .f32⟩
  | 12 => ⟨S16384, .f32⟩
  | 13 => ⟨S_, .f32⟩
  | 14 => ⟨S16384, .f32⟩
  | 15 => ⟨S16384, .f32⟩
  | 16 => ⟨S16384, .f32⟩
  | 17 => ⟨S16384, .f32⟩
  | 18 => ⟨S_, .f32⟩
  | 19 => ⟨S_, .f32⟩
  | 20 => ⟨S_, .f32⟩
  | 21 => ⟨S_, .f32⟩
  | 22 => ⟨S278528x64, .f32⟩
  | 23 => ⟨S_, .f32⟩
  | 24 => ⟨S278528, .f32⟩
  | 25 => ⟨S_, .f32⟩
  | 26 => ⟨S278528, .f32⟩
  | 27 => ⟨S278528, .f32⟩
  | 28 => ⟨S278528, .f32⟩
  | 29 => ⟨S16384x17, .f32⟩
  | 30 => ⟨S16384x1, .f32⟩
  | 31 => ⟨S16384, .f32⟩
  | 32 => ⟨S_, .f32⟩
  | 33 => ⟨S16384, .f32⟩
  | 34 => ⟨S_, .f32⟩
  | 35 => ⟨S16384, .f32⟩
  | 36 => ⟨S16384, .f32⟩
  | 37 => ⟨S16384, .f32⟩
  | 38 => ⟨S_, .f32⟩
  | 39 => ⟨S16384, .f32⟩
  | 40 => ⟨S16384, .f32⟩
  | 41 => ⟨S16384, .f32⟩
  | 42 => ⟨S16384, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c : Ref sig .tc := ⟨.hbm, 40, rfl⟩
abbrev main_v23 : Ref sig .tc := ⟨.hbm, 41, rfl⟩
abbrev main_v24 : Ref sig .tc := ⟨.hbm, 42, rfl⟩
abbrev main_c_1 : Ref sig .tc := ⟨.hbm, 43, rfl⟩
abbrev main_c_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v25 : Ref sig .tc := ⟨.hbm, 50, rfl⟩
abbrev main_c_3 : Ref sig .tc := ⟨.hbm, 51, rfl⟩
abbrev main_v26 : Ref sig .tc := ⟨.hbm, 52, rfl⟩
abbrev main_v27 : Ref sig .tc := ⟨.hbm, 53, rfl⟩
abbrev main_c_4 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_5 : Ref sig .tc := ⟨.hbm, 60, rfl⟩
abbrev main_v33 : Ref sig .tc := ⟨.hbm, 61, rfl⟩
abbrev main_v34 : Ref sig .tc := ⟨.hbm, 62, rfl⟩
abbrev main_c_6 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_7 : Ref sig .tc := ⟨.hbm, 69, rfl⟩
abbrev main_v40 : Ref sig .tc := ⟨.hbm, 70, rfl⟩
abbrev main_v41 : Ref sig .tc := ⟨.hbm, 71, rfl⟩
abbrev main_c_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_9 : Ref sig .tc := ⟨.hbm, 78, rfl⟩
abbrev main_v47 : Ref sig .tc := ⟨.hbm, 79, rfl⟩
abbrev main_v48 : Ref sig .tc := ⟨.hbm, 80, rfl⟩
abbrev main_c_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_11 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_12 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_13 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_15 : Ref sig .tc := ⟨.hbm, 107, rfl⟩
abbrev main_v70 : Ref sig .tc := ⟨.hbm, 108, rfl⟩
abbrev main_v71 : Ref sig .tc := ⟨.hbm, 109, rfl⟩
abbrev main_c_16 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_17 : Ref sig .tc := ⟨.hbm, 116, rfl⟩
abbrev main_v77 : Ref sig .tc := ⟨.hbm, 117, rfl⟩
abbrev main_v78 : Ref sig .tc := ⟨.hbm, 118, rfl⟩
abbrev main_c_18 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_19 : Ref sig .tc := ⟨.hbm, 126, rfl⟩
abbrev main_v85 : Ref sig .tc := ⟨.hbm, 127, rfl⟩
abbrev main_cst_20 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_21 : Ref sig .tc := ⟨.hbm, 135, rfl⟩
abbrev main_v92 : Ref sig .tc := ⟨.hbm, 136, rfl⟩
abbrev main_cst_22 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_23 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_24 : Ref sig .tc := ⟨.hbm, 146, rfl⟩
abbrev main_v100 : Ref sig .tc := ⟨.hbm, 147, rfl⟩
abbrev main_cst_25 : Ref sig .tc := ⟨.hbm, 148, rfl⟩
abbrev main_v101 : Ref sig .tc := ⟨.hbm, 149, rfl⟩
abbrev main_v102 : Ref sig .tc := ⟨.hbm, 150, rfl⟩
abbrev main_cst_26 : Ref sig .tc := ⟨.hbm, 151, rfl⟩
abbrev main_v103 : Ref sig .tc := ⟨.hbm, 152, rfl⟩
abbrev main_cst_27 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_28 : Ref sig .tc := ⟨.hbm, 160, rfl⟩
abbrev main_v110 : Ref sig .tc := ⟨.hbm, 161, rfl⟩
abbrev main_cst_29 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_30 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_31 : Ref sig .tc := ⟨.hbm, 171, rfl⟩
abbrev main_v118 : Ref sig .tc := ⟨.hbm, 172, rfl⟩
abbrev main_cst_32 : Ref sig .tc := ⟨.hbm, 173, rfl⟩
abbrev main_v119 : Ref sig .tc := ⟨.hbm, 174, rfl⟩
abbrev main_cst_33 : Ref sig .tc := ⟨.hbm, 175, rfl⟩
abbrev main_v120 : Ref sig .tc := ⟨.hbm, 176, rfl⟩
abbrev main_cst_34 : Ref sig .tc := ⟨.hbm, 177, rfl⟩
abbrev main_v121 : Ref sig .tc := ⟨.hbm, 178, rfl⟩
abbrev main_v122 : Ref sig .tc := ⟨.hbm, 179, rfl⟩

abbrev nD : Nat := 1
abbrev τ : Topo := Topo.v7x

variable {F : FTy → Type} [FloatOps F]

class Facts₀ : Prop where
  reducesTo_S200000x128_S200000_d1 : S200000x128.ReducesTo [1] S200000
  h_S_ : 0 < S_.numel
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  slices_S16384x17_S16384x1_0_0 : S16384x17.Slices ![0, 0] S16384x1
  bcast_S16384x1_S16384x1x17_0_1 : S16384x1.BroadcastsInDim S16384x1x17 (![0, 1] : Fin 2 → Fin S16384x1x17.rank)
  shapeCasts_S16384x1x17_S16384x17 : S16384x1x17.ShapeCasts S16384x17
  shapeCasts_S16384x17_S278528 : S16384x17.ShapeCasts S278528
  bcast_S_S278528 : S_.BroadcastsInDim S278528 (![] : Fin 0 → Fin S278528.rank)
  bcast_S278528_S278528x1_0 : S278528.BroadcastsInDim S278528x1 (![0] : Fin 1 → Fin S278528x1.rank)
  reducesTo_S278528x64_S278528_d1 : S278528x64.ReducesTo [1] S278528
  bcast_S_S278528x1 : S_.BroadcastsInDim S278528x1 (![] : Fin 0 → Fin S278528x1.rank)
  bcast_S278528x1_S278528x64_0_1 : S278528x1.BroadcastsInDim S278528x64 (![0, 1] : Fin 2 → Fin S278528x64.rank)
  bcast_S_S139264 : S_.BroadcastsInDim S139264 (![] : Fin 0 → Fin S139264.rank)
  bcast_S139264_S139264x1_0 : S139264.BroadcastsInDim S139264x1 (![0] : Fin 1 → Fin S139264x1.rank)
  shapeCasts_S278528_S16384x17 : S278528.ShapeCasts S16384x17
  shapeCasts_S16384x1_S16384 : S16384x1.ShapeCasts S16384
  reducesTo_S16384x17_S16384_d1 : S16384x17.ReducesTo [1] S16384
  bcast_S_S16384 : S_.BroadcastsInDim S16384 (![] : Fin 0 → Fin S16384.rank)
  reducesTo_S16384_S_d0 : S16384.ReducesTo [0] S_
  dot_S200000x128_S128x256_S200000x256_1_0_0_1_n_n_wf : DotDims.WF S200000x128 S128x256 S200000x256 [1] [0] [0] [1] [] []
  dot_S200000x256_S256x64_S200000x64_1_0_0_1_n_n_wf : DotDims.WF S200000x256 S256x64 S200000x64 [1] [0] [0] [1] [] []
  gather_S200000x64_S278528x1_S278528x64_1_0_n_n_0_1_164_wf : GatherDims.WF S200000x64 S278528x1 S278528x64 [1] [0] [] [0] [] 1 ![1, 64]
  gather_S400000x64_S278528x1_S278528x64_1_0_n_n_0_1_164_wf : GatherDims.WF S400000x64 S278528x1 S278528x64 [1] [0] [] [0] [] 1 ![1, 64]
  gather_S278528x64_S139264x1_S139264x64_1_0_n_n_0_1_164_wf : GatherDims.WF S278528x64 S139264x1 S139264x64 [1] [0] [] [0] [] 1 ![1, 64]
  scatter_S278528x64_S139264x1_S139264x64_1_0_0_1_wf : ScatterDims.WF S278528x64 S139264x1 S139264x64 [1] [0] [0] 1

variable [Facts₀]

def dot_S200000x128_S128x256_S200000x256_1_0_0_1_n_n : DotDims S200000x128 S128x256 S200000x256 where
  lhsContracting := [1]
  rhsContracting := [0]
  lhsNonContracting := [0]
  rhsNonContracting := [1]
  lhsBatch := []
  rhsBatch := []
  wf := dot_S200000x128_S128x256_S200000x256_1_0_0_1_n_n_wf
def dot_S200000x256_S256x64_S200000x64_1_0_0_1_n_n : DotDims S200000x256 S256x64 S200000x64 where
  lhsContracting := [1]
  rhsContracting := [0]
  lhsNonContracting := [0]
  rhsNonContracting := [1]
  lhsBatch := []
  rhsBatch := []
  wf := dot_S200000x256_S256x64_S200000x64_1_0_0_1_n_n_wf
def gather_S200000x64_S278528x1_S278528x64_1_0_n_n_0_1_164 : GatherDims S200000x64 S278528x1 S278528x64 where
  offsetDims := [1]
  collapsedSliceDims := [0]
  operandBatchingDims := []
  startIndicesBatchingDims := []
  startIndexMap := [0]
  indexVectorDim := 1
  sliceSizes := ![1, 64]
  wf := gather_S200000x64_S278528x1_S278528x64_1_0_n_n_0_1_164_wf
def gather_S400000x64_S278528x1_S278528x64_1_0_n_n_0_1_164 : GatherDims S400000x64 S278528x1 S278528x64 where
  offsetDims := [1]
  collapsedSliceDims := [0]
  operandBatchingDims := []
  startIndicesBatchingDims := []
  startIndexMap := [0]
  indexVectorDim := 1
  sliceSizes := ![1, 64]
  wf := gather_S400000x64_S278528x1_S278528x64_1_0_n_n_0_1_164_wf
def gather_S278528x64_S139264x1_S139264x64_1_0_n_n_0_1_164 : GatherDims S278528x64 S139264x1 S139264x64 where
  offsetDims := [1]
  collapsedSliceDims := [0]
  operandBatchingDims := []
  startIndicesBatchingDims := []
  startIndexMap := [0]
  indexVectorDim := 1
  sliceSizes := ![1, 64]
  wf := gather_S278528x64_S139264x1_S139264x64_1_0_n_n_0_1_164_wf
def scatter_S278528x64_S139264x1_S139264x64_1_0_0_1 : ScatterDims S278528x64 S139264x1 S139264x64 where
  updateWindowDims := [1]
  insertedWindowDims := [0]
  scatterDimsToOperandDims := [0]
  indexVectorDim := 1
  wf := scatter_S278528x64_S139264x1_S139264x64_1_0_0_1_wf

class Facts : Prop extends Facts₀ where

variable [Facts]
-- ==== Proof.KRun.lean ====
/-
  The idealized kernel program's run with its RESULT named: every weakly fair execution of @main
  terminates, and in every final state the result buffer holds what the last stretch of host
  operations leaves there (the fold of the program's seven segments from the launch memory),
  the nine argument arrays as launched.  The frame of the program states the same run with the
  arguments only; the result buffer is one more unscoped buffer of the last thread state.
-/
import proofs.«151807_j21251498181534_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its segments, read at the result buffer as well as at the arguments. -/
theorem run_value : θ_run defs (onTc (τ := τ) (main (F := F))) ⟨m, fun _ => 0, ρ⟩ (fun r => ∀ c : Dev nD,
      r.2.mem ((c.tc : Thread nD τ).loc main_v65) = W7 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v65 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.KRun

end
-- ==== Proof.Spec.lean ====
/-
  The reference's result as ONE pure function of the nine argument arrays, stage by stage.
  Each stage is the composition of the host operations the reference applies, in its order:
  the encoder (row normalisation, two matrix products with bias, a leaky rectifier between them),
  the five index columns computed from the integer arguments, the row gathers and the row
  scatter that replaces some embedding rows by encoded features, the row normalisation of a
  278528-by-64 matrix, the contrastive loss of two such matrices, and the final average.
-/
import proofs.«151807_j21251498181534_1_alg».proof.Proof.Gen.ReferenceIdeal
import Idealize.ShloMosaic.PureOps

noncomputable section

namespace Cert.Spec

open Idealize.ShloMosaic Cert.ReferenceIdeal Cert.ReferenceIdeal.Gen

variable {F : FTy → Type} [FloatOps F]

/-- The encoder on the host: each row of `a0` divided by the larger of its Euclidean norm and the small constant, times `a2` plus the row `a3`, the leaky rectifier of slope 0.01, times `a4` plus the row `a5`. -/
def enc (a0 : (⟨S200000x128, .f32⟩ : BufTy).Contents (Elt F)) (a2 : (⟨S128x256, .f32⟩ : BufTy).Contents (Elt F)) (a3 : (⟨S256, .f32⟩ : BufTy).Contents (Elt F)) (a4 : (⟨S256x64, .f32⟩ : BufTy).Contents (Elt F)) (a5 : (⟨S64, .f32⟩ : BufTy).Contents (Elt F)) : (⟨S200000x64, .f32⟩ : BufTy).Contents (Elt F) :=
  let main_v0 : (⟨S200000x128, .f32⟩ : BufTy).Contents (Elt F) := (mulf : (⟨S200000x128, .f32⟩ : BufTy).Contents (Elt F) → (⟨S200000x128, .f32⟩ : BufTy).Contents (Elt F) → (⟨S200000x128, .f32⟩ : BufTy).Contents (Elt F)) a0 a0
  let main_cst : (⟨S_, .f32⟩ : BufTy).Contents (Elt F) := constant S_ .f32 0x00000000#32
  let main_v1 : (⟨S200000, .f32⟩ : BufTy).Contents (Elt F) := ((fun x v => Host.reduceAdd x v reducesTo_S200000x128_S200000_d1 h_S_) : (⟨S200000x128, .f32⟩ : BufTy).Contents (Elt F) → (⟨S_, .f32⟩ : BufTy).Contents (Elt F) → (⟨S200000, .f32⟩ : BufTy).Contents (Elt F)) main_v0 main_cst
  let main_v2 : (⟨S200000x1, .f32⟩ : BufTy).Contents (Elt F) := (broadcastInDim S200000x1 ![0] bcast_S200000_S200000x1_0 : (⟨S200000, .f32⟩ : BufTy).Contents (Elt F) → (⟨S200000x1, .f32⟩ : BufTy).Contents (Elt F)) main_v1
  let main_v3 : (⟨S200000x1, .f32⟩ : BufTy).Contents (Elt F) := (Host.sqrt : (⟨S200000x1, .f32⟩ : BufTy).Contents (Elt F) → (⟨S200000x1, .f32⟩ : BufTy).Contents (Elt F)) main_v2
  let main_cst_0 : (⟨S_, .f32⟩ : BufTy).Contents (Elt F) := constant S_ .f32 0x2B8CBCCC#32
  let main_v4 : (⟨S200000x1, .f32⟩ : BufTy).Contents (Elt F) := (broadcastInDim S200000x1 ![] bcast_S_S200000x1 : (⟨S_, .f32⟩ : BufTy).Contents (Elt F) → (⟨S200000x1, .f32⟩ : BufTy).Contents (Elt F)) main_cst_0
  let main_v5 : (⟨S200000x1, .f32⟩ : BufTy).Contents (Elt F) := (maximumf : (⟨S200000x1, .f32⟩ : BufTy).Contents (Elt F) → (⟨S200000x1, .f32⟩ : BufTy).Contents (Elt F) → (⟨S200000x1, .f32⟩ : BufTy).Contents (Elt F)) main_v3 main_v4
  let main_v6 : (⟨S200000x128, .f32⟩ : BufTy).Contents (Elt F) := (broadcastInDim S200000x128 ![0, 1] bcast_S200000x1_S200000x128_0_1 : (⟨S200000x1, .f32⟩ : BufTy).Contents (Elt F) → (⟨S200000x128, .f32⟩ : BufTy).Contents (Elt F)) main_v5
  let main_v7 : (⟨S200000x128, .f32⟩ : BufTy).Contents (Elt F) := (Host.divf : (⟨S200000x128, .f32⟩ : BufTy).Contents (Elt F) → (⟨S200000x128, .f32⟩ : BufTy).Contents (Elt F) → (⟨S200000x128, .f32⟩ : BufTy).Contents (Elt F)) a0 main_v6
  let main_v8 : (⟨S200000x256, .f32⟩ : BufTy).Contents (Elt F) := ((fun l r => Host.dotGeneral dot_S200000x128_S128x256_S200000x256_1_0_0_1_n_n none l r) : (⟨S200000x128, .f32⟩ : BufTy).Contents (Elt F) → (⟨S128x256, .f32⟩ : BufTy).Contents (Elt F) → (⟨S200000x256, .f32⟩ : BufTy).Contents (Elt F)) main_v7 a2
  let main_v9 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) a3
  let main_v10 : (⟨S200000x256, .f32⟩ : BufTy).Contents (Elt F) := (broadcastInDim S200000x256 ![0, 1] bcast_S1x256_S200000x256_0_1 : (⟨S1x256, .f32⟩ : BufTy).Contents (Elt F) → (⟨S200000x256, .f32⟩ : BufTy).Contents (Elt F)) main_v9
  let main_v11 : (⟨S200000x256, .f32⟩ : BufTy).Contents (Elt F) := (addf : (⟨S200000x256, .f32⟩ : BufTy).Contents (Elt F) → (⟨S200000x256, .f32⟩ : BufTy).Contents (Elt F) → (⟨S200000x256, .f32⟩ : BufTy).Contents (Elt F)) main_v8 main_v10
  let main_call0_cst : (⟨S_, .f32⟩ : BufTy).Contents (Elt F) := constant S_ .f32 0x00000000#32
  let main_call0_v0 : (⟨S200000x256, .f32⟩ : BufTy).Contents (Elt F) := (broadcastInDim S200000x256 ![] bcast_S_S200000x256) main_call0_cst
  let main_call0_v1 : (⟨S200000x256, .i1⟩ : BufTy).Contents (Elt F) := (cmpf .oge) main_v11 main_call0_v0
  let main_call0_cst_0 : (⟨S_, .f32⟩ : BufTy).Contents (Elt F) := constant S_ .f32 0x3C23D70A#32
  let main_call0_v2 : (⟨S200000x256, .f32⟩ : BufTy).Contents (Elt F) := (broadcastInDim S200000x256 ![] bcast_S_S200000x256) main_call0_cst_0
  let main_call0_v3 : (⟨S200000x256, .f32⟩ : BufTy).Contents (Elt F) := mulf main_call0_v2 main_v11
  let main_v12 : (⟨S200000x256, .f32⟩ : BufTy).Contents (Elt F) := select main_call0_v1 main_v11 main_call0_v3
  let main_v13 : (⟨S200000x64, .f32⟩ : BufTy).Contents (Elt F) := ((fun l r => Host.dotGeneral dot_S200000x256_S256x64_S200000x64_1_0_0_1_n_n none l r) : (⟨S200000x256, .f32⟩ : BufTy).Contents (Elt F) → (⟨S256x64, .f32⟩ : BufTy).Contents (Elt F) → (⟨S200000x64, .f32⟩ : BufTy).Contents (Elt F)) main_v12 a4
  let main_v14 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) a5
  let main_v15 : (⟨S200000x64, .f32⟩ : BufTy).Contents (Elt F) := (broadcastInDim S200000x64 ![0, 1] bcast_S1x64_S200000x64_0_1 : (⟨S1x64, .f32⟩ : BufTy).Contents (Elt F) → (⟨S200000x64, .f32⟩ : BufTy).Contents (Elt F)) main_v14
  (addf : (⟨S200000x64, .f32⟩ : BufTy).Contents (Elt F) → (⟨S200000x64, .f32⟩ : BufTy).Contents (Elt F) → (⟨S200000x64, .f32⟩ : BufTy).Contents (Elt F)) main_v13 main_v15

/-- The feature-table row of each flattened item id: the id minus 200000 clamped to 0 … 199999, wrapped if negative, as a column of start indices. -/
def featIdx (a7 : (⟨S16384x17, .i32⟩ : BufTy).Contents (Elt F)) : (⟨S278528x1, .i32⟩ : BufTy).Contents (Elt F) :=
  let main_v22 : (⟨S278528, .i32⟩ : BufTy).Contents (Elt F) := shapeCast S278528 a7 shapeCasts_S16384x17_S278528
  let main_c : (⟨S_, .i32⟩ : BufTy).Contents (Elt F) := constantI S_ 32 200000#32
  let main_v23 : (⟨S278528, .i32⟩ : BufTy).Contents (Elt F) := (broadcastInDim S278528 ![] bcast_S_S278528 : (⟨S_, .i32⟩ : BufTy).Contents (Elt F) → (⟨S278528, .i32⟩ : BufTy).Contents (Elt F)) main_c
  let main_v24 : (⟨S278528, .i32⟩ : BufTy).Contents (Elt F) := (subi : (⟨S278528, .i32⟩ : BufTy).Contents (Elt F) → (⟨S278528, .i32⟩ : BufTy).Contents (Elt F) → (⟨S278528, .i32⟩ : BufTy).Contents (Elt F)) main_v22 main_v23
  let main_c_1 : (⟨S_, .i32⟩ : BufTy).Contents (Elt F) := constantI S_ 32 0#32
  let main_c_2 : (⟨S_, .i32⟩ : BufTy).Contents (Elt F) := constantI S_ 32 199999#32
  let main_call1_v0 : (⟨S_, .i32⟩ : BufTy).Contents (Elt F) := id main_c_1
  let main_call1_v1 : (⟨S278528, .i32⟩ : BufTy).Contents (Elt F) := (broadcastInDim S278528 ![] bcast_S_S278528) main_call1_v0
  let main_call1_v2 : (⟨S278528, .i32⟩ : BufTy).Contents (Elt F) := maxsi main_call1_v1 main_v24
  let main_call1_v3 : (⟨S_, .i32⟩ : BufTy).Contents (Elt F) := id main_c_2
  let main_call1_v4 : (⟨S278528, .i32⟩ : BufTy).Contents (Elt F) := (broadcastInDim S278528 ![] bcast_S_S278528) main_call1_v3
  let main_v25 : (⟨S278528, .i32⟩ : BufTy).Contents (Elt F) := minsi main_call1_v4 main_call1_v2
  let main_c_3 : (⟨S_, .i32⟩ : BufTy).Contents (Elt F) := constantI S_ 32 0#32
  let main_v26 : (⟨S278528, .i32⟩ : BufTy).Contents (Elt F) := (broadcastInDim S278528 ![] bcast_S_S278528 : (⟨S_, .i32⟩ : BufTy).Contents (Elt F) → (⟨S278528, .i32⟩ : BufTy).Contents (Elt F)) main_c_3
  let main_v27 : (⟨S278528, .i1⟩ : BufTy).Contents (Elt F) := (cmpi .slt : (⟨S278528, .i32⟩ : BufTy).Contents (Elt F) → (⟨S278528, .i32⟩ : BufTy).Contents (Elt F) → (⟨S278528, .i1⟩ : BufTy).Contents (Elt F)) main_v25 main_v26
  let main_c_4 : (⟨S_, .i32⟩ : BufTy).Contents (Elt F) := constantI S_ 32 200000#32
  let main_v28 : (⟨S278528, .i32⟩ : BufTy).Contents (Elt F) := (broadcastInDim S278528 ![] bcast_S_S278528 : (⟨S_, .i32⟩ : BufTy).Contents (Elt F) → (⟨S278528, .i32⟩ : BufTy).Contents (Elt F)) main_c_4
  let main_v29 : (⟨S278528, .i32⟩ : BufTy).Contents (Elt F) := (addi : (⟨S278528, .i32⟩ : BufTy).Contents (Elt F) → (⟨S278528, .i32⟩ : BufTy).Contents (Elt F) → (⟨S278528, .i32⟩ : BufTy).Contents (Elt F)) main_v25 main_v28
  let main_v30 : (⟨S278528, .i32⟩ : BufTy).Contents (Elt F) := (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)) main_v27 main_v29 main_v25
  (broadcastInDim S278528x1 ![0] bcast_S278528_S278528x1_0 : (⟨S278528, .i32⟩ : BufTy).Contents (Elt F) → (⟨S278528x1, .i32⟩ : BufTy).Contents (Elt F)) main_v30

/-- The positive item of each group repeated 17 times and flattened, wrapped if negative, as a column of start indices. -/
def posIdx (a7 : (⟨S16384x17, .i32⟩ : BufTy).Contents (Elt F)) : (⟨S278528x1, .i32⟩ : BufTy).Contents (Elt F) :=
  let main_v17 : (⟨S16384x1, .i32⟩ : BufTy).Contents (Elt F) := ((extractStridedSlice S16384x1 ![0, 0] · slices_S16384x17_S16384x1_0_0) : (⟨S16384x17, .i32⟩ : BufTy).Contents (Elt F) → (⟨S16384x1, .i32⟩ : BufTy).Contents (Elt F)) a7
  let main_v18 : (⟨S16384x1x17, .i32⟩ : BufTy).Contents (Elt F) := (broadcastInDim S16384x1x17 ![0, 1] bcast_S16384x1_S16384x1x17_0_1 : (⟨S16384x1, .i32⟩ : BufTy).Contents (Elt F) → (⟨S16384x1x17, .i32⟩ : BufTy).Contents (Elt F)) main_v17
  let main_v19 : (⟨S16384x17, .i32⟩ : BufTy).Contents (Elt F) := shapeCast S16384x17 main_v18 shapeCasts_S16384x1x17_S16384x17
  let main_v20 : (⟨S278528, .i32⟩ : BufTy).Contents (Elt F) := shapeCast S278528 main_v19 shapeCasts_S16384x17_S278528
  let main_c_7 : (⟨S_, .i32⟩ : BufTy).Contents (Elt F) := constantI S_ 32 0#32
  let main_v40 : (⟨S278528, .i32⟩ : BufTy).Contents (Elt F) := (broadcastInDim S278528 ![] bcast_S_S278528 : (⟨S_, .i32⟩ : BufTy).Contents (Elt F) → (⟨S278528, .i32⟩ : BufTy).Contents (Elt F)) main_c_7
  let main_v41 : (⟨S278528, .i1⟩ : BufTy).Contents (Elt F) := (cmpi .slt : (⟨S278528, .i32⟩ : BufTy).Contents (Elt F) → (⟨S278528, .i32⟩ : BufTy).Contents (Elt F) → (⟨S278528, .i1⟩ : BufTy).Contents (Elt F)) main_v20 main_v40
  let main_c_8 : (⟨S_, .i32⟩ : BufTy).Contents (Elt F) := constantI S_ 32 400000#32
  let main_v42 : (⟨S278528, .i32⟩ : BufTy).Contents (Elt F) := (broadcastInDim S278528 ![] bcast_S_S278528 : (⟨S_, .i32⟩ : BufTy).Contents (Elt F) → (⟨S278528, .i32⟩ : BufTy).Contents (Elt F)) main_c_8
  let main_v43 : (⟨S278528, .i32⟩ : BufTy).Contents (Elt F) := (addi : (⟨S278528, .i32⟩ : BufTy).Contents (Elt F) → (⟨S278528, .i32⟩ : BufTy).Contents (Elt F) → (⟨S278528, .i32⟩ : BufTy).Contents (Elt F)) main_v20 main_v42
  let main_v44 : (⟨S278528, .i32⟩ : BufTy).Contents (Elt F) := (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)) main_v41 main_v43 main_v20
  (broadcastInDim S278528x1 ![0] bcast_S278528_S278528x1_0 : (⟨S278528, .i32⟩ : BufTy).Contents (Elt F) → (⟨S278528x1, .i32⟩ : BufTy).Contents (Elt F)) main_v44

/-- The flattened user ids, wrapped if negative, as a column of start indices. -/
def userIdx (a6 : (⟨S16384x17, .i32⟩ : BufTy).Contents (Elt F)) : (⟨S278528x1, .i32⟩ : BufTy).Contents (Elt F) :=
  let main_v21 : (⟨S278528, .i32⟩ : BufTy).Contents (Elt F) := shapeCast S278528 a6 shapeCasts_S16384x17_S278528
  let main_c_5 : (⟨S_, .i32⟩ : BufTy).Contents (Elt F) := constantI S_ 32 0#32
  let main_v33 : (⟨S278528, .i32⟩ : BufTy).Contents (Elt F) := (broadcastInDim S278528 ![] bcast_S_S278528 : (⟨S_, .i32⟩ : BufTy).Contents (Elt F) → (⟨S278528, .i32⟩ : BufTy).Contents (Elt F)) main_c_5
  let main_v34 : (⟨S278528, .i1⟩ : BufTy).Contents (Elt F) := (cmpi .slt : (⟨S278528, .i32⟩ : BufTy).Contents (Elt F) → (⟨S278528, .i32⟩ : BufTy).Contents (Elt F) → (⟨S278528, .i1⟩ : BufTy).Contents (Elt F)) main_v21 main_v33
  let main_c_6 : (⟨S_, .i32⟩ : BufTy).Contents (Elt F) := constantI S_ 32 400000#32
  let main_v35 : (⟨S278528, .i32⟩ : BufTy).Contents (Elt F) := (broadcastInDim S278528 ![] bcast_S_S278528 : (⟨S_, .i32⟩ : BufTy).Contents (Elt F) → (⟨S278528, .i32⟩ : BufTy).Contents (Elt F)) main_c_6
  let main_v36 : (⟨S278528, .i32⟩ : BufTy).Contents (Elt F) := (addi : (⟨S278528, .i32⟩ : BufTy).Contents (Elt F) → (⟨S278528, .i32⟩ : BufTy).Contents (Elt F) → (⟨S278528, .i32⟩ : BufTy).Contents (Elt F)) main_v21 main_v35
  let main_v37 : (⟨S278528, .i32⟩ : BufTy).Contents (Elt F) := (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)) main_v34 main_v36 main_v21
  (broadcastInDim S278528x1 ![0] bcast_S278528_S278528x1_0 : (⟨S278528, .i32⟩ : BufTy).Contents (Elt F) → (⟨S278528x1, .i32⟩ : BufTy).Contents (Elt F)) main_v37

/-- The flattened item ids, wrapped if negative, as a column of start indices. -/
def itemIdx (a7 : (⟨S16384x17, .i32⟩ : BufTy).Contents (Elt F)) : (⟨S278528x1, .i32⟩ : BufTy).Contents (Elt F) :=
  let main_v22 : (⟨S278528, .i32⟩ : BufTy).Contents (Elt F) := shapeCast S278528 a7 shapeCasts_S16384x17_S278528
  let main_c_9 : (⟨S_, .i32⟩ : BufTy).Contents (Elt F) := constantI S_ 32 0#32
  let main_v47 : (⟨S278528, .i32⟩ : BufTy).Contents (Elt F) := (broadcastInDim S278528 ![] bcast_S_S278528 : (⟨S_, .i32⟩ : BufTy).Contents (Elt F) → (⟨S278528, .i32⟩ : BufTy).Contents (Elt F)) main_c_9
  let main_v48 : (⟨S278528, .i1⟩ : BufTy).Contents (Elt F) := (cmpi .slt : (⟨S278528, .i32⟩ : BufTy).Contents (Elt F) → (⟨S278528, .i32⟩ : BufTy).Contents (Elt F) → (⟨S278528, .i1⟩ : BufTy).Contents (Elt F)) main_v22 main_v47
  let main_c_10 : (⟨S_, .i32⟩ : BufTy).Contents (Elt F) := constantI S_ 32 400000#32
  let main_v49 : (⟨S278528, .i32⟩ : BufTy).Contents (Elt F) := (broadcastInDim S278528 ![] bcast_S_S278528 : (⟨S_, .i32⟩ : BufTy).Contents (Elt F) → (⟨S278528, .i32⟩ : BufTy).Contents (Elt F)) main_c_10
  let main_v50 : (⟨S278528, .i32⟩ : BufTy).Contents (Elt F) := (addi : (⟨S278528, .i32⟩ : BufTy).Contents (Elt F) → (⟨S278528, .i32⟩ : BufTy).Contents (Elt F) → (⟨S278528, .i32⟩ : BufTy).Contents (Elt F)) main_v22 main_v49
  let main_v51 : (⟨S278528, .i32⟩ : BufTy).Contents (Elt F) := (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)) main_v48 main_v50 main_v22
  (broadcastInDim S278528x1 ![0] bcast_S278528_S278528x1_0 : (⟨S278528, .i32⟩ : BufTy).Contents (Elt F) → (⟨S278528x1, .i32⟩ : BufTy).Contents (Elt F)) main_v51

/-- The replacement positions, wrapped if negative, as a column of start indices. -/
def randIdx (a8 : (⟨S139264, .i32⟩ : BufTy).Contents (Elt F)) : (⟨S139264x1, .i32⟩ : BufTy).Contents (Elt F) :=
  let main_c_15 : (⟨S_, .i32⟩ : BufTy).Contents (Elt F) := constantI S_ 32 0#32
  let main_v70 : (⟨S139264, .i32⟩ : BufTy).Contents (Elt F) := (broadcastInDim S139264 ![] bcast_S_S139264 : (⟨S_, .i32⟩ : BufTy).Contents (Elt F) → (⟨S139264, .i32⟩ : BufTy).Contents (Elt F)) main_c_15
  let main_v71 : (⟨S139264, .i1⟩ : BufTy).Contents (Elt F) := (cmpi .slt : (⟨S139264, .i32⟩ : BufTy).Contents (Elt F) → (⟨S139264, .i32⟩ : BufTy).Contents (Elt F) → (⟨S139264, .i1⟩ : BufTy).Contents (Elt F)) a8 main_v70
  let main_c_16 : (⟨S_, .i32⟩ : BufTy).Contents (Elt F) := constantI S_ 32 278528#32
  let main_v72 : (⟨S139264, .i32⟩ : BufTy).Contents (Elt F) := (broadcastInDim S139264 ![] bcast_S_S139264 : (⟨S_, .i32⟩ : BufTy).Contents (Elt F) → (⟨S139264, .i32⟩ : BufTy).Contents (Elt F)) main_c_16
  let main_v73 : (⟨S139264, .i32⟩ : BufTy).Contents (Elt F) := (addi : (⟨S139264, .i32⟩ : BufTy).Contents (Elt F) → (⟨S139264, .i32⟩ : BufTy).Contents (Elt F) → (⟨S139264, .i32⟩ : BufTy).Contents (Elt F)) a8 main_v72
  let main_v74 : (⟨S139264, .i32⟩ : BufTy).Contents (Elt F) := (select : (⟨S139264, .i1⟩ : BufTy).Contents (Elt F) → (⟨S139264, .i32⟩ : BufTy).Contents (Elt F) → (⟨S139264, .i32⟩ : BufTy).Contents (Elt F) → (⟨S139264, .i32⟩ : BufTy).Contents (Elt F)) main_v71 main_v73 a8
  (broadcastInDim S139264x1 ![0] bcast_S139264_S139264x1_0 : (⟨S139264, .i32⟩ : BufTy).Contents (Elt F) → (⟨S139264x1, .i32⟩ : BufTy).Contents (Elt F)) main_v74

/-- Each row of a 278528-by-64 matrix divided by the larger of its Euclidean norm and the small constant. -/
def l2n (A : (⟨S278528x64, .f32⟩ : BufTy).Contents (Elt F)) : (⟨S278528x64, .f32⟩ : BufTy).Contents (Elt F) :=
  let main_v54 : (⟨S278528x64, .f32⟩ : BufTy).Contents (Elt F) := (mulf : (⟨S278528x64, .f32⟩ : BufTy).Contents (Elt F) → (⟨S278528x64, .f32⟩ : BufTy).Contents (Elt F) → (⟨S278528x64, .f32⟩ : BufTy).Contents (Elt F)) A A
  let main_cst_11 : (⟨S_, .f32⟩ : BufTy).Contents (Elt F) := constant S_ .f32 0x00000000#32
  let main_v55 : (⟨S278528, .f32⟩ : BufTy).Contents (Elt F) := ((fun x v => Host.reduceAdd x v reducesTo_S278528x64_S278528_d1 h_S_) : (⟨S278528x64, .f32⟩ : BufTy).Contents (Elt F) → (⟨S_, .f32⟩ : BufTy).Contents (Elt F) → (⟨S278528, .f32⟩ : BufTy).Contents (Elt F)) main_v54 main_cst_11
  let main_v56 : (⟨S278528x1, .f32⟩ : BufTy).Contents (Elt F) := (broadcastInDim S278528x1 ![0] bcast_S278528_S278528x1_0 : (⟨S278528, .f32⟩ : BufTy).Contents (Elt F) → (⟨S278528x1, .f32⟩ : BufTy).Contents (Elt F)) main_v55
  let main_v57 : (⟨S278528x1, .f32⟩ : BufTy).Contents (Elt F) := (Host.sqrt : (⟨S278528x1, .f32⟩ : BufTy).Contents (Elt F) → (⟨S278528x1, .f32⟩ : BufTy).Contents (Elt F)) main_v56
  let main_cst_12 : (⟨S_, .f32⟩ : BufTy).Contents (Elt F) := constant S_ .f32 0x2B8CBCCC#32
  let main_v58 : (⟨S278528x1, .f32⟩ : BufTy).Contents (Elt F) := (broadcastInDim S278528x1 ![] bcast_S_S278528x1 : (⟨S_, .f32⟩ : BufTy).Contents (Elt F) → (⟨S278528x1, .f32⟩ : BufTy).Contents (Elt F)) main_cst_12
  let main_v59 : (⟨S278528x1, .f32⟩ : BufTy).Contents (Elt F) := (maximumf : (⟨S278528x1, .f32⟩ : BufTy).Contents (Elt F) → (⟨S278528x1, .f32⟩ : BufTy).Contents (Elt F) → (⟨S278528x1, .f32⟩ : BufTy).Contents (Elt F)) main_v57 main_v58
  let main_v60 : (⟨S278528x64, .f32⟩ : BufTy).Contents (Elt F) := (broadcastInDim S278528x64 ![0, 1] bcast_S278528x1_S278528x64_0_1 : (⟨S278528x1, .f32⟩ : BufTy).Contents (Elt F) → (⟨S278528x64, .f32⟩ : BufTy).Contents (Elt F)) main_v59
  (Host.divf : (⟨S278528x64, .f32⟩ : BufTy).Contents (Elt F) → (⟨S278528x64, .f32⟩ : BufTy).Contents (Elt F) → (⟨S278528x64, .f32⟩ : BufTy).Contents (Elt F)) A main_v60

/-- The contrastive loss of two 278528-by-64 matrices read as 16384 groups of 17 rows: s = exp(row dot product / 0.2); per group minus the logarithm of s at the group's first row over (the group's sum of s plus 1e-8), plus 1e-8; the mean over the groups. -/
def loss (A : (⟨S278528x64, .f32⟩ : BufTy).Contents (Elt F)) (B : (⟨S278528x64, .f32⟩ : BufTy).Contents (Elt F)) : (⟨S_, .f32⟩ : BufTy).Contents (Elt F) :=
  let main_v84 : (⟨S278528x64, .f32⟩ : BufTy).Contents (Elt F) := (mulf : (⟨S278528x64, .f32⟩ : BufTy).Contents (Elt F) → (⟨S278528x64, .f32⟩ : BufTy).Contents (Elt F) → (⟨S278528x64, .f32⟩ : BufTy).Contents (Elt F)) A B
  let main_cst_19 : (⟨S_, .f32⟩ : BufTy).Contents (Elt F) := constant S_ .f32 0x00000000#32
  let main_v85 : (⟨S278528, .f32⟩ : BufTy).Contents (Elt F) := ((fun x v => Host.reduceAdd x v reducesTo_S278528x64_S278528_d1 h_S_) : (⟨S278528x64, .f32⟩ : BufTy).Contents (Elt F) → (⟨S_, .f32⟩ : BufTy).Contents (Elt F) → (⟨S278528, .f32⟩ : BufTy).Contents (Elt F)) main_v84 main_cst_19
  let main_cst_20 : (⟨S_, .f32⟩ : BufTy).Contents (Elt F) := constant S_ .f32 0x3E4CCCCD#32
  let main_v86 : (⟨S278528, .f32⟩ : BufTy).Contents (Elt F) := (broadcastInDim S278528 ![] bcast_S_S278528 : (⟨S_, .f32⟩ : BufTy).Contents (Elt F) → (⟨S278528, .f32⟩ : BufTy).Contents (Elt F)) main_cst_20
  let main_v87 : (⟨S278528, .f32⟩ : BufTy).Contents (Elt F) := (Host.divf : (⟨S278528, .f32⟩ : BufTy).Contents (Elt F) → (⟨S278528, .f32⟩ : BufTy).Contents (Elt F) → (⟨S278528, .f32⟩ : BufTy).Contents (Elt F)) main_v85 main_v86
  let main_v88 : (⟨S278528, .f32⟩ : BufTy).Contents (Elt F) := (Host.exp : (⟨S278528, .f32⟩ : BufTy).Contents (Elt F) → (⟨S278528, .f32⟩ : BufTy).Contents (Elt F)) main_v87
  let main_v89 : (⟨S16384x17, .f32⟩ : BufTy).Contents (Elt F) := shapeCast S16384x17 main_v88 shapeCasts_S278528_S16384x17
  let main_v90 : (⟨S16384x1, .f32⟩ : BufTy).Contents (Elt F) := ((extractStridedSlice S16384x1 ![0, 0] · slices_S16384x17_S16384x1_0_0) : (⟨S16384x17, .f32⟩ : BufTy).Contents (Elt F) → (⟨S16384x1, .f32⟩ : BufTy).Contents (Elt F)) main_v89
  let main_v91 : (⟨S16384, .f32⟩ : BufTy).Contents (Elt F) := shapeCast S16384 main_v90 shapeCasts_S16384x1_S16384
  let main_cst_21 : (⟨S_, .f32⟩ : BufTy).Contents (Elt F) := constant S_ .f32 0x00000000#32
  let main_v92 : (⟨S16384, .f32⟩ : BufTy).Contents (Elt F) := ((fun x v => Host.reduceAdd x v reducesTo_S16384x17_S16384_d1 h_S_) : (⟨S16384x17, .f32⟩ : BufTy).Contents (Elt F) → (⟨S_, .f32⟩ : BufTy).Contents (Elt F) → (⟨S16384, .f32⟩ : BufTy).Contents (Elt F)) main_v89 main_cst_21
  let main_cst_22 : (⟨S_, .f32⟩ : BufTy).Contents (Elt F) := constant S_ .f32 0x322BCC77#32
  let main_v93 : (⟨S16384, .f32⟩ : BufTy).Contents (Elt F) := (broadcastInDim S16384 ![] bcast_S_S16384 : (⟨S_, .f32⟩ : BufTy).Contents (Elt F) → (⟨S16384, .f32⟩ : BufTy).Contents (Elt F)) main_cst_22
  let main_v94 : (⟨S16384, .f32⟩ : BufTy).Contents (Elt F) := (addf : (⟨S16384, .f32⟩ : BufTy).Contents (Elt F) → (⟨S16384, .f32⟩ : BufTy).Contents (Elt F) → (⟨S16384, .f32⟩ : BufTy).Contents (Elt F)) main_v92 main_v93
  let main_v95 : (⟨S16384, .f32⟩ : BufTy).Contents (Elt F) := (Host.divf : (⟨S16384, .f32⟩ : BufTy).Contents (Elt F) → (⟨S16384, .f32⟩ : BufTy).Contents (Elt F) → (⟨S16384, .f32⟩ : BufTy).Contents (Elt F)) main_v91 main_v94
  let main_cst_23 : (⟨S_, .f32⟩ : BufTy).Contents (Elt F) := constant S_ .f32 0x322BCC77#32
  let main_v96 : (⟨S16384, .f32⟩ : BufTy).Contents (Elt F) := (broadcastInDim S16384 ![] bcast_S_S16384 : (⟨S_, .f32⟩ : BufTy).Contents (Elt F) → (⟨S16384, .f32⟩ : BufTy).Contents (Elt F)) main_cst_23
  let main_v97 : (⟨S16384, .f32⟩ : BufTy).Contents (Elt F) := (addf : (⟨S16384, .f32⟩ : BufTy).Contents (Elt F) → (⟨S16384, .f32⟩ : BufTy).Contents (Elt F) → (⟨S16384, .f32⟩ : BufTy).Contents (Elt F)) main_v95 main_v96
  let main_v98 : (⟨S16384, .f32⟩ : BufTy).Contents (Elt F) := (Host.log : (⟨S16384, .f32⟩ : BufTy).Contents (Elt F) → (⟨S16384, .f32⟩ : BufTy).Contents (Elt F)) main_v97
  let main_v99 : (⟨S16384, .f32⟩ : BufTy).Contents (Elt F) := (Host.negf : (⟨S16384, .f32⟩ : BufTy).Contents (Elt F) → (⟨S16384, .f32⟩ : BufTy).Contents (Elt F)) main_v98
  let main_cst_24 : (⟨S_, .f32⟩ : BufTy).Contents (Elt F) := constant S_ .f32 0x00000000#32
  let main_v100 : (⟨S_, .f32⟩ : BufTy).Contents (Elt F) := ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)) main_v99 main_cst_24
  let main_cst_25 : (⟨S_, .f32⟩ : BufTy).Contents (Elt F) := constant S_ .f32 0x46800000#32
  (Host.divf : (⟨S_, .f32⟩ : BufTy).Contents (Elt F) → (⟨S_, .f32⟩ : BufTy).Contents (Elt F) → (⟨S_, .f32⟩ : BufTy).Contents (Elt F)) main_v100 main_cst_25

/-- Half of each loss, added. -/
def fin (l1 : (⟨S_, .f32⟩ : BufTy).Contents (Elt F)) (l2 : (⟨S_, .f32⟩ : BufTy).Contents (Elt F)) : (⟨S_, .f32⟩ : BufTy).Contents (Elt F) :=
  let main_cst_33 : (⟨S_, .f32⟩ : BufTy).Contents (Elt F) := constant S_ .f32 0x3F000000#32
  let main_v120 : (⟨S_, .f32⟩ : BufTy).Contents (Elt F) := (mulf : (⟨S_, .f32⟩ : BufTy).Contents (Elt F) → (⟨S_, .f32⟩ : BufTy).Contents (Elt F) → (⟨S_, .f32⟩ : BufTy).Contents (Elt F)) main_cst_33 l1
  let main_cst_34 : (⟨S_, .f32⟩ : BufTy).Contents (Elt F) := constant S_ .f32 0x3F000000#32
  let main_v121 : (⟨S_, .f32⟩ : BufTy).Contents (Elt F) := (mulf : (⟨S_, .f32⟩ : BufTy).Contents (Elt F) → (⟨S_, .f32⟩ : BufTy).Contents (Elt F) → (⟨S_, .f32⟩ : BufTy).Contents (Elt F)) main_cst_34 l2
  (addf : (⟨S_, .f32⟩ : BufTy).Contents (Elt F) → (⟨S_, .f32⟩ : BufTy).Contents (Elt F) → (⟨S_, .f32⟩ : BufTy).Contents (Elt F)) main_v120 main_v121

/-- The encoded feature row of every flattened item: rows of the feature table gathered at `featIdx`. -/
def allFeat (feat : (⟨S200000x64, .f32⟩ : BufTy).Contents (Elt F)) (a7 : (⟨S16384x17, .i32⟩ : BufTy).Contents (Elt F)) : (⟨S278528x64, .f32⟩ : BufTy).Contents (Elt F) :=
  Host.gather gather_S200000x64_S278528x1_S278528x64_1_0_n_n_0_1_164 feat (featIdx a7)

/-- Rows of the embedding table gathered at a column of start indices. -/
def rowsOf (a1 : (⟨S400000x64, .f32⟩ : BufTy).Contents (Elt F)) (idx : (⟨S278528x1, .i32⟩ : BufTy).Contents (Elt F)) : (⟨S278528x64, .f32⟩ : BufTy).Contents (Elt F) :=
  Host.gather gather_S400000x64_S278528x1_S278528x64_1_0_n_n_0_1_164 a1 idx

/-- The item embeddings with the rows at the replacement positions overwritten by the encoded features there. -/
def itemIn (feat : (⟨S200000x64, .f32⟩ : BufTy).Contents (Elt F)) (a1 : (⟨S400000x64, .f32⟩ : BufTy).Contents (Elt F)) (a7 : (⟨S16384x17, .i32⟩ : BufTy).Contents (Elt F)) (a8 : (⟨S139264, .i32⟩ : BufTy).Contents (Elt F)) : (⟨S278528x64, .f32⟩ : BufTy).Contents (Elt F) :=
  Host.scatter scatter_S278528x64_S139264x1_S139264x64_1_0_0_1 (fun _ b => b) (rowsOf a1 (itemIdx a7)) (randIdx a8)
    (Host.gather gather_S278528x64_S139264x1_S139264x64_1_0_n_n_0_1_164 (allFeat feat a7) (randIdx a8))

/-- The four 278528-by-64 matrices the two losses are taken of, from a feature table and the arguments:
    the positive items' embeddings, the items' encoded features, the users' embeddings, the items' inputs. -/
def posE (a1 : (⟨S400000x64, .f32⟩ : BufTy).Contents (Elt F)) (a7 : (⟨S16384x17, .i32⟩ : BufTy).Contents (Elt F)) : (⟨S278528x64, .f32⟩ : BufTy).Contents (Elt F) := rowsOf a1 (posIdx a7)
def userE (a1 : (⟨S400000x64, .f32⟩ : BufTy).Contents (Elt F)) (a6 : (⟨S16384x17, .i32⟩ : BufTy).Contents (Elt F)) : (⟨S278528x64, .f32⟩ : BufTy).Contents (Elt F) := rowsOf a1 (userIdx a6)

/-- The losses of a feature table and the arguments, averaged: what both programs compute once the feature table is known. -/
def outOf (feat : (⟨S200000x64, .f32⟩ : BufTy).Contents (Elt F)) (a1 : (⟨S400000x64, .f32⟩ : BufTy).Contents (Elt F)) (a6 : (⟨S16384x17, .i32⟩ : BufTy).Contents (Elt F)) (a7 : (⟨S16384x17, .i32⟩ : BufTy).Contents (Elt F)) (a8 : (⟨S139264, .i32⟩ : BufTy).Contents (Elt F)) : (⟨S_, .f32⟩ : BufTy).Contents (Elt F) :=
  fin (loss (l2n (posE a1 a7)) (l2n (allFeat feat a7))) (loss (userE a1 a6) (itemIn feat a1 a7 a8))

/-- The reference's result. -/
def refOut (a0 : (⟨S200000x128, .f32⟩ : BufTy).Contents (Elt F)) (a1 : (⟨S400000x64, .f32⟩ : BufTy).Contents (Elt F)) (a2 : (⟨S128x256, .f32⟩ : BufTy).Contents (Elt F)) (a3 : (⟨S256, .f32⟩ : BufTy).Contents (Elt F)) (a4 : (⟨S256x64, .f32⟩ : BufTy).Contents (Elt F)) (a5 : (⟨S64, .f32⟩ : BufTy).Contents (Elt F))
    (a6 : (⟨S16384x17, .i32⟩ : BufTy).Contents (Elt F)) (a7 : (⟨S16384x17, .i32⟩ : BufTy).Contents (Elt F)) (a8 : (⟨S139264, .i32⟩ : BufTy).Contents (Elt F)) : (⟨S_, .f32⟩ : BufTy).Contents (Elt F) :=
  outOf (enc a0 a2 a3 a4 a5) a1 a6 a7 a8

end Cert.Spec

end
-- ==== Proof.KChain.lean ====
/-
  The host operations of the idealized kernel program read as values.  Before the first kernel the two bias
  vectors are recast as rows.  Between the two kernels the program computes, from the feature table the first
  kernel wrote and from the integer arguments, the same index columns, row gathers and row scatter as the
  reference does, and recasts the four resulting 278528-by-64 matrices as 16384 groups of 17 rows.  After
  the second kernel it divides each accumulated loss by 16384 and averages the two.
-/
import proofs.«151807_j21251498181534_1_alg».proof.Proof.Gen.KernelIdeal.Frame
import proofs.«151807_j21251498181534_1_alg».proof.Proof.Spec
import Idealize.ShloMosaic.Lib.StableHlo.Run

noncomputable section

open Idealize.ShloMosaic Idealize.ShloMosaic.TcCoe Idealize.SL.Sem Idealize.ShloMosaic.StableHlo

namespace Cert.KernelIdeal.KChain

open Cert.KernelIdeal Cert.KernelIdeal.Gen

variable {F : FTy → Type} [FloatOps F]

/-- The first stretch recasts the first bias vector as a row. -/
theorem pre_v0 (U : Valuation τ sig (Elt F)) :
    after hostOps0 U (Proc.devRef .tc main_v0) = shapeCast S1x256 (U (Proc.devRef .tc main_arg3)) shapeCasts_S256_S1x256 := by
  simp only [hostOps0]
  after_results
  rfl

/-- and the second. -/
theorem pre_v1 (U : Valuation τ sig (Elt F)) :
    after hostOps0 U (Proc.devRef .tc main_v1) = shapeCast S1x64 (U (Proc.devRef .tc main_arg5)) shapeCasts_S64_S1x64 := by
  simp only [hostOps0]
  after_results
  rfl

/-- The last stretch: each accumulated loss over 16384, halved, added. -/
theorem tail_v65 (U : Valuation τ sig (Elt F)) :
    after hostOps2 U (Proc.devRef .tc main_v65)
      = Cert.Spec.fin
          (Host.divf (shapeCast S_ (U (Proc.devRef .tc main_v58_0)) shapeCasts_S1x1_S_) (constant S_ .f32 0x46800000#32))
          (Host.divf (shapeCast S_ (U (Proc.devRef .tc main_v58_1)) shapeCasts_S1x1_S_) (constant S_ .f32 0x46800000#32)) := by
  simp only [hostOps2]
  after_results
  rfl

end Cert.KernelIdeal.KChain

end
-- ==== Proof.KMid.lean ====
/-
  The stretch of host operations between the two kernels, read as values: from any contents of the feature
  table and of the integer arguments it leaves, in the four arrays the loss kernel reads, the positive items'
  embeddings, the items' encoded features, the users' embeddings and the items' inputs (embeddings with the
  rows at the replacement positions overwritten by encoded features), each recast from 278528 rows to 16384
  groups of 17 rows.  These are the reference's own index columns, gathers and scatter.
-/
import proofs.«151807_j21251498181534_1_alg».proof.Proof.Gen.KernelIdeal.Frame
import proofs.«151807_j21251498181534_1_alg».proof.Proof.Spec
import Idealize.ShloMosaic.Lib.StableHlo.Run

noncomputable section

open Idealize.ShloMosaic Idealize.ShloMosaic.TcCoe Idealize.SL.Sem Idealize.ShloMosaic.StableHlo

namespace Cert.KernelIdeal.KMid

open Cert.KernelIdeal Cert.KernelIdeal.Gen

variable {F : FTy → Type} [FloatOps F]

attribute [local irreducible] Host.gather Host.scatter in
set_option maxRecDepth 16384 in
set_option maxHeartbeats 4000000 in
/-- The first array the loss kernel reads: the positive items' embeddings. -/
theorem mid_v54 (U : Valuation τ sig (Elt F)) :
    after hostOps1_2 (after hostOps1_1 (after hostOps1 U)) (Proc.devRef .tc main_v54)
      = shapeCast S16384x17x64 (Cert.Spec.posE (U (Proc.devRef .tc main_arg1)) (U (Proc.devRef .tc main_arg7))) shapeCasts_S278528x64_S16384x17x64 := by
  simp only [hostOps1, hostOps1_1, hostOps1_2]
  after_results_simp
  rfl

attribute [local irreducible] Host.gather Host.scatter in
set_option maxRecDepth 16384 in
set_option maxHeartbeats 4000000 in
/-- The second: the items' encoded features, gathered from the feature table. -/
theorem mid_v55 (U : Valuation τ sig (Elt F)) :
    after hostOps1_2 (after hostOps1_1 (after hostOps1 U)) (Proc.devRef .tc main_v55)
      = shapeCast S16384x17x64 (Cert.Spec.allFeat (U (Proc.devRef .tc main_v2)) (U (Proc.devRef .tc main_arg7))) shapeCasts_S278528x64_S16384x17x64 := by
  simp only [hostOps1, hostOps1_1, hostOps1_2]
  after_results_simp
  rfl

attribute [local irreducible] Host.gather Host.scatter in
set_option maxRecDepth 16384 in
set_option maxHeartbeats 4000000 in
/-- The third: the users' embeddings. -/
theorem mid_v56 (U : Valuation τ sig (Elt F)) :
    after hostOps1_2 (after hostOps1_1 (after hostOps1 U)) (Proc.devRef .tc main_v56)
      = shapeCast S16384x17x64 (Cert.Spec.userE (U (Proc.devRef .tc main_arg1)) (U (Proc.devRef .tc main_arg6))) shapeCasts_S278528x64_S16384x17x64 := by
  simp only [hostOps1, hostOps1_1, hostOps1_2]
  after_results_simp
  rfl

attribute [local irreducible] Host.gather Host.scatter in
set_option maxRecDepth 16384 in
set_option maxHeartbeats 4000000 in
/-- The fourth: the items' inputs. -/
theorem mid_v57 (U : Valuation τ sig (Elt F)) :
    after hostOps1_2 (after hostOps1_1 (after hostOps1 U)) (Proc.devRef .tc main_v57)
      = shapeCast S16384x17x64 (Cert.Spec.itemIn (U (Proc.devRef .tc main_v2)) (U (Proc.devRef .tc main_arg1)) (U (Proc.devRef .tc main_arg7)) (U (Proc.devRef .tc main_arg8))) shapeCasts_S278528x64_S16384x17x64 := by
  simp only [hostOps1, hostOps1_1, hostOps1_2]
  after_results_simp
  rfl

end Cert.KernelIdeal.KMid

end
-- ==== Proof.LossPieces.lean ====
/-
  What the loss kernel's body leaves in its two accumulator buffers at one grid point, as values:
  the running accumulator plus the point's partial sum (first point: zero plus the partial sum).
-/
import proofs.«151807_j21251498181534_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.LossPieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid1.Coords)
  (arg1 : Memref sig .tc .vmem S128x17x64 .f32) (harg1 : arg1.IsWhole) (arg2 : Memref sig .tc .vmem S128x17x64 .f32) (harg2 : arg2.IsWhole)
  (arg3 : Memref sig .tc .vmem S128x17x64 .f32) (harg3 : arg3.IsWhole) (arg4 : Memref sig .tc .vmem S128x17x64 .f32) (harg4 : arg4.IsWhole)
  (arg5 : Memref sig .tc .vmem S1x1 .f32) (harg5 : arg5.IsWhole) (arg6 : Memref sig .tc .vmem S1x1 .f32) (harg6 : arg6.IsWhole)
  (x0 x1 x2 x3 : Vec F S128x17x64 .f32) (xo4 xo5 : Vec F S1x1 .f32)

/-- Away from the first grid point the first accumulator ends at its running value plus the point's partial sum
    of the first loss (the one store's payload, its loads reading the whole buffers). -/
theorem out_B_4 (hc0 : ¬cond1_0 i) :
    out1_B_4 c i arg1 harg1 arg2 harg2 arg3 harg3 arg4 harg4 arg5 harg5 arg6 harg6 hc0 x0 x1 x2 x3 xo4 xo5
      = k1_pay1 (k1_pay7 xo4) (k1_pay8 x0 x1) (k1_pay9 x0 x1) := by
  unfold out1_B_4
  rw [View.read_writes_eq_canon _ _ _ (cover1_B_4 c i arg1 harg1 arg2 harg2 arg3 harg3 arg4 harg4 arg5 harg5 arg6 harg6 hc0 x0 x1 x2 x3 xo4 xo5)]
  unfold kernelRun1_B
  dsimp only
  sl_unfold_words
  rw [View.canon_unit_zero hz2]
  simp only [View.readAt_eq_ld, harg1.read_unread, harg2.read_unread, harg5.read_unread, View.ld_unit_zero (S := S128x17x64) hz3, View.ld_unit_zero (S := S1x1) hz2]

/-- The same for the second accumulator and the second loss. -/
theorem out_B_5 (hc0 : ¬cond1_0 i) :
    out1_B_5 c i arg1 harg1 arg2 harg2 arg3 harg3 arg4 harg4 arg5 harg5 arg6 harg6 hc0 x0 x1 x2 x3 xo4 xo5
      = k1_pay2 (k1_pay5 x2) (k1_pay6 x3) xo5 := by
  unfold out1_B_5
  rw [View.read_writes_eq_canon _ _ _ (cover1_B_5 c i arg1 harg1 arg2 harg2 arg3 harg3 arg4 harg4 arg5 harg5 arg6 harg6 hc0 x0 x1 x2 x3 xo4 xo5)]
  unfold kernelRun1_B
  dsimp only
  sl_unfold_words
  rw [View.canon_unit_zero hz2]
  simp only [View.readAt_eq_ld, harg3.read_unread, harg4.read_unread, harg6.read_unread, View.ld_unit_zero (S := S128x17x64) hz3, View.ld_unit_zero (S := S1x1) hz2]

/-- At the first grid point the accumulator is first set to zero, read back, and ends at zero plus the point's partial sum. -/
theorem out_A_4 (hc0 : cond1_0 i) :
    out1_A_4 c i arg1 harg1 arg2 harg2 arg3 harg3 arg4 harg4 arg5 harg5 arg6 harg6 hc0 x0 x1 x2 x3
      = k1_pay1 (k1_pay7 k1_pay3) (k1_pay8 x0 x1) (k1_pay9 x0 x1) := by
  unfold out1_A_4
  rw [View.read_writes_eq_canon _ _ _ (cover1_A_4 c i arg1 harg1 arg2 harg2 arg3 harg3 arg4 harg4 arg5 harg5 arg6 harg6 hc0 x0 x1 x2 x3)]
  unfold kernelRun1_A
  dsimp only
  sl_unfold_words
  rw [View.canon_cons_unit_zero (S := S1x1) hz2, View.readCov_unit_zero (S := S1x1) _ hz2]
  simp only [View.readAt_eq_ld, harg1.read_unread, harg2.read_unread, View.ld_unit_zero (S := S128x17x64) hz3, View.ld_unit_zero (S := S1x1) hz2]

theorem out_A_5 (hc0 : cond1_0 i) :
    out1_A_5 c i arg1 harg1 arg2 harg2 arg3 harg3 arg4 harg4 arg5 harg5 arg6 harg6 hc0 x0 x1 x2 x3
      = k1_pay2 (k1_pay5 x2) (k1_pay6 x3) k1_pay4 := by
  unfold out1_A_5
  rw [View.read_writes_eq_canon _ _ _ (cover1_A_5 c i arg1 harg1 arg2 harg2 arg3 harg3 arg4 harg4 arg5 harg5 arg6 harg6 hc0 x0 x1 x2 x3)]
  unfold kernelRun1_A
  dsimp only
  sl_unfold_words
  rw [View.canon_cons_unit_zero (S := S1x1) hz2, View.readCov_unit_zero (S := S1x1) _ hz2]
  simp only [View.readAt_eq_ld, harg3.read_unread, harg4.read_unread, View.ld_unit_zero (S := S128x17x64) hz3, View.ld_unit_zero (S := S1x1) hz2]

end Cert.KernelIdeal.LossPieces

end
-- ==== Proof.LossAcc.lean ====
/-
  The loss kernel's two accumulators over the grid.  The block of each never moves and is written back
  after the last of the 128 points only, so what its array ends holding is the running value after
  point 127: at point 0 zero plus that point's partial sum, at every later point the value before plus
  the point's partial sum.  Stated here for any float instance, over the payload terms.
-/
import proofs.«151807_j21251498181534_1_alg».proof.Proof.LossPieces

noncomputable section

open Idealize.ShloMosaic Idealize.ShloMosaic.TcCoe Idealize.SL.Sem
open Idealize.ShloMosaic.Pipeline (Dat)

namespace Cert.KernelIdeal.LossAcc

open Cert.KernelIdeal Cert.KernelIdeal.Gen Cert.KernelIdeal.LossPieces

variable {F : FTy → Type} [FloatOps F]
variable (V : (c : Dev nD) → (b : Ref sig .tc) → Buf (Elt F) ((c : Thread nD τ).loc b))

/-- The two running values after point `n`. -/
def chain (c : Dev nD) : (n : ℕ) → n < cfg1.N → Vec F S1x1 .f32 × Vec F S1x1 .f32
  | 0, h => (k1_pay1 (k1_pay7 k1_pay3) (k1_pay8 (iblk1 V c 0 ⟨0, h⟩) (iblk1 V c 1 ⟨0, h⟩)) (k1_pay9 (iblk1 V c 0 ⟨0, h⟩) (iblk1 V c 1 ⟨0, h⟩)),
             k1_pay2 (k1_pay5 (iblk1 V c 2 ⟨0, h⟩)) (k1_pay6 (iblk1 V c 3 ⟨0, h⟩)) k1_pay4)
  | n + 1, h =>
    (k1_pay1 (k1_pay7 (chain c n (Nat.lt_of_succ_lt h)).1) (k1_pay8 (iblk1 V c 0 ⟨n + 1, h⟩) (iblk1 V c 1 ⟨n + 1, h⟩)) (k1_pay9 (iblk1 V c 0 ⟨n + 1, h⟩) (iblk1 V c 1 ⟨n + 1, h⟩)),
     k1_pay2 (k1_pay5 (iblk1 V c 2 ⟨n + 1, h⟩)) (k1_pay6 (iblk1 V c 3 ⟨n + 1, h⟩)) (chain c n (Nat.lt_of_succ_lt h)).2)

/-- What the accumulators' staging buffers hold after point `n` is the running value: by induction on the point. -/
theorem outsAt_eq (c : Dev nD) : ∀ (n : ℕ) (h : n < cfg1.N), outsAt1 V c n h = chain V c n h
  | 0, h => by
    rw [outsAt1_A V c ⟨0, h⟩ rfl, out_A_4, out_A_5]
    rfl
  | n + 1, h => by
    have hN : cfg1.N = 128 := N_1
    have hB : ¬(⟨n + 1, h⟩ : Fin cfg1.N).val % 128 = 0 := by dsimp only; omega
    rw [outsAt1_B V c ⟨n + 1, h⟩ hB, out_B_4, out_B_5]
    show (k1_pay1 (k1_pay7 (outsAt1 V c n _).1) _ _, k1_pay2 _ _ (outsAt1 V c n _).2) = _
    rw [outsAt_eq c n]
    rfl

/-- The last grid point. -/
abbrev tLast : Fin cfg1.N := ⟨127, by rw [show cfg1.N = 128 from N_1]; decide⟩

/-- The accumulators' final values, as contents of their result arrays (each array is its one block). -/
abbrev result4 (c : Dev nD) : Buf (Elt F) ((c : Thread nD τ).loc main_v58_0) := (chain V c 127 tLast.isLt).1
abbrev result5 (c : Dev nD) : Buf (Elt F) ((c : Thread nD τ).loc main_v58_1) := (chain V c 127 tLast.isLt).2

/-- The one write-back of the first accumulator, at the last point, writes the running value. -/
theorem flushed_eq4 (c : Dev nD) (t : Fin cfg1.N) (hf : (cfg1.win 4).flush t = true) :
    (dat1 V c).flushed 4 t = ((cfg1.win 4).blk t).view.read (Elt F) (result4 V c) := by
  have hN : cfg1.N = 128 := N_1
  have h3 : t.val = 127 := by have := (flush1_4 t).mp hf; have := t.isLt; omega
  obtain rfl : t = tLast := Fin.ext h3
  show (cfg1.win 4).cut (grid1.coords tLast) ((dat1 V c).after 4 tLast) = _
  rw [after1_4, outsAt_eq]
  have hz' : (fun a => win1_4.index tLast a * main_v58_0.ty.shape.size a) = fun _ => 0 := funext fun a => by fin_cases a <;> decide
  exact (Memref.read_access_unit_zero (Elt F) main_v58_0 hz' (fun a => by rw [congrFun hz' a]; simp) (result4 V c)).symm

theorem flushed_eq5 (c : Dev nD) (t : Fin cfg1.N) (hf : (cfg1.win 5).flush t = true) :
    (dat1 V c).flushed 5 t = ((cfg1.win 5).blk t).view.read (Elt F) (result5 V c) := by
  have hN : cfg1.N = 128 := N_1
  have h3 : t.val = 127 := by have := (flush1_5 t).mp hf; have := t.isLt; omega
  obtain rfl : t = tLast := Fin.ext h3
  show (cfg1.win 5).cut (grid1.coords tLast) ((dat1 V c).after 5 tLast) = _
  rw [after1_5, outsAt_eq]
  have hz' : (fun a => win1_5.index tLast a * main_v58_1.ty.shape.size a) = fun _ => 0 := funext fun a => by fin_cases a <;> decide
  exact (Memref.read_access_unit_zero (Elt F) main_v58_1 hz' (fun a => by rw [congrFun hz' a]; simp) (result5 V c)).symm

/-- So each accumulator's array ends holding the running value after the last point. -/
theorem final4 (c : Dev nD) : (dat1 V c).arrAt 4 cfg1.N = result4 V c :=
  (dat1 V c).arrAt_eq_of_cover 4 (result4 V c) (flushed_eq4 V c) fun i =>
    ⟨tLast, (flush1_4 tLast).mpr rfl, by
      show i ∈ ((View.whole main_v58_0).slice (win1_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win1_4.index tLast 0 * win1_4.size 0 ≤ (i 0 : Nat) ∧ (i 0 : Nat) < win1_4.index tLast 0 * win1_4.size 0 + win1_4.xsize (grid1.coords tLast) 0
                  rw [show win1_4.index tLast 0 * win1_4.size 0 = 0 from by decide +kernel, show win1_4.xsize (grid1.coords tLast) 0 = 1 from by decide +kernel]; omega
      | ⟨1, _⟩ => show win1_4.index tLast 1 * win1_4.size 1 ≤ (i 1 : Nat) ∧ (i 1 : Nat) < win1_4.index tLast 1 * win1_4.size 1 + win1_4.xsize (grid1.coords tLast) 1
                  rw [show win1_4.index tLast 1 * win1_4.size 1 = 0 from by decide +kernel, show win1_4.xsize (grid1.coords tLast) 1 = 1 from by decide +kernel]; omega⟩

theorem final5 (c : Dev nD) : (dat1 V c).arrAt 5 cfg1.N = result5 V c :=
  (dat1 V c).arrAt_eq_of_cover 5 (result5 V c) (flushed_eq5 V c) fun i =>
    ⟨tLast, (flush1_5 tLast).mpr rfl, by
      show i ∈ ((View.whole main_v58_1).slice (win1_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win1_5.index tLast 0 * win1_5.size 0 ≤ (i 0 : Nat) ∧ (i 0 : Nat) < win1_5.index tLast 0 * win1_5.size 0 + win1_5.xsize (grid1.coords tLast) 0
                  rw [show win1_5.index tLast 0 * win1_5.size 0 = 0 from by decide +kernel, show win1_5.xsize (grid1.coords tLast) 0 = 1 from by decide +kernel]; omega
      | ⟨1, _⟩ => show win1_5.index tLast 1 * win1_5.size 1 ≤ (i 1 : Nat) ∧ (i 1 : Nat) < win1_5.index tLast 1 * win1_5.size 1 + win1_5.xsize (grid1.coords tLast) 1
                  rw [show win1_5.index tLast 1 * win1_5.size 1 = 0 from by decide +kernel, show win1_5.xsize (grid1.coords tLast) 1 = 1 from by decide +kernel]; omega⟩

end Cert.KernelIdeal.LossAcc

end
-- ==== Proof.LossForm.lean ====
/-
  The contrastive loss in closed form on the extended reals, over rows of 64 entries grouped by 17.
  For two rows x, y: s = exp((x · y) / 0.2).  For a group of 17 values s: minus the logarithm of
  s 0 / (Σ s + 1e-8) + 1e-8.  The loss of two families of 16384 × 17 rows is the mean of the
  groups' values.  A row is normalised by dividing it by the larger of its Euclidean norm and 1e-12.
  Sums are written as the host writes them: the initial value 0 plus the sum.  The float constants
  stay the f32 words they are in both programs; nothing here evaluates them.
-/
import Idealize.ShloMosaic.PureOps.Ideal
import Idealize.ShloMosaic.Lib.ValueIdx

noncomputable section

open scoped BigOperators

namespace Cert.LossForm

open Idealize.ShloMosaic Idealize.ShloMosaic.ValueIdx

/-- The f32 word of 1e-12, of 0.2, of 1e-8 and of 16384, each as the extended real it denotes. -/
abbrev epsN : EReal := Ideal.ofBits .f32 0x2B8CBCCC#32
abbrev temp : EReal := Ideal.ofBits .f32 0x3E4CCCCD#32
abbrev epsL : EReal := Ideal.ofBits .f32 0x322BCC77#32
abbrev cnt : EReal := Ideal.ofBits .f32 0x46800000#32

/-- A row divided by the larger of its Euclidean norm and 1e-12. -/
def nrm (x : Fin 64 → EReal) (e : Fin 64) : EReal :=
  Ideal.div (x e) (max (Ideal.sqrt (0 + ∑ k : Fin 64, x k * x k)) epsN)

/-- exp of two rows' dot product over 0.2. -/
def sdot (x y : Fin 64 → EReal) : EReal :=
  Ideal.exp (Ideal.div (0 + ∑ k : Fin 64, x k * y k) temp)

/-- A group's value: minus the logarithm of its first entry over (its sum plus 1e-8), plus 1e-8. -/
def gval (s : Fin 17 → EReal) : EReal :=
  -(Ideal.log (Ideal.div (s 0) ((0 + ∑ g : Fin 17, s g) + epsL) + epsL))

/-- The value of group `b` of two families of rows. -/
def rowVal (X Y : Fin 16384 → Fin 17 → Fin 64 → EReal) (b : Fin 16384) : EReal :=
  gval fun g => sdot (X b g) (Y b g)

/-- The loss of two families of rows: the mean of the groups' values. -/
def lossForm (X Y : Fin 16384 → Fin 17 → Fin 64 → EReal) : EReal :=
  Ideal.div (0 + ∑ b : Fin 16384, rowVal X Y b) cnt

/-- Row 17·b + g of a 278528-by-64 matrix, as a row of group b. -/
def rows3 (A : (⟨2, ![278528, 64]⟩ : Shape).Idx → EReal) (b : Fin 16384) (g : Fin 17) (e : Fin 64) : EReal :=
  A (ix2 (⟨17 * b.val + g.val, by omega⟩ : Fin 278528) e)

/-- The same with every row normalised. -/
def rows3n (A : (⟨2, ![278528, 64]⟩ : Shape).Idx → EReal) (b : Fin 16384) (g : Fin 17) : Fin 64 → EReal :=
  nrm (rows3 A b g)

end Cert.LossForm

end
-- ==== Proof.LibTiles.lean ====
/-
  Sums over a contraction axis cut into tiles, and padded with zeros.

  A sum over 0 ≤ d < T·K is the sum, tile by tile, of the tiles' sums; and a sum over 0 ≤ d < n + p whose terms vanish
  from n on is the sum over 0 ≤ d < n.  Both hold in any commutative monoid: only the order and grouping of the terms
  changes, and zeros are dropped.
-/
import Mathlib.Algebra.BigOperators.Intervals
import Mathlib.Algebra.BigOperators.Fin

namespace Cert.Tiles

open Finset

variable {M : Type*} [AddCommMonoid M]

/-- Tile by tile: Σ_{k<K} Σ_{j<T} f (T·k + j) = Σ_{d<T·K} f d. -/
theorem sum_tiles (T : ℕ) (f : ℕ → M) : ∀ K : ℕ, ∑ k ∈ range K, ∑ j ∈ range T, f (T * k + j) = ∑ d ∈ range (T * K), f d
  | 0 => by simp
  | K + 1 => by rw [sum_range_succ, sum_tiles T f K, Nat.mul_succ, sum_range_add]

/-- The same with each tile summed over `Fin T`. -/
theorem sum_tiles_fin (T : ℕ) (f : ℕ → M) (K : ℕ) :
    ∑ k ∈ range K, ∑ j : Fin T, f (T * k + j.val) = ∑ d ∈ range (T * K), f d := by
  rw [← sum_tiles T f K]
  exact sum_congr rfl fun k _ => Fin.sum_univ_eq_sum_range (fun j => f (T * k + j)) T

/-- Terms that vanish from `n` on may be dropped. -/
theorem sum_drop_zeros (n p : ℕ) (f : ℕ → M) (hz : ∀ d, n ≤ d → f d = 0) :
    ∑ d ∈ range (n + p), f d = ∑ d ∈ range n, f d := by
  rw [sum_range_add, sum_eq_zero (fun d _ => hz (n + d) (Nat.le_add_right _ _)), add_zero]

/-- A sum over `range n` of a function given on `Fin n` (extended by zero) is the sum over `Fin n`. -/
theorem sum_range_dite (n : ℕ) (g : Fin n → M) :
    ∑ d ∈ range n, (if h : d < n then g ⟨d, h⟩ else 0) = ∑ d : Fin n, g d := by
  rw [← Fin.sum_univ_eq_sum_range (fun d => if h : d < n then g ⟨d, h⟩ else 0) n]
  exact sum_congr rfl fun d _ => by rw [dif_pos d.isLt]

end Cert.Tiles
-- ==== Proof.LossSum.lean ====
/-
  The loss kernel's accumulators in closed form on the extended reals.  Point t of the grid reads rows
  128·t … 128·t + 127 of each of its four arrays; its partial sum is the sum of the group values of those
  128 groups; the running value after the last point is therefore the sum of the group values of all
  16384 groups: a sum taken tile by tile is the whole sum, because addition of extended reals is
  commutative and associative (no finiteness is needed).  The payloads' closed forms enter as hypotheses.
-/
import proofs.«151807_j21251498181534_1_alg».proof.Proof.LossAcc
import proofs.«151807_j21251498181534_1_alg».proof.Proof.LossForm
import proofs.«151807_j21251498181534_1_alg».proof.Proof.LibTiles

noncomputable section

open scoped BigOperators
open Idealize.ShloMosaic Idealize.ShloMosaic.TcCoe Idealize.SL.Sem Idealize.ShloMosaic.ValueIdx
open Idealize.ShloMosaic.Pipeline (Dat)

namespace Cert.KernelIdeal.LossSum

open Cert.KernelIdeal Cert.KernelIdeal.Gen Cert.KernelIdeal.LossAcc Cert.LossForm Finset

/-- The payloads' closed forms at the ideal instance (proved where the payloads are read at an index). -/
structure PayForms : Prop where
  pay1 : ∀ (v28 : FVec Ideal S1x1 .f32) (x0 x1 : Vec Ideal S128x17x64 .f32),
    k1_pay1 (F := Ideal) v28 (k1_pay8 x0 x1) (k1_pay9 x0 x1)
      = fun j => v28 j + (0 + ∑ r : Fin 128, gval (fun g => sdot (nrm (fun e => x0 (ix3 r g e))) (nrm (fun e => x1 (ix3 r g e)))))
  pay2 : ∀ (v49 : Vec Ideal S1x1 .f32) (x2 x3 : Vec Ideal S128x17x64 .f32),
    k1_pay2 (F := Ideal) (k1_pay5 x2) (k1_pay6 x3) v49
      = fun j => v49 j + (0 + ∑ r : Fin 128, gval (fun g => sdot (fun e => x2 (ix3 r g e)) (fun e => x3 (ix3 r g e))))
  pay7 : ∀ v : Vec Ideal S1x1 .f32, k1_pay7 (F := Ideal) v = v
  pay3 : k1_pay3 (F := Ideal) = fun _ => (0 : EReal)
  pay4 : k1_pay4 (F := Ideal) = fun _ => (0 : EReal)

variable (V : (c : Dev nD) → (b : Ref sig .tc) → Buf (Elt Ideal) ((c : Thread nD τ).loc b)) (c : Dev nD)

/-- Group `b` (any natural number; zero rows past the last group) of a 16384 × 17 × 64 array. -/
def rowT (A : S16384x17x64.Idx → EReal) (b : ℕ) (g : Fin 17) (e : Fin 64) : EReal :=
  if h : b < 16384 then A (ix3 (⟨b, h⟩ : Fin 16384) g e) else 0

/-- The group values of the two losses, by group number. -/
def rv1 (A0 A1 : S16384x17x64.Idx → EReal) (b : ℕ) : EReal :=
  gval fun g => sdot (nrm (rowT A0 b g)) (nrm (rowT A1 b g))
def rv2 (A2 A3 : S16384x17x64.Idx → EReal) (b : ℕ) : EReal :=
  gval fun g => sdot (rowT A2 b g) (rowT A3 b g)

/-- Window `w`'s block at point `t` reads rows 128·t … of its array: a block's coordinate is index × size + the
    coordinate inside the block, and the index map of the four input windows is t ↦ (t, 0, 0). -/
theorem idx_facts : ∀ t : Fin cfg1.N,
    (win1_0.index t 0 = t.val ∧ win1_0.index t 1 = 0 ∧ win1_0.index t 2 = 0)
    ∧ (win1_1.index t 0 = t.val ∧ win1_1.index t 1 = 0 ∧ win1_1.index t 2 = 0)
    ∧ (win1_2.index t 0 = t.val ∧ win1_2.index t 1 = 0 ∧ win1_2.index t 2 = 0)
    ∧ (win1_3.index t 0 = t.val ∧ win1_3.index t 1 = 0 ∧ win1_3.index t 2 = 0) :=
  (by decide +kernel : ∀ t : Fin grid1.N, _)

/-! ## A window's block at a point is 128 consecutive groups of its array -/

theorem blk0 (t : ℕ) (ht : t < cfg1.N) (r : Fin 128) (g : Fin 17) (e : Fin 64) :
    (iblk1 V c 0 ⟨t, ht⟩ : Vec Ideal S128x17x64 .f32) (ix3 r g e) = rowT (V c main_v54) (128 * t + r.val) g e := by
  have hN : cfg1.N = 128 := N_1
  have hb : 128 * t + r.val < 16384 := by have := r.isLt; omega
  unfold rowT
  rw [dif_pos hb]
  unfold iblk1
  rw [View.read_apply]
  show V c main_v54 _ = V c main_v54 _
  refine congrArg _ (funext fun a => Fin.ext ?_)
  match a with
  | ⟨0, _⟩ => show win1_0.index ⟨t, ht⟩ 0 * 128 + 1 * r.val = 128 * t + r.val; rw [(idx_facts ⟨t, ht⟩).1.1]; show t * 128 + 1 * r.val = 128 * t + r.val; omega
  | ⟨1, _⟩ => show win1_0.index ⟨t, ht⟩ 1 * 17 + 1 * g.val = g.val; rw [(idx_facts ⟨t, ht⟩).1.2.1]; omega
  | ⟨2, _⟩ => show win1_0.index ⟨t, ht⟩ 2 * 64 + 1 * e.val = e.val; rw [(idx_facts ⟨t, ht⟩).1.2.2]; omega

theorem blk1 (t : ℕ) (ht : t < cfg1.N) (r : Fin 128) (g : Fin 17) (e : Fin 64) :
    (iblk1 V c 1 ⟨t, ht⟩ : Vec Ideal S128x17x64 .f32) (ix3 r g e) = rowT (V c main_v55) (128 * t + r.val) g e := by
  have hN : cfg1.N = 128 := N_1
  have hb : 128 * t + r.val < 16384 := by have := r.isLt; omega
  unfold rowT
  rw [dif_pos hb]
  unfold iblk1
  rw [View.read_apply]
  show V c main_v55 _ = V c main_v55 _
  refine congrArg _ (funext fun a => Fin.ext ?_)
  match a with
  | ⟨0, _⟩ => show win1_1.index ⟨t, ht⟩ 0 * 128 + 1 * r.val = 128 * t + r.val; rw [(idx_facts ⟨t, ht⟩).2.1.1]; show t * 128 + 1 * r.val = 128 * t + r.val; omega
  | ⟨1, _⟩ => show win1_1.index ⟨t, ht⟩ 1 * 17 + 1 * g.val = g.val; rw [(idx_facts ⟨t, ht⟩).2.1.2.1]; omega
  | ⟨2, _⟩ => show win1_1.index ⟨t, ht⟩ 2 * 64 + 1 * e.val = e.val; rw [(idx_facts ⟨t, ht⟩).2.1.2.2]; omega

theorem blk2 (t : ℕ) (ht : t < cfg1.N) (r : Fin 128) (g : Fin 17) (e : Fin 64) :
    (iblk1 V c 2 ⟨t, ht⟩ : Vec Ideal S128x17x64 .f32) (ix3 r g e) = rowT (V c main_v56) (128 * t + r.val) g e := by
  have hN : cfg1.N = 128 := N_1
  have hb : 128 * t + r.val < 16384 := by have := r.isLt; omega
  unfold rowT
  rw [dif_pos hb]
  unfold iblk1
  rw [View.read_apply]
  show V c main_v56 _ = V c main_v56 _
  refine congrArg _ (funext fun a => Fin.ext ?_)
  match a with
  | ⟨0, _⟩ => show win1_2.index ⟨t, ht⟩ 0 * 128 + 1 * r.val = 128 * t + r.val; rw [(idx_facts ⟨t, ht⟩).2.2.1.1]; show t * 128 + 1 * r.val = 128 * t + r.val; omega
  | ⟨1, _⟩ => show win1_2.index ⟨t, ht⟩ 1 * 17 + 1 * g.val = g.val; rw [(idx_facts ⟨t, ht⟩).2.2.1.2.1]; omega
  | ⟨2, _⟩ => show win1_2.index ⟨t, ht⟩ 2 * 64 + 1 * e.val = e.val; rw [(idx_facts ⟨t, ht⟩).2.2.1.2.2]; omega

theorem blk3 (t : ℕ) (ht : t < cfg1.N) (r : Fin 128) (g : Fin 17) (e : Fin 64) :
    (iblk1 V c 3 ⟨t, ht⟩ : Vec Ideal S128x17x64 .f32) (ix3 r g e) = rowT (V c main_v57) (128 * t + r.val) g e := by
  have hN : cfg1.N = 128 := N_1
  have hb : 128 * t + r.val < 16384 := by have := r.isLt; omega
  unfold rowT
  rw [dif_pos hb]
  unfold iblk1
  rw [View.read_apply]
  show V c main_v57 _ = V c main_v57 _
  refine congrArg _ (funext fun a => Fin.ext ?_)
  match a with
  | ⟨0, _⟩ => show win1_3.index ⟨t, ht⟩ 0 * 128 + 1 * r.val = 128 * t + r.val; rw [(idx_facts ⟨t, ht⟩).2.2.2.1]; show t * 128 + 1 * r.val = 128 * t + r.val; omega
  | ⟨1, _⟩ => show win1_3.index ⟨t, ht⟩ 1 * 17 + 1 * g.val = g.val; rw [(idx_facts ⟨t, ht⟩).2.2.2.2.1]; omega
  | ⟨2, _⟩ => show win1_3.index ⟨t, ht⟩ 2 * 64 + 1 * e.val = e.val; rw [(idx_facts ⟨t, ht⟩).2.2.2.2.2]; omega

/-! ## A point's partial sums -/

/-- The first loss's partial sum at point `t`: the group values of groups 128·t … 128·t + 127. -/
theorem part1_blk (t : ℕ) (ht : t < cfg1.N) :
    (0 + ∑ r : Fin 128, gval (fun g => sdot (nrm (fun e => (iblk1 V c 0 ⟨t, ht⟩ : Vec Ideal S128x17x64 .f32) (ix3 r g e)))
        (nrm (fun e => (iblk1 V c 1 ⟨t, ht⟩ : Vec Ideal S128x17x64 .f32) (ix3 r g e)))) : EReal)
      = ∑ r : Fin 128, rv1 (V c main_v54) (V c main_v55) (128 * t + r.val) := by
  rw [zero_add]
  refine Finset.sum_congr rfl fun r _ => ?_
  unfold rv1
  refine congrArg gval (funext fun g => ?_)
  rw [show (fun e => (iblk1 V c 0 ⟨t, ht⟩ : Vec Ideal S128x17x64 .f32) (ix3 r g e)) = rowT (V c main_v54) (128 * t + r.val) g from funext fun e => blk0 V c t ht r g e,
    show (fun e => (iblk1 V c 1 ⟨t, ht⟩ : Vec Ideal S128x17x64 .f32) (ix3 r g e)) = rowT (V c main_v55) (128 * t + r.val) g from funext fun e => blk1 V c t ht r g e]

theorem part2_blk (t : ℕ) (ht : t < cfg1.N) :
    (0 + ∑ r : Fin 128, gval (fun g => sdot (fun e => (iblk1 V c 2 ⟨t, ht⟩ : Vec Ideal S128x17x64 .f32) (ix3 r g e))
        (fun e => (iblk1 V c 3 ⟨t, ht⟩ : Vec Ideal S128x17x64 .f32) (ix3 r g e))) : EReal)
      = ∑ r : Fin 128, rv2 (V c main_v56) (V c main_v57) (128 * t + r.val) := by
  rw [zero_add]
  refine Finset.sum_congr rfl fun r _ => ?_
  unfold rv2
  refine congrArg gval (funext fun g => ?_)
  rw [show (fun e => (iblk1 V c 2 ⟨t, ht⟩ : Vec Ideal S128x17x64 .f32) (ix3 r g e)) = rowT (V c main_v56) (128 * t + r.val) g from funext fun e => blk2 V c t ht r g e,
    show (fun e => (iblk1 V c 3 ⟨t, ht⟩ : Vec Ideal S128x17x64 .f32) (ix3 r g e)) = rowT (V c main_v57) (128 * t + r.val) g from funext fun e => blk3 V c t ht r g e]

/-! ## The running values are the sums over the points so far -/

theorem chain_eq (hp : PayForms) : ∀ (n : ℕ) (h : n < cfg1.N),
    chain V c n h
      = (fun (_ : S1x1.Idx) => ∑ t ∈ range (n + 1), ∑ r : Fin 128, rv1 (V c main_v54) (V c main_v55) (128 * t + r.val),
         fun (_ : S1x1.Idx) => ∑ t ∈ range (n + 1), ∑ r : Fin 128, rv2 (V c main_v56) (V c main_v57) (128 * t + r.val))
  | 0, h => by
    simp only [chain]
    rw [hp.pay1, hp.pay2, hp.pay7, hp.pay3, hp.pay4, part1_blk V c 0 h, part2_blk V c 0 h]
    simp only [zero_add, Finset.sum_range_one]
  | n + 1, h => by
    simp only [chain]
    rw [hp.pay1, hp.pay2, hp.pay7, part1_blk V c (n + 1) h, part2_blk V c (n + 1) h, chain_eq hp n (Nat.lt_of_succ_lt h)]
    refine Prod.ext (funext fun _ => ?_) (funext fun _ => ?_)
    · exact (Finset.sum_range_succ (fun t => ∑ r : Fin 128, rv1 (V c main_v54) (V c main_v55) (128 * t + r.val)) (n + 1)).symm
    · exact (Finset.sum_range_succ (fun t => ∑ r : Fin 128, rv2 (V c main_v56) (V c main_v57) (128 * t + r.val)) (n + 1)).symm

/-! ## All 128 points: the sum over all 16384 groups -/

/-- A sum over 128 tiles of 128 consecutive terms is the sum over the 16384 terms. -/
theorem sum_all (f : ℕ → EReal) : ∑ t ∈ range 128, ∑ r : Fin 128, f (128 * t + r.val) = ∑ b : Fin 16384, f b.val := by
  rw [Cert.Tiles.sum_tiles_fin 128 f 128, Fin.sum_univ_eq_sum_range f 16384]

theorem rv1_val (A0 A1 : S16384x17x64.Idx → EReal) (b : Fin 16384) :
    rv1 A0 A1 b.val = rowVal (fun b g => nrm (fun e => A0 (ix3 b g e))) (fun b g => nrm (fun e => A1 (ix3 b g e))) b := by
  unfold rv1 rowVal rowT
  simp only [dif_pos b.isLt, Fin.eta]

theorem rv2_val (A2 A3 : S16384x17x64.Idx → EReal) (b : Fin 16384) :
    rv2 A2 A3 b.val = rowVal (fun b g e => A2 (ix3 b g e)) (fun b g e => A3 (ix3 b g e)) b := by
  unfold rv2 rowVal rowT
  simp only [dif_pos b.isLt, Fin.eta]

/-- The first accumulator ends at the sum of the first loss's group values over all groups, -/
theorem result4_eq (hp : PayForms) :
    (chain V c 127 tLast.isLt).1 = fun (_ : S1x1.Idx) => ∑ b : Fin 16384,
      rowVal (fun b g => nrm (fun e => (V c main_v54 : S16384x17x64.Idx → EReal) (ix3 b g e)))
        (fun b g => nrm (fun e => (V c main_v55 : S16384x17x64.Idx → EReal) (ix3 b g e))) b := by
  rw [chain_eq V c hp 127 tLast.isLt]
  funext _
  exact (sum_all (rv1 (V c main_v54) (V c main_v55))).trans (Finset.sum_congr rfl fun b _ => rv1_val _ _ b)

/-- and the second at the second loss's. -/
theorem result5_eq (hp : PayForms) :
    (chain V c 127 tLast.isLt).2 = fun (_ : S1x1.Idx) => ∑ b : Fin 16384,
      rowVal (fun b g e => (V c main_v56 : S16384x17x64.Idx → EReal) (ix3 b g e))
        (fun b g e => (V c main_v57 : S16384x17x64.Idx → EReal) (ix3 b g e)) b := by
  rw [chain_eq V c hp 127 tLast.isLt]
  funext _
  exact (sum_all (rv2 (V c main_v56) (V c main_v57))).trans (Finset.sum_congr rfl fun b _ => rv2_val _ _ b)

end Cert.KernelIdeal.LossSum

end
-- ==== Proof.KValue.lean ====
/-
  The idealized kernel program's result as a value of the argument arrays.  Reading the program's fold segment
  by segment: the bias rows; the feature table the encoder kernel leaves (its closed form enters as a
  hypothesis); the four matrices the stretch between the kernels builds from it, which are the reference's
  own, grouped by 17 rows; the two accumulated sums the loss kernel leaves, each the sum of its loss's group
  values over all 16384 groups; and the last stretch, which divides each by 16384 and averages.
-/
import proofs.«151807_j21251498181534_1_alg».proof.Proof.KChain
import proofs.«151807_j21251498181534_1_alg».proof.Proof.KMid
import proofs.«151807_j21251498181534_1_alg».proof.Proof.LossSum
import Idealize.ShloMosaic.Lib.Pipeline.Value

noncomputable section

open scoped BigOperators
open Idealize.ShloMosaic Idealize.ShloMosaic.TcCoe Idealize.SL.Sem Idealize.ShloMosaic.StableHlo Idealize.ShloMosaic.ValueIdx
open Idealize.ShloMosaic.Pipeline (Dat)

namespace Cert.KernelIdeal.KValue

open Cert.KernelIdeal Cert.KernelIdeal.Gen Cert.KernelIdeal.KChain Cert.KernelIdeal.KMid Cert.KernelIdeal.LossAcc
  Cert.KernelIdeal.LossSum Cert.LossForm

variable (m : (ℓ : Loc nD τ sig) → Buf (Elt Ideal) ℓ) (ρ : Dev nD → PrngReg) (c : Dev nD)

/-- The encoder kernel's closed form (proved where its payload is read at an index): from any contents at
    its entry whose two bias rows are recast vectors, its result array ends at the host encoder's value. -/
def EncForm : Prop :=
  ∀ (V : (c : Dev nD) → (b : Ref sig .tc) → Buf (Elt Ideal) ((c : Thread nD τ).loc b)) (c : Dev nD)
    (a3 : (⟨S256, .f32⟩ : BufTy).Contents (Elt Ideal)) (a5 : (⟨S64, .f32⟩ : BufTy).Contents (Elt Ideal)),
    V c main_v0 = shapeCast S1x256 a3 shapeCasts_S256_S1x256 →
    V c main_v1 = shapeCast S1x64 a5 shapeCasts_S64_S1x64 →
    (dat0 (F := Ideal) V c).arrAt 5 cfg0.N = Cert.Spec.enc (F := Ideal) (V c main_arg0) (V c main_arg2) a3 (V c main_arg4) a5

/-! ## The arguments through the fold -/

/-- No operation of the first stretch writes an argument. -/
theorem W1_arg (b : Ref sig .tc) (h0 : b ≠ main_v0) (h1 : b ≠ main_v1) :
    W1 m ρ c (Proc.devRef .tc b) = m ((c : Thread nD τ).loc b) := by
  show after hostOps0 (W0 m ρ c) (Proc.devRef .tc b) = _
  simp only [hostOps0, after_cons, after_nil]
  rw [reshape_result_ne (h := h1), reshape_result_ne (h := h0)]

/-- An argument the encoder kernel does not window keeps its launch contents past it. -/
theorem W2_arg (b : Ref sig .tc) (hb : ∀ w, Pipeline.arrRef spec0 w ≠ b) (h0 : b ≠ main_v0) (h1 : b ≠ main_v1) :
    W2 m ρ c (Proc.devRef .tc b) = m ((c : Thread nD τ).loc b) :=
  (W2_of_ne m ρ c b hb).trans (W1_arg m ρ c b h0 h1)

/-- The feature table after the encoder kernel. -/
theorem W2_feat (henc : EncForm) :
    W2 m ρ c (Proc.devRef .tc main_v2)
      = Cert.Spec.enc (F := Ideal) (m ((c : Thread nD τ).loc main_arg0)) (m ((c : Thread nD τ).loc main_arg2))
          (m ((c : Thread nD τ).loc main_arg3)) (m ((c : Thread nD τ).loc main_arg4)) (m ((c : Thread nD τ).loc main_arg5)) := by
  refine (W2_arr m ρ c 5).trans ?_
  have h3 : V1 m ρ c main_v0 = shapeCast S1x256 (m ((c : Thread nD τ).loc main_arg3)) shapeCasts_S256_S1x256 :=
    pre_v0 (W0 m ρ c)
  have h5 : V1 m ρ c main_v1 = shapeCast S1x64 (m ((c : Thread nD τ).loc main_arg5)) shapeCasts_S64_S1x64 :=
    pre_v1 (W0 m ρ c)
  rw [henc (V1 m ρ) c _ _ h3 h5]
  show Cert.Spec.enc (W1 m ρ c (Proc.devRef .tc main_arg0)) (W1 m ρ c (Proc.devRef .tc main_arg2)) _ (W1 m ρ c (Proc.devRef .tc main_arg4)) _ = _
  rw [W1_arg m ρ c main_arg0 (by decide) (by decide), W1_arg m ρ c main_arg2 (by decide) (by decide),
    W1_arg m ρ c main_arg4 (by decide) (by decide)]

/-! ## The four arrays at the loss kernel's entry -/

theorem V5_v54 : V5 m ρ c main_v54 = shapeCast S16384x17x64 (Cert.Spec.posE (F := Ideal) (m ((c : Thread nD τ).loc main_arg1)) (m ((c : Thread nD τ).loc main_arg7))) shapeCasts_S278528x64_S16384x17x64 := by
  show after hostOps1_2 (after hostOps1_1 (after hostOps1 (W2 m ρ c))) (Proc.devRef .tc main_v54) = _
  rw [mid_v54, W2_arg m ρ c main_arg1 (by decide) (by decide) (by decide), W2_arg m ρ c main_arg7 (by decide) (by decide) (by decide)]

theorem V5_v55 (henc : EncForm) : V5 m ρ c main_v55 = shapeCast S16384x17x64 (Cert.Spec.allFeat (F := Ideal) (Cert.Spec.enc (F := Ideal) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg7))) shapeCasts_S278528x64_S16384x17x64 := by
  show after hostOps1_2 (after hostOps1_1 (after hostOps1 (W2 m ρ c))) (Proc.devRef .tc main_v55) = _
  rw [mid_v55, W2_feat m ρ c henc, W2_arg m ρ c main_arg7 (by decide) (by decide) (by decide)]

theorem V5_v56 : V5 m ρ c main_v56 = shapeCast S16384x17x64 (Cert.Spec.userE (F := Ideal) (m ((c : Thread nD τ).loc main_arg1)) (m ((c : Thread nD τ).loc main_arg6))) shapeCasts_S278528x64_S16384x17x64 := by
  show after hostOps1_2 (after hostOps1_1 (after hostOps1 (W2 m ρ c))) (Proc.devRef .tc main_v56) = _
  rw [mid_v56, W2_arg m ρ c main_arg1 (by decide) (by decide) (by decide), W2_arg m ρ c main_arg6 (by decide) (by decide) (by decide)]

theorem V5_v57 (henc : EncForm) : V5 m ρ c main_v57 = shapeCast S16384x17x64 (Cert.Spec.itemIn (F := Ideal) (Cert.Spec.enc (F := Ideal) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg7)) (m ((c : Thread nD τ).loc main_arg8))) shapeCasts_S278528x64_S16384x17x64 := by
  show after hostOps1_2 (after hostOps1_1 (after hostOps1 (W2 m ρ c))) (Proc.devRef .tc main_v57) = _
  rw [mid_v57, W2_feat m ρ c henc, W2_arg m ρ c main_arg1 (by decide) (by decide) (by decide), W2_arg m ρ c main_arg7 (by decide) (by decide) (by decide), W2_arg m ρ c main_arg8 (by decide) (by decide) (by decide)]

/-- Entry (b, g, e) of a 278528-by-64 matrix recast as 16384 × 17 × 64 is entry (17·b + g, e): the same row-major position. -/
theorem cast3_apply (A : (⟨S278528x64, .f32⟩ : BufTy).Contents (Elt Ideal)) (b : Fin 16384) (g : Fin 17) (e : Fin 64) :
    shapeCast S16384x17x64 A shapeCasts_S278528x64_S16384x17x64 (ix3 b g e) = rows3 A b g e := by
  unfold rows3
  refine shapeCast_apply A _ (ix3 b g e) _ ?_
  rw [Shape.rowMajor_val_two, Shape.rowMajor_val_three]
  show (17 * b.val + g.val) * 64 + e.val = (b.val * 17 + g.val) * 64 + e.val
  omega

/-! ## The two accumulated sums -/

theorem W6_l1 (hp : PayForms) (henc : EncForm) :
    W6 m ρ c (Proc.devRef .tc main_v58_0) = fun _ => ∑ b : Fin 16384, rowVal (rows3n (Cert.Spec.posE (F := Ideal) (m ((c : Thread nD τ).loc main_arg1)) (m ((c : Thread nD τ).loc main_arg7)))) (rows3n (Cert.Spec.allFeat (F := Ideal) (Cert.Spec.enc (F := Ideal) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg7)))) b := by
  refine (W6_arr m ρ c 4).trans ((final4 (V5 m ρ) c).trans ((result4_eq (V5 m ρ) c hp).trans ?_))
  have e0 : (fun (b : Fin 16384) (g : Fin 17) => nrm (fun e => (V5 m ρ c main_v54 : S16384x17x64.Idx → EReal) (ix3 b g e))) = rows3n (Cert.Spec.posE (F := Ideal) (m ((c : Thread nD τ).loc main_arg1)) (m ((c : Thread nD τ).loc main_arg7))) := by
    funext b g
    unfold rows3n
    refine congrArg nrm (funext fun e => ?_)
    rw [V5_v54 m ρ c]
    exact cast3_apply _ b g e
  have e1 : (fun (b : Fin 16384) (g : Fin 17) => nrm (fun e => (V5 m ρ c main_v55 : S16384x17x64.Idx → EReal) (ix3 b g e))) = rows3n (Cert.Spec.allFeat (F := Ideal) (Cert.Spec.enc (F := Ideal) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg7))) := by
    funext b g
    unfold rows3n
    refine congrArg nrm (funext fun e => ?_)
    rw [V5_v55 m ρ c henc]
    exact cast3_apply _ b g e
  rw [e0, e1]
  rfl

theorem W6_l2 (hp : PayForms) (henc : EncForm) :
    W6 m ρ c (Proc.devRef .tc main_v58_1) = fun _ => ∑ b : Fin 16384, rowVal (rows3 (Cert.Spec.userE (F := Ideal) (m ((c : Thread nD τ).loc main_arg1)) (m ((c : Thread nD τ).loc main_arg6)))) (rows3 (Cert.Spec.itemIn (F := Ideal) (Cert.Spec.enc (F := Ideal) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg7)) (m ((c : Thread nD τ).loc main_arg8)))) b := by
  refine (W6_arr m ρ c 5).trans ((final5 (V5 m ρ) c).trans ((result5_eq (V5 m ρ) c hp).trans ?_))
  have e2 : (fun (b : Fin 16384) (g : Fin 17) (e : Fin 64) => (V5 m ρ c main_v56 : S16384x17x64.Idx → EReal) (ix3 b g e)) = rows3 (Cert.Spec.userE (F := Ideal) (m ((c : Thread nD τ).loc main_arg1)) (m ((c : Thread nD τ).loc main_arg6))) := by
    funext b g e
    rw [V5_v56 m ρ c]
    exact cast3_apply _ b g e
  have e3 : (fun (b : Fin 16384) (g : Fin 17) (e : Fin 64) => (V5 m ρ c main_v57 : S16384x17x64.Idx → EReal) (ix3 b g e)) = rows3 (Cert.Spec.itemIn (F := Ideal) (Cert.Spec.enc (F := Ideal) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg7)) (m ((c : Thread nD τ).loc main_arg8))) := by
    funext b g e
    rw [V5_v57 m ρ c henc]
    exact cast3_apply _ b g e
  rw [e2, e3]
  rfl

/-! ## The result -/

/-- The program's result: each accumulated sum over 16384, halved, added. -/
theorem kernel_value (hp : PayForms) (henc : EncForm) :
    W7 m ρ c (Proc.devRef .tc main_v65)
      = Cert.Spec.fin (F := Ideal)
          (fun _ => Ideal.div (∑ b : Fin 16384, rowVal (rows3n (Cert.Spec.posE (F := Ideal) (m ((c : Thread nD τ).loc main_arg1)) (m ((c : Thread nD τ).loc main_arg7)))) (rows3n (Cert.Spec.allFeat (F := Ideal) (Cert.Spec.enc (F := Ideal) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg7)))) b) cnt)
          (fun _ => Ideal.div (∑ b : Fin 16384, rowVal (rows3 (Cert.Spec.userE (F := Ideal) (m ((c : Thread nD τ).loc main_arg1)) (m ((c : Thread nD τ).loc main_arg6)))) (rows3 (Cert.Spec.itemIn (F := Ideal) (Cert.Spec.enc (F := Ideal) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg7)) (m ((c : Thread nD τ).loc main_arg8)))) b) cnt) := by
  show after hostOps2 (W6 m ρ c) (Proc.devRef .tc main_v65) = _
  rw [tail_v65, W6_l1 m ρ c hp henc, W6_l2 m ρ c hp henc]
  rfl

end Cert.KernelIdeal.KValue

end
-- ==== Proof.LibLaneSums.lean ====
/-
  Lane sums of a matrix read at an element, on the extended reals: a `vector.multi_reduction <add>` of an M-by-N
  matrix along its columns (axis 1) is, at row r, the sum over the N entries of row r; along its rows (axis 0) it is,
  at column k, the sum over the M entries of column k. Also the square root of a vector at an element.
-/
import Idealize.ShloMosaic.PureOps.Ideal.Laws
import Idealize.ShloMosaic.Lib.ValueIdx

noncomputable section

open scoped BigOperators

namespace Cert.Lib

open Idealize.ShloMosaic Idealize.ShloMosaic.ValueIdx

variable {φ : FTy}

/-- Summing each row: at row `r`, the sum of that row's entries. -/
theorem rowSum_apply {M N : Nat} (src : FVec Ideal ⟨2, ![M, N]⟩ φ) (acc : BitVec φ.bits)
    (h : Shape.Reduces ⟨2, ![M, N]⟩ [1] ⟨1, ![M]⟩) (hφ : FKind.Formats φ) (hacc : acc = FKind.add.neutral φ hφ) (r : Fin M) :
    multiReduction .add [1] ⟨1, ![M]⟩ src acc h hφ hacc (ix1 r) = ∑ k : Fin N, src (ix2 r k) :=
  (Ideal.multiReduction_add_single src acc h hφ hacc (ix1 r)).trans
    (Finset.sum_congr rfl fun k _ => congrArg src (funext fun a => Fin.ext (by
      match a with
      | ⟨0, _⟩ => rfl
      | ⟨1, _⟩ => rfl)))

/-- Summing each column: at column `k`, the sum of that column's entries. -/
theorem colSum_apply {M N : Nat} (src : FVec Ideal ⟨2, ![M, N]⟩ φ) (acc : BitVec φ.bits)
    (h : Shape.Reduces ⟨2, ![M, N]⟩ [0] ⟨1, ![N]⟩) (hφ : FKind.Formats φ) (hacc : acc = FKind.add.neutral φ hφ) (k : Fin N) :
    multiReduction .add [0] ⟨1, ![N]⟩ src acc h hφ hacc (ix1 k) = ∑ r : Fin M, src (ix2 r k) :=
  (Ideal.multiReduction_add_single src acc h hφ hacc (ix1 k)).trans
    (Finset.sum_congr rfl fun r _ => congrArg src (funext fun a => Fin.ext (by
      match a with
      | ⟨0, _⟩ => rfl
      | ⟨1, _⟩ => rfl)))

/-- The square root of a vector, at an element. -/
theorem sqrt_apply {s : Shape} (a : FVec Ideal s φ) (i : s.Idx) : sqrt a i = Ideal.sqrt (a i) := rfl

end Cert.Lib

end
-- ==== Proof.LibColCast.lean ====
/-
  A VECTOR LAID OUT AS A COLUMN, READ AT AN ELEMENT.

  An array of shape [a] recast to shape [a, 1] — one number per row — holds, at (k, 0), the vector's entry k: both
  positions are the k-th in row-major order.
-/
import Idealize.ShloMosaic.Lib.Pipeline.Value
import Idealize.ShloMosaic.Lib.ValueIdx

noncomputable section

namespace Cert.Lib

open Idealize.ShloMosaic Idealize.ShloMosaic.ValueIdx

/-- An `[a]` array cast to `[a, 1]` reads, at `(k, u)`, the operand at `k`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (k : Fin a) (u : Fin 1) :
    shapeCast ⟨2, ![a, 1]⟩ x h (ix2 k u) = x (ix1 k) :=
  shapeCast_apply x h _ _ (by
    have hu : u.val = 0 := by omega
    rw [Shape.rowMajor_val_two, Shape.rowMajor_val_one]
    show k.val = k.val * 1 + u.val
    rw [hu, Nat.mul_one, Nat.add_zero])

end Cert.Lib

end
-- ==== Proof.LossPayA.lean ====
/-
  The pieces of the loss kernel's stored values read at an element, on the extended reals: the sum over the
  64 entries of a row of a 128-by-17-by-64 block; the exponential of two rows' dot product over 0.2; and the
  kernel's last stage — from a 128-by-17 block s of such exponentials, the running value plus the sum over the
  128 groups of minus the logarithm of (s's first column over (the group's sum plus 1e-8), plus 1e-8).
-/
import proofs.«151807_j21251498181534_1_alg».proof.Proof.Gen.KernelIdeal.Skeleton
import proofs.«151807_j21251498181534_1_alg».proof.Proof.LossForm
import proofs.«151807_j21251498181534_1_alg».proof.Proof.LibLaneSums
import proofs.«151807_j21251498181534_1_alg».proof.Proof.LibColCast
import Idealize.ShloMosaic.Lib.Pipeline.Value
import Idealize.ShloMosaic.PureOps.Ideal.Laws

noncomputable section

open scoped BigOperators

namespace Cert.KernelIdeal.LossPay

open Cert.KernelIdeal Cert.KernelIdeal.Gen Cert.LossForm Idealize.ShloMosaic Idealize.ShloMosaic.ValueIdx

/-- Summing a 128-by-17-by-64 block over its last axis: at (r, g), zero plus the sum of row (r, g)'s 64 entries. -/
theorem laneSum_apply (src : FVec Ideal S128x17x64 .f32) (acc : BitVec 32)
    (h : S128x17x64.Reduces [2] S128x17) (hφ : FKind.Formats .f32) (hacc : acc = FKind.add.neutral .f32 hφ)
    (r : Fin 128) (g : Fin 17) :
    multiReduction .add [2] S128x17 src acc h hφ hacc (ix2 r g) = 0 + ∑ e : Fin 64, src (ix3 r g e) :=
  (Ideal.multiReduction_add_single src acc h hφ hacc (ix2 r g)).trans
    ((Finset.sum_congr rfl fun e _ => congrArg src (funext fun a => Fin.ext (by
      match a with
      | ⟨0, _⟩ => rfl
      | ⟨1, _⟩ => rfl
      | ⟨2, _⟩ => rfl))).trans (zero_add _).symm)

/-- The exponential of (the row sums of a product of two blocks, over 0.2), at (r, g): the two rows' value. -/
theorem sdot_apply (a b : FVec Ideal S128x17x64 .f32) (acc : BitVec 32)
    (h : S128x17x64.Reduces [2] S128x17) (hφ : FKind.Formats .f32) (hacc : acc = FKind.add.neutral .f32 hφ)
    (r : Fin 128) (g : Fin 17) :
    exp (divf (multiReduction .add [2] S128x17 (mulf a b) acc h hφ hacc)
        (broadcast S128x17 (Scalar.ofBits .f32 0x3E4CCCCD#32))) (ix2 r g)
      = sdot (fun e => a (ix3 r g e)) (fun e => b (ix3 r g e)) :=
  congrArg (fun t => Ideal.exp (Ideal.div t temp)) (laneSum_apply (mulf a b) acc h hφ hacc r g)

/-- A cast of a block to its own shape changes nothing. -/
theorem pay5_eq (v : Vec Ideal S128x17x64 .f32) : k1_pay5 (F := Ideal) v = v := shapeCast_self v _
theorem pay6_eq (v : Vec Ideal S128x17x64 .f32) : k1_pay6 (F := Ideal) v = v := shapeCast_self v _
theorem pay7_eq (v : Vec Ideal S1x1 .f32) : k1_pay7 (F := Ideal) v = v := shapeCast_self v _

/-- The two zero blocks. -/
theorem pay3_eq : k1_pay3 (F := Ideal) = fun _ => (0 : EReal) := funext fun _ => Ideal.ofBits_zero_f32
theorem pay4_eq : k1_pay4 (F := Ideal) = fun _ => (0 : EReal) := funext fun _ => Ideal.ofBits_zero_f32

/-- The kernel's last stage at its one element, for any block s of exponentials and any column c standing for
    s's first column. -/
theorem pay1_apply (v28 : FVec Ideal S1x1 .f32) (s : FVec Ideal S128x17 .f32) (c : FVec Ideal S128x1 .f32)
    (j : S1x1.Idx) :
    k1_pay1 (F := Ideal) v28 s c j
      = v28 j + (0 + ∑ r : Fin 128,
          -(Ideal.log (Ideal.div (c (ix2 r (0 : Fin 1))) ((0 + ∑ g : Fin 17, s (ix2 r g)) + epsL) + epsL))) := by
  obtain ⟨p, q, rfl⟩ : ∃ (p : Fin 1) (q : Fin 1), j = ix2 p q := ⟨j 0, j 1, eq_ix2 j⟩
  unfold k1_pay1
  refine congrArg (fun t => v28 (ix2 p q) + t) ?_
  refine (Cert.Lib.shapeCast_a_a1_apply _ _ p q).trans ?_
  refine (Cert.Lib.colSum_apply _ _ _ _ _ p).trans ?_
  refine (Finset.sum_congr rfl fun r _ => ?_).trans (zero_add _).symm
  obtain rfl : p = 0 := Subsingleton.elim _ _
  refine (congrArg (fun t => t - Ideal.log (Ideal.div (c (ix2 r (0 : Fin 1)))
    (shapeCast S128x1 (multiReduction .add [1] S128 s 0x00000000#32 reduces_S128x17_S128 (.inl rfl) rfl)
      shapeCasts_S128_S128x1 (ix2 r (0 : Fin 1)) + epsL) + epsL)) Ideal.ofBits_zero_f32).trans ?_
  refine (zero_sub _).trans ?_
  refine congrArg (fun t => -(Ideal.log (Ideal.div (c (ix2 r (0 : Fin 1))) (t + epsL) + epsL))) ?_
  refine (Cert.Lib.shapeCast_a_a1_apply _ _ r 0).trans ?_
  exact (Cert.Lib.rowSum_apply _ _ _ _ _ r).trans (zero_add _).symm

/-- The first column of a 128-by-17 block, read at row r. -/
theorem firstCol_apply (s : FVec Ideal S128x17 .f32) (h : S128x17.Slices ![0, 0] S128x1) (r : Fin 128) :
    extractStridedSlice S128x1 ![0, 0] s h (ix2 r (0 : Fin 1)) = s (ix2 r (0 : Fin 17)) :=
  extractStridedSlice_apply _ s h _ _ fun a => by
    match a with
    | ⟨0, _⟩ => show r.val = 0 + r.val; omega
    | ⟨1, _⟩ => show (0 : Nat) = 0 + 0; rfl

/-- The last stage applied to a block and its own first column: the running value plus the sum of the 128
    groups' values. -/
theorem pay1_groups (v28 : FVec Ideal S1x1 .f32) (s : FVec Ideal S128x17 .f32) (j : S1x1.Idx) :
    k1_pay1 (F := Ideal) v28 s (extractStridedSlice S128x1 ![0, 0] s slices_S128x17_o0_0_S128x1) j
      = v28 j + (0 + ∑ r : Fin 128, gval (fun g => s (ix2 r g))) :=
  (pay1_apply v28 s _ j).trans (congrArg (fun t => v28 j + (0 + t)) (Finset.sum_congr rfl fun r _ =>
    congrArg (fun t => -(Ideal.log (Ideal.div t ((0 + ∑ g : Fin 17, s (ix2 r g)) + epsL) + epsL)))
      (firstCol_apply s _ r)))

/-- The second stored value: the running value plus the sum over the 128 groups of the group's value on the
    rows as they are. -/
theorem pay2_eq (v49 : Vec Ideal S1x1 .f32) (x2 x3 : Vec Ideal S128x17x64 .f32) :
    k1_pay2 (F := Ideal) (k1_pay5 x2) (k1_pay6 x3) v49
      = fun j => v49 j + (0 + ∑ r : Fin 128, gval (fun g => sdot (fun e => x2 (ix3 r g e)) (fun e => x3 (ix3 r g e)))) := by
  funext j
  rw [pay5_eq, pay6_eq]
  have hk : k1_pay2 (F := Ideal) x2 x3 v49
      = k1_pay1 (F := Ideal) (shapeCast S1x1 v49 shapeCasts_S1x1_S1x1)
          (exp (divf (multiReduction .add [2] S128x17 (mulf x2 x3) 0x00000000#32 reduces_S128x17x64_S128x17 (.inl rfl) rfl)
            (broadcast S128x17 (Scalar.ofBits .f32 0x3E4CCCCD#32))))
          (extractStridedSlice S128x1 ![0, 0]
            (exp (divf (multiReduction .add [2] S128x17 (mulf x2 x3) 0x00000000#32 reduces_S128x17x64_S128x17 (.inl rfl) rfl)
              (broadcast S128x17 (Scalar.ofBits .f32 0x3E4CCCCD#32)))) slices_S128x17_o0_0_S128x1) := by
    unfold k1_pay2 k1_pay1
    rfl
  rw [hk, shapeCast_self]
  refine (pay1_groups v49 _ j).trans ?_
  exact congrArg (fun t => v49 j + (0 + t)) (Finset.sum_congr rfl fun r _ =>
    congrArg gval (funext fun g => sdot_apply x2 x3 _ _ _ _ r g))

end Cert.KernelIdeal.LossPay

end
-- ==== Proof.LossPay.lean ====
/-
  The loss kernel's first stored value in closed form on the extended reals: each of the two 128-by-17-by-64
  blocks has every row divided by the larger of the row's Euclidean norm and 1e-12; the exponential of the
  normalised rows' dot product over 0.2 gives a 128-by-17 block; the stored value is the running value plus the
  sum over the 128 groups of the group's value. The second stored value (the same without the normalisation),
  the same-shape casts and the two zero blocks are in the module imported first.
-/
import proofs.«151807_j21251498181534_1_alg».proof.Proof.Gen.KernelIdeal.Skeleton
import proofs.«151807_j21251498181534_1_alg».proof.Proof.LossForm
import proofs.«151807_j21251498181534_1_alg».proof.Proof.LibLaneSums
import proofs.«151807_j21251498181534_1_alg».proof.Proof.LibColCast
import proofs.«151807_j21251498181534_1_alg».proof.Proof.LossPayA
import Idealize.ShloMosaic.Lib.Pipeline.Value
import Idealize.ShloMosaic.PureOps.Ideal.Laws

noncomputable section

open scoped BigOperators

namespace Cert.KernelIdeal.LossPay

open Cert.KernelIdeal Cert.KernelIdeal.Gen Cert.LossForm Idealize.ShloMosaic Idealize.ShloMosaic.ValueIdx

/-- A block divided, row by row, by the larger of the row's Euclidean norm (kept as a trailing unit axis and
    spread back over the 64 entries) and 1e-12: at (r, g, e), entry e of the normalised row (r, g). -/
theorem nrm_apply (x : FVec Ideal S128x17x64 .f32) (acc : BitVec 32)
    (h : S128x17x64.Reduces [2] S128x17) (hφ : FKind.Formats .f32) (hacc : acc = FKind.add.neutral .f32 hφ)
    (hc : S128x17.ShapeCasts S128x17x1) (hb : S128x17x1.Broadcasts S128x17x64)
    (r : Fin 128) (g : Fin 17) (e : Fin 64) :
    divf x (broadcastTo S128x17x64
        (maximumf (sqrt (shapeCast S128x17x1 (multiReduction .add [2] S128x17 (mulf x x) acc h hφ hacc) hc))
          (broadcast S128x17x1 (Scalar.ofBits .f32 0x2B8CBCCC#32))) hb) (ix3 r g e)
      = nrm (fun e => x (ix3 r g e)) e := by
  refine congrArg (fun t => Ideal.div (x (ix3 r g e)) t) ?_
  refine (broadcastTo_apply _ hb (ix3 r g e) (ix3 r g (0 : Fin 1)) fun a => ?_).trans ?_
  · match a with
    | ⟨0, _⟩ => rfl
    | ⟨1, _⟩ => rfl
    | ⟨2, _⟩ => rfl
  refine congrArg (fun t => max (Ideal.sqrt t) epsN) ?_
  refine (shapeCast_apply _ hc (ix3 r g (0 : Fin 1)) (ix2 r g) ?_).trans ?_
  · rw [Shape.rowMajor_val_two, Shape.rowMajor_val_three]
    show r.val * 17 + g.val = (r.val * 17 + g.val) * 1 + 0
    omega
  exact laneSum_apply (mulf x x) acc h hφ hacc r g

/-- The block of exponentials at (r, g): the value of the two normalised rows (r, g). -/
theorem pay8_apply (x0 x1 : Vec Ideal S128x17x64 .f32) (r : Fin 128) (g : Fin 17) :
    k1_pay8 (F := Ideal) x0 x1 (ix2 r g)
      = sdot (nrm (fun e => x0 (ix3 r g e))) (nrm (fun e => x1 (ix3 r g e))) := by
  unfold k1_pay8
  simp only [shapeCast_self]
  refine (sdot_apply _ _ _ _ _ _ r g).trans ?_
  exact congrArg₂ sdot (funext fun e => nrm_apply x0 _ _ _ _ _ _ r g e)
    (funext fun e => nrm_apply x1 _ _ _ _ _ _ r g e)

/-- The first stored value: the running value plus the sum over the 128 groups of the group's value on the
    normalised rows. -/
theorem pay1_eq (v28 : FVec Ideal S1x1 .f32) (x0 x1 : Vec Ideal S128x17x64 .f32) :
    k1_pay1 (F := Ideal) v28 (k1_pay8 x0 x1) (k1_pay9 x0 x1)
      = fun j => v28 j + (0 + ∑ r : Fin 128,
          gval (fun g => sdot (nrm (fun e => x0 (ix3 r g e))) (nrm (fun e => x1 (ix3 r g e))))) := by
  funext j
  have h9 : k1_pay9 (F := Ideal) x0 x1
      = extractStridedSlice S128x1 ![0, 0] (k1_pay8 x0 x1) slices_S128x17_o0_0_S128x1 := rfl
  rw [h9]
  refine (pay1_groups v28 _ j).trans ?_
  exact congrArg (fun t => v28 j + (0 + t)) (Finset.sum_congr rfl fun r _ =>
    congrArg gval (funext fun g => pay8_apply x0 x1 r g))

end Cert.KernelIdeal.LossPay

end
-- ==== Proof.EncRow.lean ====
/-
  ONE ROW OF THE ENCODER, on the extended reals.

  A row x of 128 numbers is divided by the larger of its Euclidean norm and a small constant; the result is
  multiplied by a 128-by-256 matrix and a bias row is added; every entry h of that goes through the leaky
  rectifier (h itself where h ≥ 0, a fixed small multiple of h elsewhere); the result is multiplied by a
  256-by-64 matrix and a second bias row is added. Entry q of the outcome is `encRow x W1 b1 W2 b2 q`.
  The three constants stay the words the two programs write; none is ever evaluated.
-/
import Idealize.ShloMosaic.PureOps.Ideal.Laws
import Idealize.ShloMosaic.Lib.ValueIdx

noncomputable section

open scoped BigOperators

namespace Cert.EncRow

open Idealize.ShloMosaic Idealize.ShloMosaic.ValueIdx

/-- The leaky rectifier: h where h ≥ 0, the small multiple of h elsewhere. -/
def leaky (h : EReal) : EReal :=
  Scalar.select (FloatOps.cmpf (F := Ideal) (φ := .f32) .oge h (Ideal.ofBits .f32 0x00000000#32)) h
    (Ideal.ofBits .f32 0x3C23D70A#32 * h)

/-- Entry j of the row divided by the larger of the row's Euclidean norm and the small constant. -/
def unitRow (x : Fin 128 → EReal) (j : Fin 128) : EReal :=
  Ideal.div (x j) (max (Ideal.sqrt (∑ i : Fin 128, x i * x i)) (Ideal.ofBits .f32 0x2B8CBCCC#32))

/-- Entry k of the hidden row: the rectifier of the normalized row against column k of the first matrix, plus
    the first bias. -/
def hidden (x : Fin 128 → EReal) (W1 : (⟨2, ![128, 256]⟩ : Shape).Idx → EReal) (b1 : Fin 256 → EReal)
    (k : Fin 256) : EReal :=
  leaky ((∑ j : Fin 128, unitRow x j * W1 (ix2 j k)) + b1 k)

/-- Entry q of the encoded row: the hidden row against column q of the second matrix, plus the second bias. -/
def encRow (x : Fin 128 → EReal) (W1 : (⟨2, ![128, 256]⟩ : Shape).Idx → EReal) (b1 : Fin 256 → EReal)
    (W2 : (⟨2, ![256, 64]⟩ : Shape).Idx → EReal) (b2 : Fin 64 → EReal) (q : Fin 64) : EReal :=
  (∑ k : Fin 256, hidden x W1 b1 k * W2 (ix2 k q)) + b2 q

/-- The encoded row depends on the row, the matrices and the biases only through their entries. -/
theorem encRow_congr {x x' : Fin 128 → EReal} {W1 W1' : (⟨2, ![128, 256]⟩ : Shape).Idx → EReal}
    {b1 b1' : Fin 256 → EReal} {W2 W2' : (⟨2, ![256, 64]⟩ : Shape).Idx → EReal} {b2 b2' : Fin 64 → EReal}
    (hx : ∀ j, x j = x' j) (h1 : ∀ i, W1 i = W1' i) (hb1 : ∀ k, b1 k = b1' k) (h2 : ∀ i, W2 i = W2' i)
    (hb2 : ∀ q, b2 q = b2' q) (q : Fin 64) : encRow x W1 b1 W2 b2 q = encRow x' W1' b1' W2' b2' q := by
  obtain rfl : x = x' := funext hx
  obtain rfl : W1 = W1' := funext h1
  obtain rfl : b1 = b1' := funext hb1
  obtain rfl : W2 = W2' := funext h2
  obtain rfl : b2 = b2' := funext hb2
  rfl

end Cert.EncRow

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«151807_j21251498181534_1_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.LibHostRead.lean ====
/-
  HOST LAYOUT OPERATIONS OF A GRAPH PROPAGATION STEP, READ AT AN ELEMENT. Generic in the sizes.

  A propagation step's host side moves per-edge and per-node vectors into the shapes its gather, scatter and
  elementwise products want:
    row r of a [2, E] index table, sliced out as [1, E] and reshaped to [E]            (rowOfPair_apply);
    a vector [E] made a column [E, 1]                                                    (col_apply);
    that column spread along a new feature axis to [E, D]                                (spread_apply, colSpread_apply);
    a scalar spread to any shape                                                         (splat_apply);
    a vector [D] made a row [1, D] by a reshape                                          (rowOfVec_apply).
  Each lemma says which element of the source the result holds at a given element; none depends on the element type.
-/
import Idealize.ShloMosaic.PureOps.Ideal
import Idealize.ShloMosaic.Lib.ValueIdx
import Idealize.ShloMosaic.Lib.Pipeline.Value

noncomputable section

namespace Cert.Lib

open Idealize.ShloMosaic Idealize.ShloMosaic.ValueIdx

variable {α : Type}

/-- A scalar spread to any shape holds the scalar everywhere. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector made a column: the column's element (e, 0) is the vector's element e. -/
theorem col_apply {E : Nat} (dims : Fin (⟨1, ![E]⟩ : Shape).rank → Fin (⟨2, ![E, 1]⟩ : Shape).rank) (hd : dims 0 = 0)
    (h : (⟨1, ![E]⟩ : Shape).BroadcastsInDim ⟨2, ![E, 1]⟩ dims) (v : (⟨1, ![E]⟩ : Shape).Idx → α) (e : Fin E) (z : Fin 1) :
    broadcastInDim ⟨2, ![E, 1]⟩ dims h v (ix2 e z) = v (ix1 e) := by
  refine broadcastInDim_apply dims h v (ix2 e z) (ix1 e) (fun a => ?_)
  match a with
  | ⟨0, _⟩ =>
    show e.val = if E = 1 then 0 else ((ix2 e z) (dims 0)).val
    rw [hd]
    split
    · rename_i h1; have := e.isLt; show e.val = 0; omega
    · rfl

/-- A column spread along a new feature axis: element (e, k) is the column's element (e, 0). -/
theorem spread_apply {E D : Nat} (dims : Fin (⟨2, ![E, 1]⟩ : Shape).rank → Fin (⟨2, ![E, D]⟩ : Shape).rank)
    (hd0 : dims 0 = 0) (hd1 : dims 1 = 1)
    (h : (⟨2, ![E, 1]⟩ : Shape).BroadcastsInDim ⟨2, ![E, D]⟩ dims) (v : (⟨2, ![E, 1]⟩ : Shape).Idx → α) (e : Fin E) (k : Fin D) :
    broadcastInDim ⟨2, ![E, D]⟩ dims h v (ix2 e k) = v (ix2 e (0 : Fin 1)) := by
  refine broadcastInDim_apply dims h v (ix2 e k) (ix2 e (0 : Fin 1)) (fun a => ?_)
  match a with
  | ⟨0, _⟩ =>
    show e.val = if E = 1 then 0 else ((ix2 e k) (dims 0)).val
    rw [hd0]
    split
    · rename_i h1; have := e.isLt; show e.val = 0; omega
    · rfl
  | ⟨1, _⟩ =>
    show (0 : Nat) = if (1 : Nat) = 1 then 0 else ((ix2 e k) (dims 1)).val
    rw [if_pos rfl]

/-- A vector made a column and spread along a feature axis: element (e, k) is the vector's element e. -/
theorem colSpread_apply {E D : Nat} (dims1 : Fin (⟨1, ![E]⟩ : Shape).rank → Fin (⟨2, ![E, 1]⟩ : Shape).rank) (hd : dims1 0 = 0)
    (h1 : (⟨1, ![E]⟩ : Shape).BroadcastsInDim ⟨2, ![E, 1]⟩ dims1)
    (dims2 : Fin (⟨2, ![E, 1]⟩ : Shape).rank → Fin (⟨2, ![E, D]⟩ : Shape).rank) (hd0 : dims2 0 = 0) (hd1 : dims2 1 = 1)
    (h2 : (⟨2, ![E, 1]⟩ : Shape).BroadcastsInDim ⟨2, ![E, D]⟩ dims2) (v : (⟨1, ![E]⟩ : Shape).Idx → α) (e : Fin E) (k : Fin D) :
    broadcastInDim ⟨2, ![E, D]⟩ dims2 h2 (broadcastInDim ⟨2, ![E, 1]⟩ dims1 h1 v) (ix2 e k) = v (ix1 e) := by
  rw [spread_apply dims2 hd0 hd1 h2, col_apply dims1 hd h1]

/-- Row r of a two-row table, sliced out and flattened: element e is the table's element (r, e). -/
theorem rowOfPair_apply {E : Nat} (r : Fin 2) (off : Fin (⟨2, ![2, E]⟩ : Shape).rank → Nat) (ho0 : off 0 = r.val) (ho1 : off 1 = 0)
    (hs : (⟨2, ![2, E]⟩ : Shape).Slices off ⟨2, ![1, E]⟩) (hc : (⟨2, ![1, E]⟩ : Shape).ShapeCasts ⟨1, ![E]⟩)
    (A : (⟨2, ![2, E]⟩ : Shape).Idx → α) (e : Fin E) :
    shapeCast ⟨1, ![E]⟩ (extractStridedSlice ⟨2, ![1, E]⟩ off A hs) hc (ix1 e) = A (ix2 r e) := by
  rw [shapeCast_apply _ hc (ix1 e) (ix2 (0 : Fin 1) e) (by
    rw [Shape.rowMajor_val_two, Shape.rowMajor_val_one]
    show 0 * E + e.val = e.val
    omega)]
  refine extractStridedSlice_apply off A hs (ix2 (0 : Fin 1) e) (ix2 r e) (fun a => ?_)
  match a with
  | ⟨0, _⟩ => show r.val = off 0 + 0; rw [ho0, Nat.add_zero]
  | ⟨1, _⟩ => show e.val = off 1 + e.val; rw [ho1]; omega

/-- A vector made a row by a reshape: the row's element (0, f) is the vector's element f. -/
theorem rowOfVec_apply {D : Nat} (hc : (⟨1, ![D]⟩ : Shape).ShapeCasts ⟨2, ![1, D]⟩) (v : (⟨1, ![D]⟩ : Shape).Idx → α)
    (z : Fin 1) (f : Fin D) : shapeCast ⟨2, ![1, D]⟩ v hc (ix2 z f) = v (ix1 f) := by
  refine shapeCast_apply v hc (ix2 z f) (ix1 f) ?_
  rw [Shape.rowMajor_val_two, Shape.rowMajor_val_one]
  show f.val = z.val * D + f.val
  have := z.isLt
  have hz : z.val = 0 := by omega
  rw [hz]; omega

end Cert.Lib

end
-- ==== Proof.EncHost.lean ====
/-
  THE HOST'S ENCODER READ AT AN ELEMENT: entry (r, q) of the encoded 200000-by-64 array is entry q of the
  encoded row r (EncRow.lean) of the feature array, with the two matrices and the two bias vectors as they are.
  Each host operation is read at an index: the row sum of squares, the square root, the maximum with the small
  constant, the quotient, the product with the first matrix, the bias, the rectifier, the product with the second
  matrix, the bias.
-/
import proofs.«151807_j21251498181534_1_alg».proof.Proof.Spec
import proofs.«151807_j21251498181534_1_alg».proof.Proof.EncRow
import proofs.«151807_j21251498181534_1_alg».proof.Proof.LibRowReads
import proofs.«151807_j21251498181534_1_alg».proof.Proof.LibHostRead
import Idealize.ShloMosaic.Lib.IdealHost

noncomputable section

open scoped BigOperators

namespace Cert.EncHost

open Idealize.ShloMosaic Idealize.ShloMosaic.ValueIdx Cert.ReferenceIdeal Cert.ReferenceIdeal.Gen Cert.EncRow

/-- The rectifier as the host writes it — a select on "h ≥ 0" between h and the small constant times h, both
    constants broadcast from scalars — at an index where h is known. -/
theorem leaky_at {s : Shape} (H : FVec Ideal s .f32) (hb : (⟨0, ![]⟩ : Shape).BroadcastsInDim s ![]) (i : s.Idx)
    (X : EReal) (hX : H i = X) :
    select (cmpf .oge H (broadcastInDim s ![] hb (constant (F := Ideal) ⟨0, ![]⟩ .f32 0x00000000#32))) H
        (mulf (broadcastInDim s ![] hb (constant (F := Ideal) ⟨0, ![]⟩ .f32 0x3C23D70A#32)) H) i = leaky X := by
  subst hX
  unfold leaky
  show Scalar.select (FloatOps.cmpf .oge (H i) (broadcastInDim s ![] hb (constant (F := Ideal) ⟨0, ![]⟩ .f32 0x00000000#32) i)) (H i)
      (broadcastInDim s ![] hb (constant (F := Ideal) ⟨0, ![]⟩ .f32 0x3C23D70A#32) i * H i) = _
  rw [Cert.Lib.bcast_const_apply, Cert.Lib.bcast_const_apply]

/-- The host's square root of an array, at an element. -/
theorem hostSqrt_apply {s : Shape} {φ : FTy} (a : FVec Ideal s φ) (i : s.Idx) : Host.sqrt a i = Ideal.sqrt (a i) := rfl

/-- The host's sum of the squares of row r. -/
theorem sumsq_at (a0 : FVec Ideal S200000x128 .f32) (r : Fin 200000) :
    Host.reduceAdd (mulf a0 a0) (constant (F := Ideal) S_ .f32 0x00000000#32) reducesTo_S200000x128_S200000_d1 h_S_ (ix1 r)
      = ∑ i : Fin 128, a0 (ix2 r i) * a0 (ix2 r i) := by
  have h : S200000x128.Reduces [1] S200000 := by decide
  refine (hostReduceAdd_apply _ _ _ _ _).trans ?_
  refine (Ideal.hostReduceAdd_single _ h _ _ _).trans ?_
  rw [constant_apply, Ideal.ofBits_zero_f32, zero_add]
  refine Finset.sum_congr rfl fun k _ => ?_
  have e : h.lift (ix1 r) k = ix2 r k := funext fun a => Fin.ext (by
    match a with
    | ⟨0, _⟩ => rfl
    | ⟨1, _⟩ => rfl)
  rw [e]
  rfl

/-- THE ENCODER AT (r, q): entry q of the encoded row r. -/
theorem enc_apply (a0 : (⟨S200000x128, .f32⟩ : BufTy).Contents (Elt Ideal)) (a2 : (⟨S128x256, .f32⟩ : BufTy).Contents (Elt Ideal))
    (a3 : (⟨S256, .f32⟩ : BufTy).Contents (Elt Ideal)) (a4 : (⟨S256x64, .f32⟩ : BufTy).Contents (Elt Ideal))
    (a5 : (⟨S64, .f32⟩ : BufTy).Contents (Elt Ideal)) (r : Fin 200000) (q : Fin 64) :
    Cert.Spec.enc (F := Ideal) a0 a2 a3 a4 a5 (ix2 r q)
      = encRow (fun j => a0 (ix2 r j)) a2 (fun k => a3 (ix1 k)) a4 (fun c => a5 (ix1 c)) q := by
  unfold Cert.Spec.enc encRow
  dsimp only
  refine (addf_apply _ _ _).trans (congrArg₂ (· + ·) ?_ ?_)
  swap
  · exact Cert.Lib.bcastInDim_vecRows_apply _ _ a5 r q
  refine (Cert.Lib.dotGeneral_at _ rfl rfl rfl rfl rfl rfl none _ a4 r q).trans ?_
  refine Finset.sum_congr rfl fun k _ => congrArg (· * a4 (ix2 k q)) ?_
  unfold Cert.EncRow.hidden
  refine leaky_at _ _ _ _ ?_
  refine (addf_apply _ _ _).trans (congrArg₂ (· + ·) ?_ ?_)
  swap
  · exact Cert.Lib.bcastInDim_vecRows_apply _ _ a3 r k
  refine (Cert.Lib.dotGeneral_at _ rfl rfl rfl rfl rfl rfl none _ a2 r k).trans ?_
  refine Finset.sum_congr rfl fun j _ => congrArg (· * a2 (ix2 j k)) ?_
  unfold unitRow
  refine (hostDivf_apply _ _ _).trans (congrArg (Ideal.div (a0 (ix2 r j))) ?_)
  refine (Cert.Lib.spread_apply _ rfl rfl _ _ r j).trans ?_
  refine (maximumf_apply _ _ _).trans (congrArg₂ max ?_ ?_)
  swap
  · exact Cert.Lib.bcast_const_apply _ _ _
  refine (hostSqrt_apply _ _).trans (congrArg Ideal.sqrt ?_)
  refine (Cert.Lib.col_apply _ rfl _ _ r 0).trans ?_
  exact sumsq_at a0 r

end Cert.EncHost

end
-- ==== Proof.LibColBroadcast.lean ====
/-
  A COLUMN BROADCAST ACROSS COLUMNS, READ AT AN ELEMENT.

  An array of shape [a, 1] — one number per row — broadcast to shape [a, b] holds, at (p, c), the number of row p,
  whatever the column c.
-/
import Idealize.ShloMosaic.Lib.Pipeline.Value
import Idealize.ShloMosaic.Lib.ValueIdx

noncomputable section

namespace Cert.Lib

open Idealize.ShloMosaic Idealize.ShloMosaic.ValueIdx

/-- A column of a numbers broadcast to an a-by-b array reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.EncKernel.lean ====
/-
  THE KERNEL BODY'S RESULT READ AT AN ELEMENT: entry (p, q) of the 5000-by-64 block the body stores is entry q
  of the encoded row p (EncRow.lean) of the body's 5000-by-128 block, with the two matrices as loaded and the two
  bias rows read along their one row. Each operation of the body is read at an index: the lane sum of squares,
  the square root, the maximum with the small constant, the quotient, the matrix product into zero, the bias row
  repeated down the rows, the rectifier, the second product, the second bias. The narrowing of the products'
  operands is the identity on extended reals.
-/
import proofs.«151807_j21251498181534_1_alg».proof.Proof.Gen.KernelIdeal.Skeleton
import proofs.«151807_j21251498181534_1_alg».proof.Proof.EncRow
import proofs.«151807_j21251498181534_1_alg».proof.Proof.LibRowReads
import proofs.«151807_j21251498181534_1_alg».proof.Proof.LibLaneSums
import proofs.«151807_j21251498181534_1_alg».proof.Proof.LibColBroadcast
import proofs.«151807_j21251498181534_1_alg».proof.Proof.LibColCast
import Idealize.ShloMosaic.Lib.ValueLayout
import Idealize.ShloMosaic.Lib.Pipeline.Value

noncomputable section

open scoped BigOperators

namespace Cert.EncKernel

open Idealize.ShloMosaic Idealize.ShloMosaic.ValueIdx Cert.KernelIdeal Cert.KernelIdeal.Gen Cert.EncRow

/-- The rectifier as the body writes it — a select on "h ≥ 0" between h and the small constant times h, both
    constants splat — at an index where h is known. -/
theorem leaky_at {s : Shape} (H : FVec Ideal s .f32) (i : s.Idx) (X : EReal) (hX : H i = X) :
    select (cmpf .oge H (broadcast s (Scalar.ofBits (F := Ideal) .f32 0x00000000#32))) H
        (mulf (broadcast s (Scalar.ofBits (F := Ideal) .f32 0x3C23D70A#32)) H) i = leaky X := by
  subst hX
  rfl

/-- A one-row array, re-laid at its own shape and repeated down the rows, at (p, c): the row's entry c. -/
theorem bias_at {a b : Nat} (v : (⟨2, ![1, b]⟩ : Shape).Idx → EReal) (h1 : (⟨2, ![1, b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix2 (0 : Fin 1) c) := by
  rw [shapeCast_self]
  exact broadcastTo_1b_ab_apply v h2 p c

/-- THE BODY'S RESULT AT (p, q): entry q of the encoded row p of the block. -/
theorem pay_apply (x0 : Vec Ideal S5000x128 .f32) (x1 : Vec Ideal S128x256 .f32) (x2 : Vec Ideal S1x256 .f32)
    (x3 : Vec Ideal S256x64 .f32) (x4 : Vec Ideal S1x64 .f32) (p : Fin 5000) (q : Fin 64) :
    k0_pay1 (F := Ideal) x0 x1 x2 x3 x4 (ix2 p q)
      = encRow (fun j => x0 (ix2 p j)) x1 (fun k => x2 (ix2 (0 : Fin 1) k)) x3 (fun c => x4 (ix2 (0 : Fin 1) c)) q := by
  unfold k0_pay1 encRow
  dsimp only
  refine (addf_apply _ _ _).trans (congrArg₂ (· + ·) ?_ ?_)
  swap
  · exact bias_at x4 _ _ p q
  refine (Cert.Lib.matmul_zero_at _ rfl rfl rfl rfl rfl rfl none _ _ p q).trans ?_
  refine Finset.sum_congr rfl fun k _ => congrArg₂ (· * ·) ?_ rfl
  refine (truncf_apply (ψ := .bf16) (φ := .f32) _ bitsLt_bf16_f32 _).trans ?_
  unfold Cert.EncRow.hidden
  refine leaky_at _ _ _ ?_
  refine (addf_apply _ _ _).trans (congrArg₂ (· + ·) ?_ ?_)
  swap
  · exact bias_at x2 _ _ p k
  refine (Cert.Lib.matmul_zero_at _ rfl rfl rfl rfl rfl rfl none _ _ p k).trans ?_
  refine Finset.sum_congr rfl fun j _ => congrArg₂ (· * ·) ?_ rfl
  refine (truncf_apply (ψ := .bf16) (φ := .f32) _ bitsLt_bf16_f32 _).trans ?_
  unfold unitRow
  refine (divf_apply _ _ _).trans (congrArg (Ideal.div (x0 (ix2 p j))) ?_)
  refine (Cert.Lib.broadcastTo_a1_ab_apply _ _ p j).trans ?_
  refine (maximumf_apply _ _ _).trans (congrArg₂ max ?_ rfl)
  refine (Cert.Lib.sqrt_apply _ _).trans (congrArg Ideal.sqrt ?_)
  refine (Cert.Lib.shapeCast_a_a1_apply _ _ p 0).trans ?_
  exact Cert.Lib.rowSum_apply _ _ _ _ _ p

/-- The same at any index y of the block: entry (y 1) of the encoded row (y 0). -/
theorem out_apply (x0 : Vec Ideal S5000x128 .f32) (x1 : Vec Ideal S128x256 .f32) (x2 : Vec Ideal S1x256 .f32)
    (x3 : Vec Ideal S256x64 .f32) (x4 : Vec Ideal S1x64 .f32) (y : S5000x64.Idx) :
    k0_pay1 (F := Ideal) x0 x1 x2 x3 x4 y
      = encRow (fun j => x0 (ix2 (y 0 : Fin 5000) j)) x1 (fun k => x2 (ix2 (0 : Fin 1) k)) x3
          (fun c => x4 (ix2 (0 : Fin 1) c)) (y 1 : Fin 64) := by
  obtain ⟨p, q, rfl⟩ : ∃ (p : Fin 5000) (q : Fin 64), y = ix2 p q := ⟨y 0, y 1, eq_ix2 y⟩
  exact pay_apply x0 x1 x2 x3 x4 p q

end Cert.EncKernel

end
-- ==== Proof.EncValue.lean ====
/-
  THE ENCODER REGION'S RESULT AS ONE ARRAY. The first region of the kernel program runs its body at 40 points;
  point t reads rows 5000 t … 5000 t + 4999 of the feature array, the two matrices and the two bias rows whole,
  and writes rows 5000 t … 5000 t + 4999 of the result. Entry (p, q) of what the body stores is entry q of the
  encoded row p of its block (EncKernel.lean); entry (r, q) of the host's encoder is entry q of the encoded row r of
  the feature array (EncHost.lean); row p of the block at point t is row 5000 t + p of the array. So each point
  writes its block of the host's encoder, the blocks cover the 200000 rows, and the result array is the host's
  encoder of the arrays the region finds.
-/
import proofs.«151807_j21251498181534_1_alg».proof.Proof.Gen.KernelIdeal.Frame
import proofs.«151807_j21251498181534_1_alg».proof.Proof.Spec
import proofs.«151807_j21251498181534_1_alg».proof.Proof.EncRow
import proofs.«151807_j21251498181534_1_alg».proof.Proof.EncHost
import proofs.«151807_j21251498181534_1_alg».proof.Proof.EncKernel
import Idealize.ShloMosaic.Lib.Pipeline.Value
import Idealize.ShloMosaic.Lib.ValueLayout
import Idealize.ShloMosaic.Lib.Tactic

noncomputable section

open scoped BigOperators

namespace Cert.KernelIdeal.EncValue

open Idealize.ShloMosaic Idealize.ShloMosaic.TcCoe Idealize.ShloMosaic.ValueIdx
open Idealize.ShloMosaic.Pipeline (Dat)
open Cert.KernelIdeal Cert.KernelIdeal.Gen Cert.EncRow

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the feature block and the result block move with the point along the rows; the
    matrices and the bias rows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row (x 0) of the feature block at point t is row 5000 t + (x 0) of the feature array. -/
theorem blk0_apply (c : Dev nD) (t : Fin cfg0.N) (x : S5000x128.Idx) (k : S200000x128.Idx)
    (hk0 : (k 0).val = t.val * 5000 + (x 0).val) (hk1 : (k 1).val = (x 1).val) :
    (iblk0 V c 0 t : Vec Ideal S5000x128 .f32) x = (V c main_arg0 : S200000x128.Idx → EReal) k := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- The first matrix's block at any point is the matrix. -/
theorem blk1_apply (c : Dev nD) (t : Fin cfg0.N) (x : S128x256.Idx) :
    (iblk0 V c 1 t : Vec Ideal S128x256 .f32) x = (V c main_arg2 : S128x256.Idx → EReal) x := by
  obtain ⟨-, -, e0, e1, -⟩ := idx_facts t
  unfold iblk0
  rw [View.read_apply]
  show V c main_arg2 _ = V c main_arg2 _
  refine congrArg (V c main_arg2) (funext fun a => Fin.ext ?_)
  match a with
  | ⟨0, _⟩ => show win0_1.index t (0 : Fin 2) * 128 + 1 * (x 0).val = (x 0).val; rw [e0]; omega
  | ⟨1, _⟩ => show win0_1.index t (1 : Fin 2) * 256 + 1 * (x 1).val = (x 1).val; rw [e1]; omega

/-- The first bias row's block at any point is the row. -/
theorem blk2_apply (c : Dev nD) (t : Fin cfg0.N) (x : S1x256.Idx) :
    (iblk0 V c 2 t : Vec Ideal S1x256 .f32) x = (V c main_v0 : S1x256.Idx → EReal) x := by
  obtain ⟨-, -, -, -, e0, e1, -⟩ := idx_facts t
  unfold iblk0
  rw [View.read_apply]
  show V c main_v0 _ = V c main_v0 _
  refine congrArg (V c main_v0) (funext fun a => Fin.ext ?_)
  match a with
  | ⟨0, _⟩ => show win0_2.index t (0 : Fin 2) * 1 + 1 * (x 0).val = (x 0).val; rw [e0]; omega
  | ⟨1, _⟩ => show win0_2.index t (1 : Fin 2) * 256 + 1 * (x 1).val = (x 1).val; rw [e1]; omega

/-- The second matrix's block at any point is the matrix. -/
theorem blk3_apply (c : Dev nD) (t : Fin cfg0.N) (x : S256x64.Idx) :
    (iblk0 V c 3 t : Vec Ideal S256x64 .f32) x = (V c main_arg4 : S256x64.Idx → EReal) x := by
  obtain ⟨-, -, -, -, -, -, e0, e1, -⟩ := idx_facts t
  unfold iblk0
  rw [View.read_apply]
  show V c main_arg4 _ = V c main_arg4 _
  refine congrArg (V c main_arg4) (funext fun a => Fin.ext ?_)
  match a with
  | ⟨0, _⟩ => show win0_3.index t (0 : Fin 2) * 256 + 1 * (x 0).val = (x 0).val; rw [e0]; omega
  | ⟨1, _⟩ => show win0_3.index t (1 : Fin 2) * 64 + 1 * (x 1).val = (x 1).val; rw [e1]; omega

/-- The second bias row's block at any point is the row. -/
theorem blk4_apply (c : Dev nD) (t : Fin cfg0.N) (x : S1x64.Idx) :
    (iblk0 V c 4 t : Vec Ideal S1x64 .f32) x = (V c main_v1 : S1x64.Idx → EReal) x := by
  obtain ⟨-, -, -, -, -, -, -, -, e0, e1, -⟩ := idx_facts t
  unfold iblk0
  rw [View.read_apply]
  show V c main_v1 _ = V c main_v1 _
  refine congrArg (V c main_v1) (funext fun a => Fin.ext ?_)
  match a with
  | ⟨0, _⟩ => show win0_4.index t (0 : Fin 2) * 1 + 1 * (x 0).val = (x 0).val; rw [e0]; omega
  | ⟨1, _⟩ => show win0_4.index t (1 : Fin 2) * 64 + 1 * (x 1).val = (x 1).val; rw [e1]; omega

/-- WHAT POINT t WRITES BACK is block t of the host's encoder of the arrays the region finds. -/
theorem flushed_eq (c : Dev nD)
    (a3 : (⟨S256, .f32⟩ : BufTy).Contents (Elt Ideal)) (a5 : (⟨S64, .f32⟩ : BufTy).Contents (Elt Ideal))
    (h3 : V c main_v0 = shapeCast S1x256 a3 shapeCasts_S256_S1x256)
    (h5 : V c main_v1 = shapeCast S1x64 a5 shapeCasts_S64_S1x64) (t : Fin cfg0.N) :
    (dat0 (F := Ideal) V c).flushed 5 t
      = ((cfg0.win 5).blk t).view.read (Elt Ideal)
          (Cert.Spec.enc (F := Ideal) (V c main_arg0) (V c main_arg2) a3 (V c main_arg4) a5) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x256) hz,
    View.ld_unit_zero (S := S1x256) hz, View.ld_unit_zero (S := S256x64) hz, View.ld_unit_zero (S := S1x64) hz]
  obtain ⟨-, -, -, -, -, -, -, -, -, -, e50, e51⟩ := idx_facts t
  have ht : t.val < 40 := lt_of_lt_of_eq t.isLt N_0
  funext y
  have hy0 : (y 0).val < 5000 := (y 0).isLt
  have hy1 : (y 1).val < 64 := (y 1).isLt
  have hR : ((cfg0.win 5).blk t).view.read (Elt Ideal)
        (Cert.Spec.enc (F := Ideal) (V c main_arg0) (V c main_arg2) a3 (V c main_arg4) a5) y
      = Cert.Spec.enc (F := Ideal) (V c main_arg0) (V c main_arg2) a3 (V c main_arg4) a5
          (ix2 (⟨t.val * 5000 + (y 0).val, by omega⟩ : Fin 200000) (⟨(y 1).val, hy1⟩ : Fin 64)) := by
    rw [View.read_apply]
    refine congrArg (Cert.Spec.enc (F := Ideal) (V c main_arg0) (V c main_arg2) a3 (V c main_arg4) a5)
      (funext fun a => Fin.ext ?_)
    match a with
    | ⟨0, _⟩ => show win0_5.index t (0 : Fin 2) * 5000 + 1 * (y 0).val = t.val * 5000 + (y 0).val; rw [e50]; omega
    | ⟨1, _⟩ => show win0_5.index t (1 : Fin 2) * 64 + 1 * (y 1).val = (y 1).val; rw [e51]; omega
  refine (Cert.EncKernel.out_apply _ _ _ _ _ _).trans ?_
  refine Eq.trans ?_ hR.symm
  refine Eq.trans ?_ (Cert.EncHost.enc_apply _ _ _ _ _ _ _).symm
  refine encRow_congr (fun j => ?_) (fun i => ?_) (fun k => ?_) (fun i => ?_) (fun q => ?_) _
  · exact blk0_apply V c t _ _ rfl rfl
  · exact blk1_apply V c t i
  · exact (blk2_apply V c t _).trans ((congrFun h3 _).trans (shapeCast_a_1a_apply a3 _ 0 k))
  · exact blk3_apply V c t i
  · exact (blk4_apply V c t _).trans ((congrFun h5 _).trans (shapeCast_a_1a_apply a5 _ 0 q))

/-- Every row of the result lies in the block of the point its number divided by 5000 names. -/
theorem cover (i : S200000x64.Idx) :
    ∃ t : Fin cfg0.N, (cfg0.win 5).flush t = true ∧ i ∈ ((cfg0.win 5).blk t).view.set := by
  have h0 : (i 0).val < 200000 := (i 0).isLt
  have h1 : (i 1).val < 64 := (i 1).isLt
  have hN : cfg0.N = 40 := N_0
  obtain ⟨t, ht⟩ : ∃ t : Fin cfg0.N, t.val = (i 0).val / 5000 := ⟨⟨(i 0).val / 5000, by rw [hN]; omega⟩, rfl⟩
  obtain ⟨-, -, -, -, -, -, -, -, -, -, e50, e51⟩ := idx_facts t
  refine ⟨t, flush0_5 t, ?_⟩
  show i ∈ ((View.whole main_v2).slice (win0_5.rect t)).set
  rw [View.set_slice_whole, Rect.mem_set_unit]
  intro a
  match a with
  | ⟨0, _⟩ =>
    show win0_5.index t (0 : Fin 2) * 5000 ≤ (i 0).val ∧ (i 0).val < win0_5.index t (0 : Fin 2) * 5000 + 5000
    rw [e50, ht]; omega
  | ⟨1, _⟩ =>
    show win0_5.index t (1 : Fin 2) * 64 ≤ (i 1).val ∧ (i 1).val < win0_5.index t (1 : Fin 2) * 64 + 64
    rw [e51]; omega

/-- THE RESULT ARRAY after the region is the host's encoder of the arrays the region finds, the bias rows read as
    the vectors they were re-laid from. -/
theorem enc_value (V : (c : Dev nD) → (b : Ref sig .tc) → Buf (Elt Ideal) ((c : Thread nD τ).loc b)) (c : Dev nD)
    (a3 : (⟨S256, .f32⟩ : BufTy).Contents (Elt Ideal)) (a5 : (⟨S64, .f32⟩ : BufTy).Contents (Elt Ideal))
    (h3 : V c main_v0 = shapeCast S1x256 a3 shapeCasts_S256_S1x256)
    (h5 : V c main_v1 = shapeCast S1x64 a5 shapeCasts_S64_S1x64) :
    (dat0 (F := Ideal) V c).arrAt 5 cfg0.N
      = Cert.Spec.enc (F := Ideal) (V c main_arg0) (V c main_arg2) a3 (V c main_arg4) a5 :=
  (dat0 (F := Ideal) V c).arrAt_eq_of_cover 5 _ (fun t _ => flushed_eq V c a3 a5 h3 h5 t) cover

end Cert.KernelIdeal.EncValue

end
-- ==== Proof.RefLossA.lean ====
/-
  Host operations that are not pointwise, read at an index on the extended reals: a sum over the
  second axis of a matrix, a sum over the only axis of a vector, a column made of a vector, a column
  copied along the rows, a vector read as a matrix of rows of 17, the first column of such a matrix.
  With them the row normalisation of a 278528-by-64 matrix is read in closed form.
-/
import proofs.«151807_j21251498181534_1_alg».proof.Proof.Spec
import proofs.«151807_j21251498181534_1_alg».proof.Proof.LossForm
import Idealize.ShloMosaic.Lib.IdealHost
import Idealize.ShloMosaic.Lib.Pipeline.Value

noncomputable section

open scoped BigOperators

namespace Cert.RefLoss

open Idealize.ShloMosaic Idealize.ShloMosaic.ValueIdx

/-- The index over a row index with a column inserted is the pair (row, column). -/
theorem lift_row {m n : Nat} (h : (⟨2, ![m, n]⟩ : Shape).Reduces [1] ⟨1, ![m]⟩) (i : Fin m) (k : Fin n) :
    h.lift (ix1 i) k = ix2 i k := by
  funext c
  match c with
  | ⟨0, _⟩ => rfl
  | ⟨1, _⟩ => rfl

/-- The host's sum over the second axis of an m-by-n matrix at row i: the initial value plus the sum of the row. -/
theorem rowSum_apply {m n : Nat} (h' : (⟨2, ![m, n]⟩ : Shape).ReducesTo [1] ⟨1, ![m]⟩)
    (hu : 0 < (⟨0, ![]⟩ : Shape).numel) (X : FVec Ideal ⟨2, ![m, n]⟩ .f32) (c : FVec Ideal ⟨0, ![]⟩ .f32) (i : Fin m) :
    Host.reduceAdd X c h' hu (ix1 i) = c ix0 + ∑ k : Fin n, X (ix2 i k) := by
  have h : (⟨2, ![m, n]⟩ : Shape).Reduces [1] ⟨1, ![m]⟩ := ⟨h'.1, Nat.one_pos, h'.2⟩
  refine (hostReduceAdd_apply X c h' hu (ix1 i)).trans ?_
  refine (Ideal.hostReduceAdd_single h' h X _ (ix1 i)).trans ?_
  refine congrArg₂ (· + ·) (congrArg c (eq_ix0 _)) ?_
  exact Finset.sum_congr rfl fun k _ => congrArg X (lift_row h i k)

/-- The sum over every index of a vector is the sum over its entries. -/
theorem sum_idx1 {n : Nat} (f : (⟨1, ![n]⟩ : Shape).Idx → EReal) : ∑ j : (⟨1, ![n]⟩ : Shape).Idx, f j = ∑ b : Fin n, f (ix1 b) := by
  refine (Fintype.sum_equiv (⟨fun j => j 0, ix1, fun j => (eq_ix1 j).symm, fun _ => rfl⟩ : (⟨1, ![n]⟩ : Shape).Idx ≃ Fin n)
    f (fun b => f (ix1 b)) fun j => ?_)
  exact congrArg f (eq_ix1 j)

/-- The host's sum over the only axis of a vector: the initial value plus the sum of the entries. -/
theorem vecSum_apply {n : Nat} (h' : (⟨1, ![n]⟩ : Shape).ReducesTo [0] ⟨0, ![]⟩)
    (hu : 0 < (⟨0, ![]⟩ : Shape).numel) (X : FVec Ideal ⟨1, ![n]⟩ .f32) (c : FVec Ideal ⟨0, ![]⟩ .f32)
    (j : (⟨0, ![]⟩ : Shape).Idx) :
    Host.reduceAdd X c h' hu j = c ix0 + ∑ b : Fin n, X (ix1 b) := by
  refine (hostReduceAdd_apply X c h' hu j).trans ?_
  refine (Ideal.hostReduceAdd_total h' (fun b => b.elim0) X _ j).trans ?_
  exact congrArg₂ (· + ·) (congrArg c (eq_ix0 _)) (sum_idx1 X)

/-- A vector made into a column reads the vector's entry. -/
theorem col_apply {α : Type} {m : Nat} (h : (⟨1, ![m]⟩ : Shape).BroadcastsInDim ⟨2, ![m, 1]⟩ ![0])
    (x : (⟨1, ![m]⟩ : Shape).Idx → α) (i : Fin m) (u : Fin 1) :
    broadcastInDim ⟨2, ![m, 1]⟩ ![0] h x (ix2 i u) = x (ix1 i) := by
  refine broadcastInDim_apply _ h x (ix2 i u) (ix1 i) fun a => ?_
  match a with
  | ⟨0, _⟩ =>
    show i.val = if m = 1 then 0 else i.val
    split
    · have := i.isLt; omega
    · rfl

/-- A column copied along the rows reads the column's entry. -/
theorem colBcast_apply {α : Type} {m n : Nat} (h : (⟨2, ![m, 1]⟩ : Shape).BroadcastsInDim ⟨2, ![m, n]⟩ ![0, 1])
    (x : (⟨2, ![m, 1]⟩ : Shape).Idx → α) (i : Fin m) (e : Fin n) :
    broadcastInDim ⟨2, ![m, n]⟩ ![0, 1] h x (ix2 i e) = x (ix2 i (0 : Fin 1)) := by
  refine broadcastInDim_apply _ h x (ix2 i e) (ix2 i (0 : Fin 1)) fun a => ?_
  match a with
  | ⟨0, _⟩ =>
    show i.val = if m = 1 then 0 else i.val
    split
    · have := i.isLt; omega
    · rfl
  | ⟨1, _⟩ => rfl

/-- A vector of 278528 entries read as 16384 rows of 17: entry (b, g) is entry 17 b + g. -/
theorem rows17_apply {α : Type} (h : (⟨1, ![278528]⟩ : Shape).ShapeCasts ⟨2, ![16384, 17]⟩)
    (x : (⟨1, ![278528]⟩ : Shape).Idx → α) (b : Fin 16384) (g : Fin 17) :
    shapeCast ⟨2, ![16384, 17]⟩ x h (ix2 b g) = x (ix1 (⟨17 * b.val + g.val, by omega⟩ : Fin 278528)) := by
  refine shapeCast_apply x h (ix2 b g) _ ?_
  rw [Shape.rowMajor_val_one, Shape.rowMajor_val_two]
  show 17 * b.val + g.val = b.val * 17 + g.val
  omega

/-- The first column of a 16384-by-17 matrix, as a vector. -/
theorem firstCol_apply {α : Type} (hs : (⟨2, ![16384, 17]⟩ : Shape).Slices ![0, 0] ⟨2, ![16384, 1]⟩)
    (hc : (⟨2, ![16384, 1]⟩ : Shape).ShapeCasts ⟨1, ![16384]⟩)
    (x : (⟨2, ![16384, 17]⟩ : Shape).Idx → α) (b : Fin 16384) :
    shapeCast ⟨1, ![16384]⟩ (extractStridedSlice ⟨2, ![16384, 1]⟩ ![0, 0] x hs) hc (ix1 b) = x (ix2 b (0 : Fin 17)) := by
  refine (shapeCast_apply _ hc (ix1 b) (ix2 b (0 : Fin 1)) ?_).trans ?_
  · rw [Shape.rowMajor_val_one, Shape.rowMajor_val_two]
    show b.val * 1 + 0 = b.val
    omega
  · refine extractStridedSlice_apply _ x hs (ix2 b (0 : Fin 1)) (ix2 b (0 : Fin 17)) fun a => ?_
    match a with
    | ⟨0, _⟩ => show b.val = 0 + b.val; omega
    | ⟨1, _⟩ => rfl

/-- The host's square root, exponential, logarithm and negation at an index. -/
theorem hostSqrt_apply {s : Shape} {φ : FTy} (a : FVec Ideal s φ) (i : s.Idx) : Host.sqrt a i = Ideal.sqrt (a i) := rfl
theorem hostExp_apply {s : Shape} {φ : FTy} (a : FVec Ideal s φ) (i : s.Idx) : Host.exp a i = Ideal.exp (a i) := rfl
theorem hostLog_apply {s : Shape} {φ : FTy} (a : FVec Ideal s φ) (i : s.Idx) : Host.log a i = Ideal.log (a i) := rfl
theorem hostNegf_apply {s : Shape} {φ : FTy} (a : FVec Ideal s φ) (i : s.Idx) : Host.negf a i = -(a i) := rfl

/-- The zero word as a scalar array reads zero. -/
theorem zeroConst_apply (i : (⟨0, ![]⟩ : Shape).Idx) : constant (F := Ideal) ⟨0, ![]⟩ .f32 0x00000000#32 i = 0 :=
  (constant_apply _ _).trans Ideal.ofBits_zero_f32

/-- A scalar constant copied to any shape reads the constant's value. -/
theorem constBcast_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w :=
  (broadcastInDim_scalar_apply h _ j).trans (constant_apply _ _)

/-- The row normalisation at (n, e): the entry over the larger of the row's Euclidean norm and the small constant. -/
theorem l2n_apply (A : (⟨Cert.ReferenceIdeal.S278528x64, .f32⟩ : BufTy).Contents (Elt Ideal)) (n : Fin 278528) (e : Fin 64) :
    Cert.Spec.l2n (F := Ideal) A (ix2 n e) = Cert.LossForm.nrm (fun k => A (ix2 n k)) e := by
  unfold Cert.Spec.l2n Cert.LossForm.nrm
  dsimp only
  refine (hostDivf_apply _ _ _).trans ?_
  refine congrArg (Ideal.div (A (ix2 n e))) ?_
  refine (colBcast_apply _ _ n e).trans ?_
  refine (maximumf_apply _ _ _).trans ?_
  refine congrArg₂ max ?_ ?_
  · refine (hostSqrt_apply _ _).trans ?_
    refine congrArg Ideal.sqrt ?_
    refine (col_apply _ _ n 0).trans ?_
    refine (rowSum_apply _ _ _ _ n).trans ?_
    refine congrArg₂ (· + ·) (zeroConst_apply _) ?_
    exact Finset.sum_congr rfl fun k _ => mulf_apply _ _ _
  · exact constBcast_apply _ _ _

end Cert.RefLoss

end
-- ==== Proof.RefLossB.lean ====
/-
  The contrastive loss of two 278528-by-64 matrices read in closed form on the extended reals:
  first the 16384-by-17 matrix of the values s = exp(row dot product / 0.2), entry (b, g) from
  row 17 b + g of the two matrices; then each group's value; then the mean.
-/
import proofs.«151807_j21251498181534_1_alg».proof.Proof.RefLossA

noncomputable section

open scoped BigOperators

namespace Cert.RefLoss

open Idealize.ShloMosaic Idealize.ShloMosaic.ValueIdx

/-- Entry (b, g) of the matrix of s values is s of row 17 b + g of the two matrices. -/
theorem smat_apply (h' : (⟨2, ![278528, 64]⟩ : Shape).ReducesTo [1] ⟨1, ![278528]⟩) (hu : 0 < (⟨0, ![]⟩ : Shape).numel)
    (hb : (⟨0, ![]⟩ : Shape).BroadcastsInDim ⟨1, ![278528]⟩ ![])
    (hc : (⟨1, ![278528]⟩ : Shape).ShapeCasts ⟨2, ![16384, 17]⟩)
    (A B : FVec Ideal ⟨2, ![278528, 64]⟩ .f32) (b : Fin 16384) (g : Fin 17) :
    shapeCast ⟨2, ![16384, 17]⟩
        (Host.exp (Host.divf (Host.reduceAdd (mulf A B) (constant (F := Ideal) ⟨0, ![]⟩ .f32 0x00000000#32) h' hu)
          (broadcastInDim ⟨1, ![278528]⟩ ![] hb (constant (F := Ideal) ⟨0, ![]⟩ .f32 0x3E4CCCCD#32)))) hc (ix2 b g)
      = Cert.LossForm.sdot (Cert.LossForm.rows3 A b g) (Cert.LossForm.rows3 B b g) := by
  unfold Cert.LossForm.sdot Cert.LossForm.rows3
  refine (rows17_apply hc _ b g).trans ?_
  refine (hostExp_apply _ _).trans ?_
  refine congrArg Ideal.exp ?_
  refine (hostDivf_apply _ _ _).trans ?_
  refine congrArg₂ Ideal.div ?_ (constBcast_apply hb _ _)
  refine (rowSum_apply h' hu _ _ _).trans ?_
  refine congrArg₂ (· + ·) (zeroConst_apply _) ?_
  exact Finset.sum_congr rfl fun k _ => mulf_apply _ _ _

/-- The loss of two matrices: the mean over the 16384 groups of the groups' values. -/
theorem loss_eq (A B : (⟨Cert.ReferenceIdeal.S278528x64, .f32⟩ : BufTy).Contents (Elt Ideal)) :
    Cert.Spec.loss (F := Ideal) A B = fun _ => Cert.LossForm.lossForm (Cert.LossForm.rows3 A) (Cert.LossForm.rows3 B) := by
  funext j
  unfold Cert.Spec.loss Cert.LossForm.lossForm
  dsimp only
  refine (hostDivf_apply _ _ _).trans ?_
  refine congrArg₂ Ideal.div ?_ (constant_apply _ _)
  refine (vecSum_apply _ _ _ _ j).trans ?_
  refine congrArg₂ (· + ·) (zeroConst_apply _) ?_
  refine Finset.sum_congr rfl fun b _ => ?_
  unfold Cert.LossForm.rowVal Cert.LossForm.gval
  refine (hostNegf_apply _ _).trans ?_
  refine congrArg Neg.neg ?_
  refine (hostLog_apply _ _).trans ?_
  refine congrArg Ideal.log ?_
  refine (addf_apply _ _ _).trans ?_
  refine congrArg₂ (· + ·) ?_ (constBcast_apply _ _ _)
  refine (hostDivf_apply _ _ _).trans ?_
  refine congrArg₂ Ideal.div ?_ ?_
  · refine (firstCol_apply _ _ _ b).trans ?_
    exact smat_apply _ _ _ _ A B b 0
  · refine (addf_apply _ _ _).trans ?_
    refine congrArg₂ (· + ·) ?_ (constBcast_apply _ _ _)
    refine (rowSum_apply _ _ _ _ b).trans ?_
    refine congrArg₂ (· + ·) (zeroConst_apply _) ?_
    exact Finset.sum_congr rfl fun g _ => smat_apply _ _ _ _ A B b g

end Cert.RefLoss

end
-- ==== Proof.RefLoss.lean ====
/-
  The reference's loss in closed form: the row normalisation read at an index, the loss of two
  matrices as the mean of the groups' values, and the loss of two normalised matrices.
-/
import proofs.«151807_j21251498181534_1_alg».proof.Proof.RefLossA
import proofs.«151807_j21251498181534_1_alg».proof.Proof.RefLossB

noncomputable section

namespace Cert.RefLoss

open Idealize.ShloMosaic Idealize.ShloMosaic.ValueIdx

/-- The rows of a normalised matrix are the normalised rows of the matrix. -/
theorem rows3_l2n (A : (⟨Cert.ReferenceIdeal.S278528x64, .f32⟩ : BufTy).Contents (Elt Ideal)) :
    Cert.LossForm.rows3 (Cert.Spec.l2n (F := Ideal) A) = Cert.LossForm.rows3n A := by
  funext b g e
  unfold Cert.LossForm.rows3n Cert.LossForm.rows3
  exact l2n_apply A _ e

/-- The loss of two normalised matrices is the closed form over the normalised rows. -/
theorem loss_l2n_eq (A B : (⟨Cert.ReferenceIdeal.S278528x64, .f32⟩ : BufTy).Contents (Elt Ideal)) :
    Cert.Spec.loss (F := Ideal) (Cert.Spec.l2n A) (Cert.Spec.l2n B)
      = fun _ => Cert.LossForm.lossForm (Cert.LossForm.rows3n A) (Cert.LossForm.rows3n B) := by
  refine (loss_eq _ _).trans ?_
  funext _
  exact congrArg₂ Cert.LossForm.lossForm (rows3_l2n A) (rows3_l2n B)

end Cert.RefLoss

end
-- ==== Proof.Bridge.lean ====
/-
  The idealized kernel program's result IS the reference's function of the arguments.  The kernel side ends at
  the average of two sums of group values over all 16384 groups, each over 16384; the reference's two losses are,
  read index by index, the same sums written as the host writes them, zero plus the sum.  On the extended reals
  zero plus x is x, and nothing else is needed: both programs apply the same exact operations to the same rows.
-/
import proofs.«151807_j21251498181534_1_alg».proof.Proof.KRun
import proofs.«151807_j21251498181534_1_alg».proof.Proof.KValue
import proofs.«151807_j21251498181534_1_alg».proof.Proof.LossPay
import proofs.«151807_j21251498181534_1_alg».proof.Proof.EncValue
import proofs.«151807_j21251498181534_1_alg».proof.Proof.RefLoss

noncomputable section

open scoped BigOperators
open Idealize.ShloMosaic Idealize.ShloMosaic.TcCoe Idealize.SL.Sem

namespace Cert.Bridge

open Cert.KernelIdeal Cert.KernelIdeal.Gen

/-- The loss kernel's payloads in closed form. -/
theorem payForms : Cert.KernelIdeal.LossSum.PayForms :=
  ⟨Cert.KernelIdeal.LossPay.pay1_eq, Cert.KernelIdeal.LossPay.pay2_eq, Cert.KernelIdeal.LossPay.pay7_eq,
    Cert.KernelIdeal.LossPay.pay3_eq, Cert.KernelIdeal.LossPay.pay4_eq⟩

/-- The encoder kernel's closed form. -/
theorem encForm : Cert.KernelIdeal.KValue.EncForm :=
  fun V c a3 a5 h3 h5 => Cert.KernelIdeal.EncValue.enc_value V c a3 a5 h3 h5

variable (m : (ℓ : Loc nD τ sig) → Buf (Elt Ideal) ℓ) (ρ : Dev nD → PrngReg)

/-- What the last stretch leaves in the result buffer is the reference's function of the launch contents. -/
theorem kernel_eq_ref (c : Dev nD) :
    W7 m ρ c (Proc.devRef .tc main_v65)
      = Cert.Spec.refOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [Cert.KernelIdeal.KValue.kernel_value m ρ c payForms encForm]
  unfold Cert.Spec.refOut Cert.Spec.outOf
  rw [Cert.RefLoss.loss_l2n_eq, Cert.RefLoss.loss_eq]
  unfold Cert.LossForm.lossForm
  simp only [zero_add]

/-- The idealized kernel program's run: it terminates with its result at the reference's function of the arguments,
    the arguments unchanged. -/
theorem kernel_run : θ_run defs (onTc (τ := τ) (main (F := Ideal))) ⟨m, fun _ => 0, ρ⟩ (fun r => ∀ c : Dev nD,
      r.2.mem ((c.tc : Thread nD τ).loc main_v65)
        = Cert.Spec.refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (kernel_eq_ref m ρ c), (h c).2⟩)
    (Cert.KernelIdeal.KRun.run_value (F := Ideal) m ρ)

end Cert.Bridge

end
-- ==== Proof.RefRun.lean ====
/-
  The reference's @main as ONE list of host operations, the outlined helper functions'
  operations listed where they are called, and its run: every weakly fair execution terminates with every
  buffer at the list's fold over the launch contents.
-/
import proofs.«151807_j21251498181534_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order; the leaky rectifier's seven and the clamp's six stand where they are called. -/
abbrev ops : List (HloOp τ sig (Elt F)) :=
  [ binary main_arg0 main_arg0 main_v0 (mulf : (⟨S200000x128, .f32⟩ : BufTy).Contents (Elt F) → (⟨S200000x128, .f32⟩ : BufTy).Contents (Elt F) → (⟨S200000x128, .f32⟩ : BufTy).Contents (Elt F)),
    nullary main_cst (constant S_ .f32 0x00000000#32),
    binary main_v0 main_cst main_v1 ((fun x v => Host.reduceAdd x v reducesTo_S200000x128_S200000_d1 h_S_) : (⟨S200000x128, .f32⟩ : BufTy).Contents (Elt F) → (⟨S_, .f32⟩ : BufTy).Contents (Elt F) → (⟨S200000, .f32⟩ : BufTy).Contents (Elt F)),
    unary main_v1 main_v2 (broadcastInDim S200000x1 ![0] bcast_S200000_S200000x1_0 : (⟨S200000, .f32⟩ : BufTy).Contents (Elt F) → (⟨S200000x1, .f32⟩ : BufTy).Contents (Elt F)),
    unary main_v2 main_v3 (Host.sqrt : (⟨S200000x1, .f32⟩ : BufTy).Contents (Elt F) → (⟨S200000x1, .f32⟩ : BufTy).Contents (Elt F)),
    nullary main_cst_0 (constant S_ .f32 0x2B8CBCCC#32),
    unary main_cst_0 main_v4 (broadcastInDim S200000x1 ![] bcast_S_S200000x1 : (⟨S_, .f32⟩ : BufTy).Contents (Elt F) → (⟨S200000x1, .f32⟩ : BufTy).Contents (Elt F)),
    binary main_v3 main_v4 main_v5 (maximumf : (⟨S200000x1, .f32⟩ : BufTy).Contents (Elt F) → (⟨S200000x1, .f32⟩ : BufTy).Contents (Elt F) → (⟨S200000x1, .f32⟩ : BufTy).Contents (Elt F)),
    unary main_v5 main_v6 (broadcastInDim S200000x128 ![0, 1] bcast_S200000x1_S200000x128_0_1 : (⟨S200000x1, .f32⟩ : BufTy).Contents (Elt F) → (⟨S200000x128, .f32⟩ : BufTy).Contents (Elt F)),
    binary main_arg0 main_v6 main_v7 (Host.divf : (⟨S200000x128, .f32⟩ : BufTy).Contents (Elt F) → (⟨S200000x128, .f32⟩ : BufTy).Contents (Elt F) → (⟨S200000x128, .f32⟩ : BufTy).Contents (Elt F)),
    binary main_v7 main_arg2 main_v8 ((fun l r => Host.dotGeneral dot_S200000x128_S128x256_S200000x256_1_0_0_1_n_n none l r) : (⟨S200000x128, .f32⟩ : BufTy).Contents (Elt F) → (⟨S128x256, .f32⟩ : BufTy).Contents (Elt F) → (⟨S200000x256, .f32⟩ : BufTy).Contents (Elt F)),
    unary main_arg3 main_v9 (broadcastInDim S1x256 ![1] bcast_S256_S1x256_1 : (⟨S256, .f32⟩ : BufTy).Contents (Elt F) → (⟨S1x256, .f32⟩ : BufTy).Contents (Elt F)),
    unary main_v9 main_v10 (broadcastInDim S200000x256 ![0, 1] bcast_S1x256_S200000x256_0_1 : (⟨S1x256, .f32⟩ : BufTy).Contents (Elt F) → (⟨S200000x256, .f32⟩ : BufTy).Contents (Elt F)),
    binary main_v8 main_v10 main_v11 (addf : (⟨S200000x256, .f32⟩ : BufTy).Contents (Elt F) → (⟨S200000x256, .f32⟩ : BufTy).Contents (Elt F) → (⟨S200000x256, .f32⟩ : BufTy).Contents (Elt F)),
    TRef.nullary main_call0.cst (constant S_ .f32 0x00000000#32),
    TRef.unary main_call0.cst main_call0.v0 (broadcastInDim S200000x256 ![] bcast_S_S200000x256),
    TRef.binary (.of main_v11) main_call0.v0 main_call0.v1 (cmpf .oge),
    TRef.nullary main_call0.cst_0 (constant S_ .f32 0x3C23D70A#32),
    TRef.unary main_call0.cst_0 main_call0.v2 (broadcastInDim S200000x256 ![] bcast_S_S200000x256),
    TRef.binary main_call0.v2 (.of main_v11) main_call0.v3 mulf,
    TRef.ternary main_call0.v1 (.of main_v11) main_call0.v3 main_call0.call0.v0 select,
    binary main_v12 main_arg4 main_v13 ((fun l r => Host.dotGeneral dot_S200000x256_S256x64_S200000x64_1_0_0_1_n_n none l r) : (⟨S200000x256, .f32⟩ : BufTy).Contents (Elt F) → (⟨S256x64, .f32⟩ : BufTy).Contents (Elt F) → (⟨S200000x64, .f32⟩ : BufTy).Contents (Elt F)),
    unary main_arg5 main_v14 (broadcastInDim S1x64 ![1] bcast_S64_S1x64_1 : (⟨S64, .f32⟩ : BufTy).Contents (Elt F) → (⟨S1x64, .f32⟩ : BufTy).Contents (Elt F)),
    unary main_v14 main_v15 (broadcastInDim S200000x64 ![0, 1] bcast_S1x64_S200000x64_0_1 : (⟨S1x64, .f32⟩ : BufTy).Contents (Elt F) → (⟨S200000x64, .f32⟩ : BufTy).Contents (Elt F)),
    binary main_v13 main_v15 main_v16 (addf : (⟨S200000x64, .f32⟩ : BufTy).Contents (Elt F) → (⟨S200000x64, .f32⟩ : BufTy).Contents (Elt F) → (⟨S200000x64, .f32⟩ : BufTy).Contents (Elt F)),
    unary main_arg7 main_v17 ((extractStridedSlice S16384x1 ![0, 0] · slices_S16384x17_S16384x1_0_0) : (⟨S16384x17, .i32⟩ : BufTy).Contents (Elt F) → (⟨S16384x1, .i32⟩ : BufTy).Contents (Elt F)),
    unary main_v17 main_v18 (broadcastInDim S16384x1x17 ![0, 1] bcast_S16384x1_S16384x1x17_0_1 : (⟨S16384x1, .i32⟩ : BufTy).Contents (Elt F) → (⟨S16384x1x17, .i32⟩ : BufTy).Contents (Elt F)),
    reshape main_v18 main_v19 rfl shapeCasts_S16384x1x17_S16384x17,
    reshape main_v19 main_v20 rfl shapeCasts_S16384x17_S278528,
    reshape main_arg6 main_v21 rfl shapeCasts_S16384x17_S278528,
    reshape main_arg7 main_v22 rfl shapeCasts_S16384x17_S278528,
    nullary main_c (constantI S_ 32 200000#32),
    unary main_c main_v23 (broadcastInDim S278528 ![] bcast_S_S278528 : (⟨S_, .i32⟩ : BufTy).Contents (Elt F) → (⟨S278528, .i32⟩ : BufTy).Contents (Elt F)),
    binary main_v22 main_v23 main_v24 (subi : (⟨S278528, .i32⟩ : BufTy).Contents (Elt F) → (⟨S278528, .i32⟩ : BufTy).Contents (Elt F) → (⟨S278528, .i32⟩ : BufTy).Contents (Elt F)),
    nullary main_c_1 (constantI S_ 32 0#32),
    nullary main_c_2 (constantI S_ 32 199999#32),
    TRef.unary (.of main_c_1) main_call1.v0 id,
    TRef.unary main_call1.v0 main_call1.v1 (broadcastInDim S278528 ![] bcast_S_S278528),
    TRef.binary main_call1.v1 (.of main_v24) main_call1.v2 maxsi,
    TRef.unary (.of main_c_2) main_call1.v3 id,
    TRef.unary main_call1.v3 main_call1.v4 (broadcastInDim S278528 ![] bcast_S_S278528),
    TRef.binary main_call1.v4 main_call1.v2 main_call1.v5 minsi,
    nullary main_c_3 (constantI S_ 32 0#32),
    unary main_c_3 main_v26 (broadcastInDim S278528 ![] bcast_S_S278528 : (⟨S_, .i32⟩ : BufTy).Contents (Elt F) → (⟨S278528, .i32⟩ : BufTy).Contents (Elt F)),
    binary main_v25 main_v26 main_v27 (cmpi .slt : (⟨S278528, .i32⟩ : BufTy).Contents (Elt F) → (⟨S278528, .i32⟩ : BufTy).Contents (Elt F) → (⟨S278528, .i1⟩ : BufTy).Contents (Elt F)),
    nullary main_c_4 (constantI S_ 32 200000#32),
    unary main_c_4 main_v28 (broadcastInDim S278528 ![] bcast_S_S278528 : (⟨S_, .i32⟩ : BufTy).Contents (Elt F) → (⟨S278528, .i32⟩ : BufTy).Contents (Elt F)),
    binary main_v25 main_v28 main_v29 (addi : (⟨S278528, .i32⟩ : BufTy).Contents (Elt F) → (⟨S278528, .i32⟩ : BufTy).Contents (Elt F) → (⟨S278528, .i32⟩ : BufTy).Contents (Elt F)),
    ternary main_v27 main_v29 main_v25 main_v30 (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)),
    unary main_v30 main_v31 (broadcastInDim S278528x1 ![0] bcast_S278528_S278528x1_0 : (⟨S278528, .i32⟩ : BufTy).Contents (Elt F) → (⟨S278528x1, .i32⟩ : BufTy).Contents (Elt F)),
    binary main_v16 main_v31 main_v32 ((fun x i => Host.gather gather_S200000x64_S278528x1_S278528x64_1_0_n_n_0_1_164 x i) : (⟨S200000x64, .f32⟩ : BufTy).Contents (Elt F) → (⟨S278528x1, .i32⟩ : BufTy).Contents (Elt F) → (⟨S278528x64, .f32⟩ : BufTy).Contents (Elt F)),
    nullary main_c_5 (constantI S_ 32 0#32),
    unary main_c_5 main_v33 (broadcastInDim S278528 ![] bcast_S_S278528 : (⟨S_, .i32⟩ : BufTy).Contents (Elt F) → (⟨S278528, .i32⟩ : BufTy).Contents (Elt F)),
    binary main_v21 main_v33 main_v34 (cmpi .slt : (⟨S278528, .i32⟩ : BufTy).Contents (Elt F) → (⟨S278528, .i32⟩ : BufTy).Contents (Elt F) → (⟨S278528, .i1⟩ : BufTy).Contents (Elt F)),
    nullary main_c_6 (constantI S_ 32 400000#32),
    unary main_c_6 main_v35 (broadcastInDim S278528 ![] bcast_S_S278528 : (⟨S_, .i32⟩ : BufTy).Contents (Elt F) → (⟨S278528, .i32⟩ : BufTy).Contents (Elt F)),
    binary main_v21 main_v35 main_v36 (addi : (⟨S278528, .i32⟩ : BufTy).Contents (Elt F) → (⟨S278528, .i32⟩ : BufTy).Contents (Elt F) → (⟨S278528, .i32⟩ : BufTy).Contents (Elt F)),
    ternary main_v34 main_v36 main_v21 main_v37 (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)),
    unary main_v37 main_v38 (broadcastInDim S278528x1 ![0] bcast_S278528_S278528x1_0 : (⟨S278528, .i32⟩ : BufTy).Contents (Elt F) → (⟨S278528x1, .i32⟩ : BufTy).Contents (Elt F)),
    binary main_arg1 main_v38 main_v39 ((fun x i => Host.gather gather_S400000x64_S278528x1_S278528x64_1_0_n_n_0_1_164 x i) : (⟨S400000x64, .f32⟩ : BufTy).Contents (Elt F) → (⟨S278528x1, .i32⟩ : BufTy).Contents (Elt F) → (⟨S278528x64, .f32⟩ : BufTy).Contents (Elt F)),
    nullary main_c_7 (constantI S_ 32 0#32),
    unary main_c_7 main_v40 (broadcastInDim S278528 ![] bcast_S_S278528 : (⟨S_, .i32⟩ : BufTy).Contents (Elt F) → (⟨S278528, .i32⟩ : BufTy).Contents (Elt F)),
    binary main_v20 main_v40 main_v41 (cmpi .slt : (⟨S278528, .i32⟩ : BufTy).Contents (Elt F) → (⟨S278528, .i32⟩ : BufTy).Contents (Elt F) → (⟨S278528, .i1⟩ : BufTy).Contents (Elt F)),
    nullary main_c_8 (constantI S_ 32 400000#32),
    unary main_c_8 main_v42 (broadcastInDim S278528 ![] bcast_S_S278528 : (⟨S_, .i32⟩ : BufTy).Contents (Elt F) → (⟨S278528, .i32⟩ : BufTy).Contents (Elt F)),
    binary main_v20 main_v42 main_v43 (addi : (⟨S278528, .i32⟩ : BufTy).Contents (Elt F) → (⟨S278528, .i32⟩ : BufTy).Contents (Elt F) → (⟨S278528, .i32⟩ : BufTy).Contents (Elt F)),
    ternary main_v41 main_v43 main_v20 main_v44 (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)),
    unary main_v44 main_v45 (broadcastInDim S278528x1 ![0] bcast_S278528_S278528x1_0 : (⟨S278528, .i32⟩ : BufTy).Contents (Elt F) → (⟨S278528x1, .i32⟩ : BufTy).Contents (Elt F)),
    binary main_arg1 main_v45 main_v46 ((fun x i => Host.gather gather_S400000x64_S278528x1_S278528x64_1_0_n_n_0_1_164 x i) : (⟨S400000x64, .f32⟩ : BufTy).Contents (Elt F) → (⟨S278528x1, .i32⟩ : BufTy).Contents (Elt F) → (⟨S278528x64, .f32⟩ : BufTy).Contents (Elt F)),
    nullary main_c_9 (constantI S_ 32 0#32),
    unary main_c_9 main_v47 (broadcastInDim S278528 ![] bcast_S_S278528 : (⟨S_, .i32⟩ : BufTy).Contents (Elt F) → (⟨S278528, .i32⟩ : BufTy).Contents (Elt F)),
    binary main_v22 main_v47 main_v48 (cmpi .slt : (⟨S278528, .i32⟩ : BufTy).Contents (Elt F) → (⟨S278528, .i32⟩ : BufTy).Contents (Elt F) → (⟨S278528, .i1⟩ : BufTy).Contents (Elt F)),
    nullary main_c_10 (constantI S_ 32 400000#32),
    unary main_c_10 main_v49 (broadcastInDim S278528 ![] bcast_S_S278528 : (⟨S_, .i32⟩ : BufTy).Contents (Elt F) → (⟨S278528, .i32⟩ : BufTy).Contents (Elt F)),
    binary main_v22 main_v49 main_v50 (addi : (⟨S278528, .i32⟩ : BufTy).Contents (Elt F) → (⟨S278528, .i32⟩ : BufTy).Contents (Elt F) → (⟨S278528, .i32⟩ : BufTy).Contents (Elt F)),
    ternary main_v48 main_v50 main_v22 main_v51 (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)),
    unary main_v51 main_v52 (broadcastInDim S278528x1 ![0] bcast_S278528_S278528x1_0 : (⟨S278528, .i32⟩ : BufTy).Contents (Elt F) → (⟨S278528x1, .i32⟩ : BufTy).Contents (Elt F)),
    binary main_arg1 main_v52 main_v53 ((fun x i => Host.gather gather_S400000x64_S278528x1_S278528x64_1_0_n_n_0_1_164 x i) : (⟨S400000x64, .f32⟩ : BufTy).Contents (Elt F) → (⟨S278528x1, .i32⟩ : BufTy).Contents (Elt F) → (⟨S278528x64, .f32⟩ : BufTy).Contents (Elt F)),
    binary main_v32 main_v32 main_v54 (mulf : (⟨S278528x64, .f32⟩ : BufTy).Contents (Elt F) → (⟨S278528x64, .f32⟩ : BufTy).Contents (Elt F) → (⟨S278528x64, .f32⟩ : BufTy).Contents (Elt F)),
    nullary main_cst_11 (constant S_ .f32 0x00000000#32),
    binary main_v54 main_cst_11 main_v55 ((fun x v => Host.reduceAdd x v reducesTo_S278528x64_S278528_d1 h_S_) : (⟨S278528x64, .f32⟩ : BufTy).Contents (Elt F) → (⟨S_, .f32⟩ : BufTy).Contents (Elt F) → (⟨S278528, .f32⟩ : BufTy).Contents (Elt F)),
    unary main_v55 main_v56 (broadcastInDim S278528x1 ![0] bcast_S278528_S278528x1_0 : (⟨S278528, .f32⟩ : BufTy).Contents (Elt F) → (⟨S278528x1, .f32⟩ : BufTy).Contents (Elt F)),
    unary main_v56 main_v57 (Host.sqrt : (⟨S278528x1, .f32⟩ : BufTy).Contents (Elt F) → (⟨S278528x1, .f32⟩ : BufTy).Contents (Elt F)),
    nullary main_cst_12 (constant S_ .f32 0x2B8CBCCC#32),
    unary main_cst_12 main_v58 (broadcastInDim S278528x1 ![] bcast_S_S278528x1 : (⟨S_, .f32⟩ : BufTy).Contents (Elt F) → (⟨S278528x1, .f32⟩ : BufTy).Contents (Elt F)),
    binary main_v57 main_v58 main_v59 (maximumf : (⟨S278528x1, .f32⟩ : BufTy).Contents (Elt F) → (⟨S278528x1, .f32⟩ : BufTy).Contents (Elt F) → (⟨S278528x1, .f32⟩ : BufTy).Contents (Elt F)),
    unary main_v59 main_v60 (broadcastInDim S278528x64 ![0, 1] bcast_S278528x1_S278528x64_0_1 : (⟨S278528x1, .f32⟩ : BufTy).Contents (Elt F) → (⟨S278528x64, .f32⟩ : BufTy).Contents (Elt F)),
    binary main_v32 main_v60 main_v61 (Host.divf : (⟨S278528x64, .f32⟩ : BufTy).Contents (Elt F) → (⟨S278528x64, .f32⟩ : BufTy).Contents (Elt F) → (⟨S278528x64, .f32⟩ : BufTy).Contents (Elt F)),
    binary main_v46 main_v46 main_v62 (mulf : (⟨S278528x64, .f32⟩ : BufTy).Contents (Elt F) → (⟨S278528x64, .f32⟩ : BufTy).Contents (Elt F) → (⟨S278528x64, .f32⟩ : BufTy).Contents (Elt F)),
    nullary main_cst_13 (constant S_ .f32 0x00000000#32),
    binary main_v62 main_cst_13 main_v63 ((fun x v => Host.reduceAdd x v reducesTo_S278528x64_S278528_d1 h_S_) : (⟨S278528x64, .f32⟩ : BufTy).Contents (Elt F) → (⟨S_, .f32⟩ : BufTy).Contents (Elt F) → (⟨S278528, .f32⟩ : BufTy).Contents (Elt F)),
    unary main_v63 main_v64 (broadcastInDim S278528x1 ![0] bcast_S278528_S278528x1_0 : (⟨S278528, .f32⟩ : BufTy).Contents (Elt F) → (⟨S278528x1, .f32⟩ : BufTy).Contents (Elt F)),
    unary main_v64 main_v65 (Host.sqrt : (⟨S278528x1, .f32⟩ : BufTy).Contents (Elt F) → (⟨S278528x1, .f32⟩ : BufTy).Contents (Elt F)),
    nullary main_cst_14 (constant S_ .f32 0x2B8CBCCC#32),
    unary main_cst_14 main_v66 (broadcastInDim S278528x1 ![] bcast_S_S278528x1 : (⟨S_, .f32⟩ : BufTy).Contents (Elt F) → (⟨S278528x1, .f32⟩ : BufTy).Contents (Elt F)),
    binary main_v65 main_v66 main_v67 (maximumf : (⟨S278528x1, .f32⟩ : BufTy).Contents (Elt F) → (⟨S278528x1, .f32⟩ : BufTy).Contents (Elt F) → (⟨S278528x1, .f32⟩ : BufTy).Contents (Elt F)),
    unary main_v67 main_v68 (broadcastInDim S278528x64 ![0, 1] bcast_S278528x1_S278528x64_0_1 : (⟨S278528x1, .f32⟩ : BufTy).Contents (Elt F) → (⟨S278528x64, .f32⟩ : BufTy).Contents (Elt F)),
    binary main_v46 main_v68 main_v69 (Host.divf : (⟨S278528x64, .f32⟩ : BufTy).Contents (Elt F) → (⟨S278528x64, .f32⟩ : BufTy).Contents (Elt F) → (⟨S278528x64, .f32⟩ : BufTy).Contents (Elt F)),
    nullary main_c_15 (constantI S_ 32 0#32),
    unary main_c_15 main_v70 (broadcastInDim S139264 ![] bcast_S_S139264 : (⟨S_, .i32⟩ : BufTy).Contents (Elt F) → (⟨S139264, .i32⟩ : BufTy).Contents (Elt F)),
    binary main_arg8 main_v70 main_v71 (cmpi .slt : (⟨S139264, .i32⟩ : BufTy).Contents (Elt F) → (⟨S139264, .i32⟩ : BufTy).Contents (Elt F) → (⟨S139264, .i1⟩ : BufTy).Contents (Elt F)),
    nullary main_c_16 (constantI S_ 32 278528#32),
    unary main_c_16 main_v72 (broadcastInDim S139264 ![] bcast_S_S139264 : (⟨S_, .i32⟩ : BufTy).Contents (Elt F) → (⟨S139264, .i32⟩ : BufTy).Contents (Elt F)),
    binary main_arg8 main_v72 main_v73 (addi : (⟨S139264, .i32⟩ : BufTy).Contents (Elt F) → (⟨S139264, .i32⟩ : BufTy).Contents (Elt F) → (⟨S139264, .i32⟩ : BufTy).Contents (Elt F)),
    ternary main_v71 main_v73 main_arg8 main_v74 (select : (⟨S139264, .i1⟩ : BufTy).Contents (Elt F) → (⟨S139264, .i32⟩ : BufTy).Contents (Elt F) → (⟨S139264, .i32⟩ : BufTy).Contents (Elt F) → (⟨S139264, .i32⟩ : BufTy).Contents (Elt F)),
    unary main_v74 main_v75 (broadcastInDim S139264x1 ![0] bcast_S139264_S139264x1_0 : (⟨S139264, .i32⟩ : BufTy).Contents (Elt F) → (⟨S139264x1, .i32⟩ : BufTy).Contents (Elt F)),
    binary main_v32 main_v75 main_v76 ((fun x i => Host.gather gather_S278528x64_S139264x1_S139264x64_1_0_n_n_0_1_164 x i) : (⟨S278528x64, .f32⟩ : BufTy).Contents (Elt F) → (⟨S139264x1, .i32⟩ : BufTy).Contents (Elt F) → (⟨S139264x64, .f32⟩ : BufTy).Contents (Elt F)),
    nullary main_c_17 (constantI S_ 32 0#32),
    unary main_c_17 main_v77 (broadcastInDim S139264 ![] bcast_S_S139264 : (⟨S_, .i32⟩ : BufTy).Contents (Elt F) → (⟨S139264, .i32⟩ : BufTy).Contents (Elt F)),
    binary main_arg8 main_v77 main_v78 (cmpi .slt : (⟨S139264, .i32⟩ : BufTy).Contents (Elt F) → (⟨S139264, .i32⟩ : BufTy).Contents (Elt F) → (⟨S139264, .i1⟩ : BufTy).Contents (Elt F)),
    nullary main_c_18 (constantI S_ 32 278528#32),
    unary main_c_18 main_v79 (broadcastInDim S139264 ![] bcast_S_S139264 : (⟨S_, .i32⟩ : BufTy).Contents (Elt F) → (⟨S139264, .i32⟩ : BufTy).Contents (Elt F)),
    binary main_arg8 main_v79 main_v80 (addi : (⟨S139264, .i32⟩ : BufTy).Contents (Elt F) → (⟨S139264, .i32⟩ : BufTy).Contents (Elt F) → (⟨S139264, .i32⟩ : BufTy).Contents (Elt F)),
    ternary main_v78 main_v80 main_arg8 main_v81 (select : (⟨S139264, .i1⟩ : BufTy).Contents (Elt F) → (⟨S139264, .i32⟩ : BufTy).Contents (Elt F) → (⟨S139264, .i32⟩ : BufTy).Contents (Elt F) → (⟨S139264, .i32⟩ : BufTy).Contents (Elt F)),
    unary main_v81 main_v82 (broadcastInDim S139264x1 ![0] bcast_S139264_S139264x1_0 : (⟨S139264, .i32⟩ : BufTy).Contents (Elt F) → (⟨S139264x1, .i32⟩ : BufTy).Contents (Elt F)),
    ternary main_v53 main_v82 main_v76 main_v83 ((fun x i u => Host.scatter scatter_S278528x64_S139264x1_S139264x64_1_0_0_1 (fun _ b => b) x i u) : (⟨S278528x64, .f32⟩ : BufTy).Contents (Elt F) → (⟨S139264x1, .i32⟩ : BufTy).Contents (Elt F) → (⟨S139264x64, .f32⟩ : BufTy).Contents (Elt F) → (⟨S278528x64, .f32⟩ : BufTy).Contents (Elt F)),
    binary main_v69 main_v61 main_v84 (mulf : (⟨S278528x64, .f32⟩ : BufTy).Contents (Elt F) → (⟨S278528x64, .f32⟩ : BufTy).Contents (Elt F) → (⟨S278528x64, .f32⟩ : BufTy).Contents (Elt F)),
    nullary main_cst_19 (constant S_ .f32 0x00000000#32),
    binary main_v84 main_cst_19 main_v85 ((fun x v => Host.reduceAdd x v reducesTo_S278528x64_S278528_d1 h_S_) : (⟨S278528x64, .f32⟩ : BufTy).Contents (Elt F) → (⟨S_, .f32⟩ : BufTy).Contents (Elt F) → (⟨S278528, .f32⟩ : BufTy).Contents (Elt F)),
    nullary main_cst_20 (constant S_ .f32 0x3E4CCCCD#32),
    unary main_cst_20 main_v86 (broadcastInDim S278528 ![] bcast_S_S278528 : (⟨S_, .f32⟩ : BufTy).Contents (Elt F) → (⟨S278528, .f32⟩ : BufTy).Contents (Elt F)),
    binary main_v85 main_v86 main_v87 (Host.divf : (⟨S278528, .f32⟩ : BufTy).Contents (Elt F) → (⟨S278528, .f32⟩ : BufTy).Contents (Elt F) → (⟨S278528, .f32⟩ : BufTy).Contents (Elt F)),
    unary main_v87 main_v88 (Host.exp : (⟨S278528, .f32⟩ : BufTy).Contents (Elt F) → (⟨S278528, .f32⟩ : BufTy).Contents (Elt F)),
    reshape main_v88 main_v89 rfl shapeCasts_S278528_S16384x17,
    unary main_v89 main_v90 ((extractStridedSlice S16384x1 ![0, 0] · slices_S16384x17_S16384x1_0_0) : (⟨S16384x17, .f32⟩ : BufTy).Contents (Elt F) → (⟨S16384x1, .f32⟩ : BufTy).Contents (Elt F)),
    reshape main_v90 main_v91 rfl shapeCasts_S16384x1_S16384,
    nullary main_cst_21 (constant S_ .f32 0x00000000#32),
    binary main_v89 main_cst_21 main_v92 ((fun x v => Host.reduceAdd x v reducesTo_S16384x17_S16384_d1 h_S_) : (⟨S16384x17, .f32⟩ : BufTy).Contents (Elt F) → (⟨S_, .f32⟩ : BufTy).Contents (Elt F) → (⟨S16384, .f32⟩ : BufTy).Contents (Elt F)),
    nullary main_cst_22 (constant S_ .f32 0x322BCC77#32),
    unary main_cst_22 main_v93 (broadcastInDim S16384 ![] bcast_S_S16384 : (⟨S_, .f32⟩ : BufTy).Contents (Elt F) → (⟨S16384, .f32⟩ : BufTy).Contents (Elt F)),
    binary main_v92 main_v93 main_v94 (addf : (⟨S16384, .f32⟩ : BufTy).Contents (Elt F) → (⟨S16384, .f32⟩ : BufTy).Contents (Elt F) → (⟨S16384, .f32⟩ : BufTy).Contents (Elt F)),
    binary main_v91 main_v94 main_v95 (Host.divf : (⟨S16384, .f32⟩ : BufTy).Contents (Elt F) → (⟨S16384, .f32⟩ : BufTy).Contents (Elt F) → (⟨S16384, .f32⟩ : BufTy).Contents (Elt F)),
    nullary main_cst_23 (constant S_ .f32 0x322BCC77#32),
    unary main_cst_23 main_v96 (broadcastInDim S16384 ![] bcast_S_S16384 : (⟨S_, .f32⟩ : BufTy).Contents (Elt F) → (⟨S16384, .f32⟩ : BufTy).Contents (Elt F)),
    binary main_v95 main_v96 main_v97 (addf : (⟨S16384, .f32⟩ : BufTy).Contents (Elt F) → (⟨S16384, .f32⟩ : BufTy).Contents (Elt F) → (⟨S16384, .f32⟩ : BufTy).Contents (Elt F)),
    unary main_v97 main_v98 (Host.log : (⟨S16384, .f32⟩ : BufTy).Contents (Elt F) → (⟨S16384, .f32⟩ : BufTy).Contents (Elt F)),
    unary main_v98 main_v99 (Host.negf : (⟨S16384, .f32⟩ : BufTy).Contents (Elt F) → (⟨S16384, .f32⟩ : BufTy).Contents (Elt F)),
    nullary main_cst_24 (constant S_ .f32 0x00000000#32),
    binary main_v99 main_cst_24 main_v100 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_25 (constant S_ .f32 0x46800000#32),
    binary main_v100 main_cst_25 main_v101 (Host.divf : (⟨S_, .f32⟩ : BufTy).Contents (Elt F) → (⟨S_, .f32⟩ : BufTy).Contents (Elt F) → (⟨S_, .f32⟩ : BufTy).Contents (Elt F)),
    binary main_v39 main_v83 main_v102 (mulf : (⟨S278528x64, .f32⟩ : BufTy).Contents (Elt F) → (⟨S278528x64, .f32⟩ : BufTy).Contents (Elt F) → (⟨S278528x64, .f32⟩ : BufTy).Contents (Elt F)),
    nullary main_cst_26 (constant S_ .f32 0x00000000#32),
    binary main_v102 main_cst_26 main_v103 ((fun x v => Host.reduceAdd x v reducesTo_S278528x64_S278528_d1 h_S_) : (⟨S278528x64, .f32⟩ : BufTy).Contents (Elt F) → (⟨S_, .f32⟩ : BufTy).Contents (Elt F) → (⟨S278528, .f32⟩ : BufTy).Contents (Elt F)),
    nullary main_cst_27 (constant S_ .f32 0x3E4CCCCD#32),
    unary main_cst_27 main_v104 (broadcastInDim S278528 ![] bcast_S_S278528 : (⟨S_, .f32⟩ : BufTy).Contents (Elt F) → (⟨S278528, .f32⟩ : BufTy).Contents (Elt F)),
    binary main_v103 main_v104 main_v105 (Host.divf : (⟨S278528, .f32⟩ : BufTy).Contents (Elt F) → (⟨S278528, .f32⟩ : BufTy).Contents (Elt F) → (⟨S278528, .f32⟩ : BufTy).Contents (Elt F)),
    unary main_v105 main_v106 (Host.exp : (⟨S278528, .f32⟩ : BufTy).Contents (Elt F) → (⟨S278528, .f32⟩ : BufTy).Contents (Elt F)),
    reshape main_v106 main_v107 rfl shapeCasts_S278528_S16384x17,
    unary main_v107 main_v108 ((extractStridedSlice S16384x1 ![0, 0] · slices_S16384x17_S16384x1_0_0) : (⟨S16384x17, .f32⟩ : BufTy).Contents (Elt F) → (⟨S16384x1, .f32⟩ : BufTy).Contents (Elt F)),
    reshape main_v108 main_v109 rfl shapeCasts_S16384x1_S16384,
    nullary main_cst_28 (constant S_ .f32 0x00000000#32),
    binary main_v107 main_cst_28 main_v110 ((fun x v => Host.reduceAdd x v reducesTo_S16384x17_S16384_d1 h_S_) : (⟨S16384x17, .f32⟩ : BufTy).Contents (Elt F) → (⟨S_, .f32⟩ : BufTy).Contents (Elt F) → (⟨S16384, .f32⟩ : BufTy).Contents (Elt F)),
    nullary main_cst_29 (constant S_ .f32 0x322BCC77#32),
    unary main_cst_29 main_v111 (broadcastInDim S16384 ![] bcast_S_S16384 : (⟨S_, .f32⟩ : BufTy).Contents (Elt F) → (⟨S16384, .f32⟩ : BufTy).Contents (Elt F)),
    binary main_v110 main_v111 main_v112 (addf : (⟨S16384, .f32⟩ : BufTy).Contents (Elt F) → (⟨S16384, .f32⟩ : BufTy).Contents (Elt F) → (⟨S16384, .f32⟩ : BufTy).Contents (Elt F)),
    binary main_v109 main_v112 main_v113 (Host.divf : (⟨S16384, .f32⟩ : BufTy).Contents (Elt F) → (⟨S16384, .f32⟩ : BufTy).Contents (Elt F) → (⟨S16384, .f32⟩ : BufTy).Contents (Elt F)),
    nullary main_cst_30 (constant S_ .f32 0x322BCC77#32),
    unary main_cst_30 main_v114 (broadcastInDim S16384 ![] bcast_S_S16384 : (⟨S_, .f32⟩ : BufTy).Contents (Elt F) → (⟨S16384, .f32⟩ : BufTy).Contents (Elt F)),
    binary main_v113 main_v114 main_v115 (addf : (⟨S16384, .f32⟩ : BufTy).Contents (Elt F) → (⟨S16384, .f32⟩ : BufTy).Contents (Elt F) → (⟨S16384, .f32⟩ : BufTy).Contents (Elt F)),
    unary main_v115 main_v116 (Host.log : (⟨S16384, .f32⟩ : BufTy).Contents (Elt F) → (⟨S16384, .f32⟩ : BufTy).Contents (Elt F)),
    unary main_v116 main_v117 (Host.negf : (⟨S16384, .f32⟩ : BufTy).Contents (Elt F) → (⟨S16384, .f32⟩ : BufTy).Contents (Elt F)),
    nullary main_cst_31 (constant S_ .f32 0x00000000#32),
    binary main_v117 main_cst_31 main_v118 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_32 (constant S_ .f32 0x46800000#32),
    binary main_v118 main_cst_32 main_v119 (Host.divf : (⟨S_, .f32⟩ : BufTy).Contents (Elt F) → (⟨S_, .f32⟩ : BufTy).Contents (Elt F) → (⟨S_, .f32⟩ : BufTy).Contents (Elt F)),
    nullary main_cst_33 (constant S_ .f32 0x3F000000#32),
    binary main_cst_33 main_v101 main_v120 (mulf : (⟨S_, .f32⟩ : BufTy).Contents (Elt F) → (⟨S_, .f32⟩ : BufTy).Contents (Elt F) → (⟨S_, .f32⟩ : BufTy).Contents (Elt F)),
    nullary main_cst_34 (constant S_ .f32 0x3F000000#32),
    binary main_cst_34 main_v119 main_v121 (mulf : (⟨S_, .f32⟩ : BufTy).Contents (Elt F) → (⟨S_, .f32⟩ : BufTy).Contents (Elt F) → (⟨S_, .f32⟩ : BufTy).Contents (Elt F)),
    binary main_v120 main_v121 main_v122 (addf : (⟨S_, .f32⟩ : BufTy).Contents (Elt F) → (⟨S_, .f32⟩ : BufTy).Contents (Elt F) → (⟨S_, .f32⟩ : BufTy).Contents (Elt F)) ]

-- one hundred and seventy-one binds re-associated: the rewrite under the chain recurses once per statement
set_option maxRecDepth 8192 in
set_option maxHeartbeats 4000000 in
/-- @main is that straight line: the three windows in order, the helper functions' definitions unfolded at their
    calls and the calls' records at their fields; both sides are then one chain of steps once sequencing is
    re-associated. -/
theorem main_eq (c : Dev nD) : main (F := F) c = seq ops := by
  simp only [main, main_part0, main_part1, main_part2, fn_leaky_relu.body, fn_where.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub ..,
    unary_bufs_sub .., binary_bufs_sub .., unary_bufs_sub .., binary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., binary_bufs_sub .., unary_bufs_sub .., unary_bufs_sub ..,
    binary_bufs_sub .., unary_bufs_sub .., unary_bufs_sub .., reshape_bufs_sub .., reshape_bufs_sub .., reshape_bufs_sub ..,
    reshape_bufs_sub .., nullary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., binary_bufs_sub .., unary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., ternary_bufs_sub .., binary_bufs_sub .., nullary_bufs_sub .., binary_bufs_sub .., nullary_bufs_sub ..,
    unary_bufs_sub .., binary_bufs_sub .., unary_bufs_sub .., reshape_bufs_sub .., unary_bufs_sub .., reshape_bufs_sub ..,
    nullary_bufs_sub .., binary_bufs_sub .., nullary_bufs_sub .., unary_bufs_sub .., binary_bufs_sub .., binary_bufs_sub ..,
    nullary_bufs_sub .., unary_bufs_sub .., binary_bufs_sub .., unary_bufs_sub .., unary_bufs_sub .., nullary_bufs_sub ..,
    binary_bufs_sub .., nullary_bufs_sub .., binary_bufs_sub .., binary_bufs_sub .., nullary_bufs_sub .., binary_bufs_sub ..,
    nullary_bufs_sub .., unary_bufs_sub .., binary_bufs_sub .., unary_bufs_sub .., reshape_bufs_sub .., unary_bufs_sub ..,
    reshape_bufs_sub .., nullary_bufs_sub .., binary_bufs_sub .., nullary_bufs_sub .., unary_bufs_sub .., binary_bufs_sub ..,
    binary_bufs_sub .., nullary_bufs_sub .., unary_bufs_sub .., binary_bufs_sub .., unary_bufs_sub .., unary_bufs_sub ..,
    nullary_bufs_sub .., binary_bufs_sub .., nullary_bufs_sub .., binary_bufs_sub .., nullary_bufs_sub .., binary_bufs_sub ..,
    nullary_bufs_sub .., binary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The value of the reference's run: the fold of @main's operations over the launch contents, read at the result
  buffer, is the pure function `Cert.Spec.refOut` of the nine argument arrays' contents, and every argument
  buffer is left as it was. Each operation writes one buffer of its own, so the fold read at a buffer is that
  buffer's operation applied to the fold read at its operands, down to the arguments.
-/
import proofs.«151807_j21251498181534_1_alg».proof.Proof.RefRun
import proofs.«151807_j21251498181534_1_alg».proof.Proof.Spec

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

attribute [local irreducible] Host.reduceAdd Host.gather Host.scatter in
set_option maxRecDepth 65536 in
set_option maxHeartbeats 8000000 in
/-- The fold read at the result buffer is `refOut` of the arguments' contents: each operation's result at its own
    buffer is its function of its operands' contents, and at any other buffer what was there; the composed term is
    `refOut`'s by unfolding its stages. The reductions, gathers, and the scatter stay folded (the matrix product is the float operations' own, which nothing unfolds):
    the equation never looks inside them. -/
theorem out_eq (V : Valuation τ sig (Elt F)) :
    after ops V (main_v122 : DevRef τ sig)
      = Cert.Spec.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  after_results_simp
  rfl

section Args
set_option maxRecDepth 65536
set_option maxHeartbeats 8000000

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

end Args

/-- At the compiled mesh, for any float values, from any memory with zero counters: every weakly fair execution of
    @main terminates with the result buffer at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v122) = Cert.Spec.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v122).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_main m ρ)

end Cert.ReferenceIdeal.RefValue

end
-- ==== Proof.lean ====
/-
  The certificate.  The kernel program runs an encoder kernel (row-normalised features through two matrix
  products with a leaky rectifier between them), gathers and scatters rows on the host, and sums a contrastive
  loss tile by tile in a second kernel; the reference does all of it on the host.  At the ideal instance both end
  at the same extended real: the encoder's blocks are the blocks of the host encoder's table, the host
  operations between the kernels are the reference's own, and a sum accumulated over 128 tiles of 128 groups
  is the sum over the 16384 groups.  The three frames are the programs' runs with the result forgotten; the
  idealization rewrote nothing.
-/
import proofs.«151807_j21251498181534_1_alg».proof.Defs
import proofs.«151807_j21251498181534_1_alg».proof.Proof.Gen.Kernel
import proofs.«151807_j21251498181534_1_alg».proof.Proof.Gen.Kernel.Frame
import proofs.«151807_j21251498181534_1_alg».proof.Proof.Gen.KernelIdeal
import proofs.«151807_j21251498181534_1_alg».proof.Proof.Gen.KernelIdeal.Frame
import proofs.«151807_j21251498181534_1_alg».proof.Proof.Gen.ReferenceIdeal
import proofs.«151807_j21251498181534_1_alg».proof.Proof.Gen.Pre_finite_inputs
import proofs.«151807_j21251498181534_1_alg».proof.Proof.Bridge
import proofs.«151807_j21251498181534_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run (F := Ideal) m ρ)

/-- Both idealized programs end at the reference's function of arguments that agree. -/
theorem algebraic : Cert.algebraic_KernelIdeal_ReferenceIdeal := by
  intro m ρ m' ρ' _ hagree
  refine ⟨_, Cert.Bridge.kernel_run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
